-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x256 : Shape := ⟨2, ![512, 256]⟩
abbrev S512x1 : Shape := ⟨2, ![512, 1]⟩
abbrev S8192x8192 : Shape := ⟨2, ![8192, 8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S8192x512 .f32) (main_arg1 : FVec F S512x256 .f32) (main_arg2 : FVec F S512x1 .f32) (main_arg3 : IVec S8192x8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  main_v13
-- ==== Kernel.lean ====
abbrev S8192x512 : Shape := ⟨2, ![8192, 512]⟩
abbrev S512x256 : Shape := ⟨2, ![512, 256]⟩
abbrev S512x1 : Shape := ⟨2, ![512, 1]⟩
abbrev S8192x8192 : Shape := ⟨2, ![8192, 8192]⟩
abbrev S256x1 : Shape := ⟨2, ![256, 1]⟩
abbrev S1x256 : Shape := ⟨2, ![1, 256]⟩
abbrev S8192x256 : Shape := ⟨2, ![8192, 256]⟩
abbrev S8192x1 : Shape := ⟨2, ![8192, 1]⟩
abbrev S1024x512 : Shape := ⟨2, ![1024, 512]⟩
abbrev S1024x256 : Shape := ⟨2, ![1024, 256]⟩
abbrev S1024x1 : Shape := ⟨2, ![1024, 1]⟩
abbrev S1024 : Shape := ⟨1, ![1024]⟩
abbrev S_ : Shape := ⟨0, ![]⟩
abbrev S1x8192 : Shape := ⟨2, ![1, 8192]⟩
abbrev S1x1024 : Shape := ⟨2, ![1, 1024]⟩
abbrev S1024x1024 : Shape := ⟨2, ![1024, 1024]⟩

abbrev nBuf : Space → Nat
  | .hbm => 20
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S512x1, .f32⟩
  | .hbm, ⟨3, _⟩ => ⟨S8192x8192, .i32⟩
  | .hbm, ⟨4, _⟩ => ⟨S256x1, .f32⟩
  | .hbm, ⟨5, _⟩ => ⟨S256x1, .f32⟩
  | .hbm, ⟨6, _⟩ => ⟨S1x256, .f32⟩
  | .hbm, ⟨7, _⟩ => ⟨S1x256, .f32⟩
  | .hbm, ⟨8, _⟩ => ⟨S8192x256, .bf16⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S1x8192, .f32⟩
  | .hbm, ⟨19, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1x256, .f32⟩
  | .local _ .vmem, ⟨4, _⟩ => ⟨S1x256, .f32⟩
  | .local _ .vmem, ⟨5, _⟩ => ⟨S1024x256, .bf16⟩
  | .local _ .vmem, ⟨6, _⟩ => ⟨S1024x256, .bf16⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S8192x256, .bf16⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1x1024, .f32⟩
  | .local _ .vmem, ⟨17, _⟩ => ⟨S1x1024, .f32⟩
  | .local _ .vmem, ⟨18, _⟩ => ⟨S1024x1024, .i32⟩
  | .local _ .vmem, ⟨19, _⟩ => ⟨S1024x1024, .i32⟩
  | .local _ .vmem, ⟨20, _⟩ => ⟨S1024x256, .f32⟩
  | .local _ .vmem, ⟨21, _⟩ => ⟨S1024x256, .f32⟩
  | .local _ .vmem, ⟨22, _⟩ => ⟨S1024x1, .f32⟩
  | .local _ .vmem, ⟨23, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v32 : BitVec 32 := Scalar.muli arg1 c1024_i32
  v32
def k1_off1 (i : grid1.Coords) : Fin 2 → Nat :=
  let arg1 : BitVec 32 := BitVec.ofNat 32 (i 1).val
  let c1024_i32 : BitVec 32 := 1024#32
  let v32 : BitVec 32 := Scalar.muli arg1 c1024_i32
  let v33 : BitVec 32 := v32
  let v34 : Index := Scalar.indexCast v33
  let c0_16 : Index := 0#32
  ![v34.toNat, 0]
def k1_cond2 (i : grid1.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_22 : BitVec 32 := 0#32
  let v46 : BitVec 1 := Scalar.cmpi .ne v45 c0_i32_22
  v46

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S8192x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S512x1_S256x1_0_0 : S512x1.Slices ![0, 0] S256x1
  slices_S512x1_S256x1_256_0 : S512x1.Slices ![256, 0] S256x1
  transposes_S256x1_S1x256_1_0 : S256x1.Transposes [1, 0] S1x256
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  reducesTo_S8192x1_S_d0_1 : S8192x1.ReducesTo [0, 1] S_
  h_S_ : 0 < S_.numel
  bcast_S_S8192x1 : S_.BroadcastsInDim S8192x1 (![] : Fin 0 → Fin S8192x1.rank)
  transposes_S8192x1_S1x8192_1_0 : S8192x1.Transposes [1, 0] S1x8192
  shapeCasts_S1024x1_S1024x1 : S1024x1.ShapeCasts S1024x1
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  broadcasts_S1024x1_S1024x256 : S1024x1.Broadcasts S1024x256
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S8192x256.size a
  hwx1_0 : ∀ i : grid1.Coords, EltTy.bits .bf16 = 32 ∨ (Rect.block (s := S8192x256) S8192x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x8192.size a
  hwx1_4 : ∀ i : grid1.Coords, EltTy.bits .i32 = 32 ∨ (Rect.block (s := S8192x8192) S1024x1024.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S8192x256.size a
  hwx1_5 : ∀ i : grid1.Coords, EltTy.bits .f32 = 32 ∨ (Rect.block (s := S8192x256) S1024x256.size (cc1_transform_5 i) (hinb1_5 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_0) S8192x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S1024x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S512x256 : Shape := ⟨2, ![512, 256]⟩
abbrev S512x1 : Shape := ⟨2, ![512, 1]⟩
abbrev S8192x8192 : Shape := ⟨2, ![8192, 8192]⟩
abbrev S8192x256 : Shape := ⟨2, ![8192, 256]⟩
abbrev S256x1 : Shape := ⟨2, ![256, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S512x1, .f32⟩
  | .hbm, ⟨3, _⟩ => ⟨S8192x8192, .i32⟩
  | .hbm, ⟨4, _⟩ => ⟨S8192x256, .f32⟩
  | .hbm, ⟨5, _⟩ => ⟨S256x1, .f32⟩
  | .hbm, ⟨6, _⟩ => ⟨S8192x1, .f32⟩
  | .hbm, ⟨7, _⟩ => ⟨S256x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x256, .f32⟩
  | .hbm, ⟨41, _⟩ => ⟨S_, .f32⟩
  | .hbm, ⟨42, _⟩ => ⟨S8192x256, .f32⟩
  | .hbm, ⟨43, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_call1_v0 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call2_cst : Ref sig .tc := ⟨.hbm, 41, rfl⟩
abbrev main_call2_v0 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  slices_S512x1_S256x1_0_0 : S512x1.Slices ![0, 0] S256x1
  slices_S512x1_S256x1_256_0 : S512x1.Slices ![256, 0] S256x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x256 : S_.BroadcastsInDim S8192x256 (![] : Fin 0 → Fin S8192x256.rank)
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KB.Body0.lean ====
/-
  The first kernel's body on one block of rows: what it leaves in its three output buffers, as a triple of the program logic.
-/
import proofs.«179567_j26920855011723_2_alg».proof.Proof.Gen.Kernel.Launch
import proofs.«179567_j26920855011723_2_alg».proof.Proof.Gen.Kernel.Skeleton
import proofs.«179567_j26920855011723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first kernel's region: projected features and the two attention terms, one block of 1024 rows per grid point

Everything here is stated at a parameter `V`, the contents of the core's buffers when the region is entered. -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry contents at every point, whether the
    pipeline fetched it there or not (where it did not, the block index has not moved since the fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry contents at every point, whether the
    pipeline fetched it there or not (where it did not, the block index has not moved since the fetch). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the entry contents at every point, whether the
    pipeline fetched it there or not (where it did not, the block index has not moved since the fetch). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the entry contents at every point, whether the
    pipeline fetched it there or not (where it did not, the block index has not moved since the fetch). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through: each is its buffer whole -/

abbrev rFeat : Rect S1024x512 := Rect.unit (s := S1024x512) ![0, 0] S1024x512.size inb_S1024x512_S1024x512_0_0
abbrev rW : Rect S512x256 := Rect.unit (s := S512x256) ![0, 0] S512x256.size inb_S512x256_S512x256_0_0
abbrev rRow : Rect S1x256 := Rect.unit (s := S1x256) ![0, 0] S1x256.size inb_S1x256_S1x256_0_0
abbrev rWh : Rect S1024x256 := Rect.unit (s := S1024x256) ![0, 0] S1024x256.size inb_S1024x256_S1024x256_0_0
abbrev rCol : Rect S1024x1 := Rect.unit (s := S1024x1) ![0, 0] S1024x1.size inb_S1024x1_S1024x1_0_0

/-! ## What the body leaves in each output window's buffer: its one store, over the blocks it loaded -/

/-- The projected-feature block: the product of the feature block and the projection. -/
def out0_4 (x0 : Vec F S1024x512 .f32) (x1 : Vec F S512x256 .f32) : Vec F S1024x256 .bf16 :=
  View.canon [⟨rWh, k0_pay2 (View.ld x0 rFeat) (View.ld x1 rW)⟩]
/-- The first attention term of the block's rows. -/
def out0_5 (x0 : Vec F S1024x512 .f32) (x1 : Vec F S512x256 .f32) (x2 : Vec F S1x256 .f32) : Vec F S1024x1 .f32 :=
  View.canon [⟨rCol, k0_pay3 (View.ld x0 rFeat) (View.ld x1 rW) (View.ld x2 rRow)⟩]
/-- The second attention term of the block's rows. -/
def out0_6 (x0 : Vec F S1024x512 .f32) (x1 : Vec F S512x256 .f32) (x3 : Vec F S1x256 .f32) : Vec F S1024x1 .f32 :=
  View.canon [⟨rCol, k0_pay4 (View.ld x0 rFeat) (View.ld x1 rW) (View.ld x3 rRow)⟩]

/-- A store through the whole-buffer rectangle covers the buffer. -/
theorem cover0_4 (p0 : Vec F S1024x256 .bf16) (y : S1024x256.Idx) :
    ∃ pc ∈ ([⟨rWh, p0⟩] : List (View.Piece (Elt F) S1024x256 .bf16)), y ∈ pc.1.set :=
  View.cover_of_tiled [⟨rWh, p0⟩] S1024x256.size (by rfl) y
theorem cover0_col (p0 : Vec F S1024x1 .f32) (y : S1024x1.Idx) :
    ∃ pc ∈ ([⟨rCol, p0⟩] : List (View.Piece (Elt F) S1024x1 .f32)), y ∈ pc.1.set :=
  View.cover_of_tiled [⟨rCol, p0⟩] S1024x1.size (by rfl) y

/-! ## The body's triple -/

set_option maxHeartbeats 1000000 in
/-- On whole staging memrefs, the four inputs' at read contents and the three outputs' at anything, the body runs to a
    state holding the inputs' as they were and each output's at its one store's value. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1024x256 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x512 .f32) (x1 : Vec F S512x256 .f32) (x2 : Vec F S1x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__wh_kernel i arg1 harg1 arg2 harg2 arg3 harg3 arg4 harg4 arg5 harg5 arg6 harg6 arg7 harg7) K := by
  simp only [cc0__wh_kernel_eq_skeleton]; unfold cc0__wh_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_col _)
  iexists _; isplitr
  swap; · iexact H6
  ipureintro
  exact View.read_writes_eq_canon _ _ _ (cover0_col _)

end Region0

end Cert.Kernel.Hand

end
-- ==== Proof.KB.Oblig0.lean ====
/-
  The first kernel's region: the pipeline's proof data (after the body each input buffer holds its block, each output
  buffer its one store's value) and the body obligation at every grid point.
-/
import proofs.«179567_j26920855011723_2_alg».proof.Proof.Gen.Kernel.Launch
import proofs.«179567_j26920855011723_2_alg».proof.Proof.Gen.Kernel.Skeleton
import proofs.«179567_j26920855011723_2_alg».proof.Proof.Gen.Kernel.Points
import proofs.«179567_j26920855011723_2_alg».proof.Proof.KB.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- The proof data: the arrays as the region finds them; the class's invariant (the scoped rest and the generator
    register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KB.Defs1.lean ====
/-
  The second kernel's region (the attention kernel on an 8 × 8 grid of row tiles by column tiles): what its three control
  cases share. The body resets its two accumulators at the first column tile of a row tile, adds one column tile's
  contribution at every point, and divides and stores at the last column tile; the output window is idle elsewhere.
-/
import proofs.«179567_j26920855011723_2_alg».proof.Proof.Gen.Kernel.Launch
import proofs.«179567_j26920855011723_2_alg».proof.Proof.Gen.Kernel.Skeleton
import proofs.«179567_j26920855011723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The attention kernel's region, at a parameter `V`: the core's buffer contents when the region is entered -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the entry contents at every point, whether the
    pipeline fetched it there or not (where it did not, the block index has not moved since the fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the entry contents at every point, whether the
    pipeline fetched it there or not (where it did not, the block index has not moved since the fetch). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the entry contents at every point, whether the
    pipeline fetched it there or not (where it did not, the block index has not moved since the fetch). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the entry contents at every point, whether the
    pipeline fetched it there or not (where it did not, the block index has not moved since the fetch). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block of the entry contents at every point, whether the
    pipeline fetched it there or not (where it did not, the block index has not moved since the fetch). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions, decided over the grid -/

/-- "This is the first column tile of its row tile": the accumulators are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last column tile of its row tile": the quotient is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last column tile the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last column tile it is live. -/
theorem liveAt1_5 : ∀ t : Fin cfg1.N, cond1_1 (grid1.coords t) → cfg1.idle 5 (grid1.coords t) = false := by decide +kernel

/-! ## The memrefs the pipeline calls the body with -/

abbrev ms1_0 (t : Fin cfg1.N) : Memref sig .tc .vmem S8192x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .f32 := win1_5.stage (cfg1.slots t 5)
abbrev hs1_5 (t : Fin cfg1.N) : (ms1_5 t).IsWhole := hstage1_5 ((cfg1.slots t 5).cast nbuf1_5)
/-- The two scratch accumulators: the softmax denominator and the weighted feature sum. -/
abbrev scM1_0 : Memref sig .tc .vmem S1024x1 .f32 := Memref.whole cc1_scratch0
abbrev scM1_1 : Memref sig .tc .vmem S1024x256 .f32 := Memref.whole cc1_scratch1
/-- Views through which buffer contents are stated. -/
abbrev VO1_5 : View sig .tc .vmem S1024x256 .f32 := (Memref.whole cc1_stg5_0 : Memref sig .tc .vmem S1024x256 .f32).view
abbrev VS1_0 : View sig .tc .vmem S1024x1 .f32 := scM1_0.view
abbrev VS1_1 : View sig .tc .vmem S1024x256 .f32 := scM1_1.view

/-! ## The core's scoped buffers that are not this region's staging buffers -/

/-- The first kernel's staging buffers, each at some contents: untouched by this region. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class's region invariant, opened: the untouched buffers, the two scratch accumulators at some contents, the
    generator register at some state. -/
theorem PhiA1_open (c : Dev nD) :
    (Pipeline.ΦA spec1 c : sProp 𝕄) ⊢ iprop(rest1 c ∗ (∃ d, owns (c : Thread nD τ) scM1_0 fullShare d) ∗ (∃ d, owns (c : Thread nD τ) scM1_1 fullShare d) ∗ (∃ r, prngReg c r)) := by
  unfold Pipeline.ΦA rest1; rw [scopedRest1_eq]; simp only [scM1_0, scM1_1, owns_whole]
  iintro ⟨⟨H1, H2, H3, H4, H5, H6, H7, H8, H9, H10, H11, HS0, HS1⟩, Hg⟩
  isplitl [H1 H2 H3 H4 H5 H6 H7 H8 H9 H10 H11]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [HS0]; · iexact HS0
  isplitl [HS1]; · iexact HS1
  iexact Hg

/-- And closed again. -/
theorem PhiA1_close (c : Dev nD) :
    iprop(rest1 c ∗ (∃ d, owns (c : Thread nD τ) scM1_0 fullShare d) ∗ (∃ d, owns (c : Thread nD τ) scM1_1 fullShare d) ∗ (∃ r, prngReg c r)) ⊢ (Pipeline.ΦA spec1 c : sProp 𝕄) := by
  unfold Pipeline.ΦA rest1; rw [scopedRest1_eq]; simp only [scM1_0, scM1_1, owns_whole]
  iintro ⟨⟨H1, H2, H3, H4, H5, H6, H7, H8, H9, H10, H11⟩, HS0, HS1, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  iexact HS1

end Cert.Kernel.Hand

end
-- ==== Proof.KB.Run1A.lean ====
/-
  The attention kernel's body in one of its three control cases: the first column tile of a row tile — both accumulators are reset, then one tile's contribution is added; nothing is stored to the output.
-/
import proofs.«179567_j26920855011723_2_alg».proof.Proof.Gen.Kernel.Launch
import proofs.«179567_j26920855011723_2_alg».proof.Proof.Gen.Kernel.Skeleton
import proofs.«179567_j26920855011723_2_alg».proof.Proof.Gen.Kernel.Points
import proofs.«179567_j26920855011723_2_alg».proof.Proof.KB.Defs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output buffer and in the two accumulators (last store first), with the
    proof that on whole memrefs — the five inputs' at their contents, the idle output's handed back untouched, the accumulators'
    at anything — the body runs to a state holding the inputs as they were and those pieces written. -/
noncomputable def kernelRun1_A (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S8192x256 .bf16) (x1 : Vec F S1024x1 .f32) (x2 : Vec F S1024x1 .f32) (x3 : Vec F S1x1024 .f32) (x4 : Vec F S1024x1024 .i32) :
    Σ' (L7 : List (View.Piece (Elt F) S1024x256 .f32)), Σ' (LS0 : List (View.Piece (Elt F) S1024x1 .f32)), { LS1 : List (View.Piece (Elt F) S1024x256 .f32) //
      ∀ (xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi7 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi7 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9) K } := by
  refine ⟨[], ?_, ?_, fun xi7 E K => ?run⟩
  case run =>
    simp only [cc1__gat_kernel_eq_skeleton]; unfold cc1__gat_kernel_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; isplitr; · ipureintro; exact harg7.read_unread _
      iexact H7
    isplitl [HS0]; · iexists _; iexact HS0
    iexists _; iexact HS1

end Cert.Kernel.Hand

end
-- ==== Proof.KB.Run1B.lean ====
/-
  The attention kernel's body in one of its three control cases: an inner column tile — one tile's contribution is added to the accumulators the point before left; nothing is stored to the output.
-/
import proofs.«179567_j26920855011723_2_alg».proof.Proof.Gen.Kernel.Launch
import proofs.«179567_j26920855011723_2_alg».proof.Proof.Gen.Kernel.Skeleton
import proofs.«179567_j26920855011723_2_alg».proof.Proof.Gen.Kernel.Points
import proofs.«179567_j26920855011723_2_alg».proof.Proof.KB.Defs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output buffer and in the two accumulators (last store first), with the
    proof that on whole memrefs — the five inputs' at their contents, the idle output's handed back untouched, the accumulators'
    at what the point before left — the body runs to a state holding the inputs as they were and those pieces written. -/
noncomputable def kernelRun1_B (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) :
    Σ' (L7 : List (View.Piece (Elt F) S1024x256 .f32)), Σ' (LS0 : List (View.Piece (Elt F) S1024x1 .f32)), { LS1 : List (View.Piece (Elt F) S1024x256 .f32) //
      ∀ (xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi7 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi7 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9) K } := by
  refine ⟨[], ?_, ?_, fun xi7 E K => ?run⟩
  case run =>
    simp only [cc1__gat_kernel_eq_skeleton]; unfold cc1__gat_kernel_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf7; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; isplitr; · ipureintro; exact harg7.read_unread _
      iexact H7
    isplitl [HS0]; · iexists _; iexact HS0
    iexists _; iexact HS1

end Cert.Kernel.Hand

end
-- ==== Proof.KB.Run1C.lean ====
/-
  The attention kernel's body in one of its three control cases: the last column tile of a row tile — the last contribution is added, then the weighted sum is divided by the denominator, clipped below at zero and stored.
-/
import proofs.«179567_j26920855011723_2_alg».proof.Proof.Gen.Kernel.Launch
import proofs.«179567_j26920855011723_2_alg».proof.Proof.Gen.Kernel.Skeleton
import proofs.«179567_j26920855011723_2_alg».proof.Proof.Gen.Kernel.Points
import proofs.«179567_j26920855011723_2_alg».proof.Proof.KB.Defs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output buffer and in the two accumulators (last store first), with the
    proof that on whole memrefs — the five inputs' at their contents, the output's at anything, the accumulators'
    at what the point before left — the body runs to a state holding the inputs as they were and those pieces written. -/
noncomputable def kernelRun1_C (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) :
    Σ' (L7 : List (View.Piece (Elt F) S1024x256 .f32)), Σ' (LS0 : List (View.Piece (Elt F) S1024x1 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9) K } := by
  refine ⟨?_, ?_, ?_, fun E K => ?run⟩
  case run =>
    simp only [cc1__gat_kernel_eq_skeleton]; unfold cc1__gat_kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [HS0]; · iexists _; iexact HS0
    iexists _; iexact HS1

end Cert.Kernel.Hand

end
-- ==== Proof.KB.Frame1.lean ====
/-
  The attention kernel's region, point by point: what the output buffer and the two accumulators hold after each grid
  point, the region's invariant (the accumulators at what the point before left), the pipeline's proof data and the
  body obligation — the body at every grid point, from what the pipeline hands it to what it takes back.
-/
import proofs.«179567_j26920855011723_2_alg».proof.Proof.Gen.Kernel.Launch
import proofs.«179567_j26920855011723_2_alg».proof.Proof.Gen.Kernel.Skeleton
import proofs.«179567_j26920855011723_2_alg».proof.Proof.Gen.Kernel.Points
import proofs.«179567_j26920855011723_2_alg».proof.Proof.KB.Run1A
import proofs.«179567_j26920855011723_2_alg».proof.Proof.KB.Run1B
import proofs.«179567_j26920855011723_2_alg».proof.Proof.KB.Run1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- In case A the stores into the denominator accumulator cover it. -/
theorem scover1_A_0 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S8192x256 .bf16) (x1 : Vec F S1024x1 .f32) (x2 : Vec F S1024x1 .f32) (x3 : Vec F S1x1024 .f32) (x4 : Vec F S1024x1024 .i32) (y : S1024x1.Idx) :
    ∃ pc ∈ (kernelRun1_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4).2.1 S1024x1.size (by sl_kernel_rfl) y
/-- What case A leaves in the denominator accumulator. -/
def sout1_A_0 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S8192x256 .bf16) (x1 : Vec F S1024x1 .f32) (x2 : Vec F S1024x1 .f32) (x3 : Vec F S1x1024 .f32) (x4 : Vec F S1024x1024 .i32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4).2.1)
/-- In case A the stores into the weighted-sum accumulator cover it. -/
theorem scover1_A_1 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S8192x256 .bf16) (x1 : Vec F S1024x1 .f32) (x2 : Vec F S1024x1 .f32) (x3 : Vec F S1x1024 .f32) (x4 : Vec F S1024x1024 .i32) (y : S1024x256.Idx) :
    ∃ pc ∈ (kernelRun1_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4).2.2.1 S1024x256.size (by sl_kernel_rfl) y
/-- What case A leaves in the weighted-sum accumulator. -/
def sout1_A_1 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S8192x256 .bf16) (x1 : Vec F S1024x1 .f32) (x2 : Vec F S1024x1 .f32) (x3 : Vec F S1x1024 .f32) (x4 : Vec F S1024x1024 .i32) : Vec F S1024x256 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3 x4).2.2.1)

/-- In case B the stores into the denominator accumulator cover it. -/
theorem scover1_B_0 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 xs0 xs1).2.1 S1024x1.size (by sl_kernel_rfl) y
/-- What case B leaves in the denominator accumulator. -/
def sout1_B_0 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 xs0 xs1).2.1)
/-- In case B the stores into the weighted-sum accumulator cover it. -/
theorem scover1_B_1 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) (y : S1024x256.Idx) :
    ∃ pc ∈ (kernelRun1_B c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 xs0 xs1).2.2.1 S1024x256.size (by sl_kernel_rfl) y
/-- What case B leaves in the weighted-sum accumulator. -/
def sout1_B_1 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) : Vec F S1024x256 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 x4 xs0 xs1).2.2.1)

/-- In case C the stores into the denominator accumulator cover it. -/
theorem scover1_C_0 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0 xs1).2.1 S1024x1.size (by sl_kernel_rfl) y
/-- What case C leaves in the denominator accumulator. -/
def sout1_C_0 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 xs0 xs1).2.1)
/-- In case C the stores into the weighted-sum accumulator cover it. -/
theorem scover1_C_1 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0 xs1).2.2.1 S1024x256.size (by sl_kernel_rfl) y
/-- What case C leaves in the weighted-sum accumulator. -/
def sout1_C_1 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) : Vec F S1024x256 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 x4 xs0 xs1).2.2.1)
/-- In case C the store into the output buffer covers it. -/
theorem cover1_C_5 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0 xs1).1 S1024x256.size (by sl_kernel_rfl) y
/-- What case C leaves in the output buffer. -/
def out1_C_5 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) : Vec F S1024x256 .f32 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 x4 xs0 xs1).1)

/-- A placeholder for the output buffer's contents at the points where the window is idle: nothing consults it there
    (the buffer is neither written back nor read at the next point). -/
def junk5 : Vec F S1024x256 .f32 := VO1_5.read (Elt F) (VO1_5.writes (Elt F) VO1_5.junk [])

section Region1
variable (V : (c : Dev nD) → (b : Ref sig .tc) → Buf (Elt F) ((c : Thread nD τ).loc b))

/-! ## What the buffers hold after each grid point -/

/-- THE ACCUMULATION. After the body at position `n`: the output buffer, the denominator accumulator, the weighted-sum
    accumulator. At the first column tile of a row tile (position ≡ 0 mod 8) the accumulators restart from zero; at the
    other positions they continue from what position `n - 1` left; at the last column tile (≡ 7 mod 8) the output
    buffer receives the quotient. -/
def outsAt1 (c : Dev nD) : (n : ℕ) → n < cfg1.N → Vec F S1024x256 .f32 × Vec F S1024x1 .f32 × Vec F S1024x256 .f32
  | 0, hn => (junk5, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      (junk5, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)
      else
        (junk5, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)

/-- At a first column tile. -/
theorem outsAt1_A (c : Dev nD) (t : Fin cfg1.N) (h0 : t.val % 8 = 0) (h1 : ¬t.val % 8 = 7) :
    outsAt1 V c t.val t.isLt = (junk5, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans rfl

/-- At an inner column tile: over what the point before left. -/
theorem outsAt1_B (c : Dev nD) (t : Fin cfg1.N) (h0 : ¬t.val % 8 = 0) (h1 : ¬t.val % 8 = 7) :
    outsAt1 V c t.val t.isLt = (junk5, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last column tile: over what the point before left. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start the class's invariant (every scoped buffer that is not this region's staging, at
    anything, and the generator register); afterwards the same with the two accumulators at what position `n - 1` left. -/
def PhiS (c : Dev nD) : (n : ℕ) → n ≤ cfg1.N → sProp 𝕄
  | 0, _ => Pipeline.ΦA spec1 c
  | n + 1, hn => iprop(rest1 c ∗ owns (c : Thread nD τ) scM1_0 fullShare ((outsAt1 V c n hn).2.1) ∗ owns (c : Thread nD τ) scM1_1 fullShare ((outsAt1 V c n hn).2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(rest1 c ∗ owns (c : Thread nD τ) scM1_0 fullShare ((outsAt1 V c n hn).2.1) ∗ owns (c : Thread nD τ) scM1_1 fullShare ((outsAt1 V c n hn).2.2) ∗ (∃ r, prngReg c r)) := rfl
theorem PhiS_pos (c : Dev nD) (n : ℕ) (h : n ≤ cfg1.N) (hz : n ≠ 0) :
    PhiS V c n h = iprop(rest1 c ∗ owns (c : Thread nD τ) scM1_0 fullShare ((outsAt1 V c (n - 1) (by omega)).2.1) ∗ owns (c : Thread nD τ) scM1_1 fullShare ((outsAt1 V c (n - 1) (by omega)).2.2) ∗ (∃ r, prngReg c r)) := by
  cases n with
  | zero => exact absurd rfl hz
  | succ n => rfl

/-! ## The pipeline's proof data -/

/-- The arrays as the region finds them; after the body at a point each input's buffer at its block, the output's at
    `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Region1

end Cert.Kernel.Hand

end
-- ==== Proof.KB.Oblig1.lean ====
/-
  The attention kernel's body obligation: at every grid point the body, handed the invariant and the windows' current
  buffers, returns the invariant of the next point and each buffer at what the proof data say it holds. One case per
  control path of the body, selected by the closed forms of its two conditions.
-/
import proofs.«179567_j26920855011723_2_alg».proof.Proof.Gen.Kernel.Launch
import proofs.«179567_j26920855011723_2_alg».proof.Proof.Gen.Kernel.Skeleton
import proofs.«179567_j26920855011723_2_alg».proof.Proof.Gen.Kernel.Points
import proofs.«179567_j26920855011723_2_alg».proof.Proof.KB.Frame1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point. The inputs' buffers hold their blocks; the closed forms say which case the point is in; the
    invariant hands the body the two accumulators (at anything at the very first point, at what the point before left
    afterwards) and takes them back at this point's contents; the output buffer is handed back untouched where the
    window is idle and at the stored quotient at a last column tile; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · have h1 : ¬t.val % 8 = 7 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold sout1_A_0 sout1_A_1; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA1_open (F := F) c) $$ HΦ
      icases HΦ' with ⟨Hr, HS0, HS1, Hg⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [Hr HS0 HS1 Hg]
      · isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨Hr, HS0, HS1, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [Hr HS0 HS1 Hg]
      · isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun hz => h0 (by rw [hz])
    by_cases h1 : t.val % 8 = 7
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0 sout1_C_1; (try dsimp only)
      rw [PhiS_castSucc V c t, PhiS_pos V c _ _ hz]
      iintro ⟨⟨Hr, HS0, HS1, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [Hr HS0 HS1 Hg]
      · isplitl [Hr]; · iexact Hr
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0 sout1_B_1; (try dsimp only)
      rw [PhiS_castSucc V c t, PhiS_pos V c _ _ hz]
      iintro ⟨⟨Hr, HS0, HS1, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [Hr HS0 HS1 Hg]
      · isplitl [Hr]; · iexact Hr
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After any point the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨Hr, HS0, HS1, Hg⟩
  iapply (PhiA1_close (F := F) c)
  isplitl [Hr]; · iexact Hr
  isplitl [HS0]; · iexists _; iexact HS0
  isplitl [HS1]; · iexists _; iexact HS1
  iexact Hg

theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Hand

end
-- ==== Proof.KB.Run.lean ====
/-
  The whole program as a run: two stretches of host operations and the two kernels' regions, in @main's order. The
  contents of the core's buffers are followed from the launch through each of the four items; at the end every
  unscoped buffer is read back, so both the frame (the argument arrays end as launched) and the value of the result
  array can be read off one run.
-/
import proofs.«179567_j26920855011723_2_alg».proof.Proof.Gen.Kernel.Launch
import proofs.«179567_j26920855011723_2_alg».proof.Proof.Gen.Kernel.Skeleton
import proofs.«179567_j26920855011723_2_alg».proof.Proof.Gen.Kernel.Points
import proofs.«179567_j26920855011723_2_alg».proof.Proof.Gen.Kernel.Regions
import proofs.«179567_j26920855011723_2_alg».proof.Proof.KB.Oblig0
import proofs.«179567_j26920855011723_2_alg».proof.Proof.KB.Oblig1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev E0 : Dev nD → Valuation τ sig (Elt F) := fun c b => (s₀ m ρ).mem ((c : Dev nD), b)
/-- After the first host stretch (the two attention vectors cut out of the parameter and laid as rows). -/
abbrev E1 : Dev nD → Valuation τ sig (Elt F) := fun c => StableHlo.after hostOps0 (E0 m ρ c)
abbrev Ein1 : (c : Dev nD) → (b : Ref sig .tc) → Buf (Elt F) ((c : Thread nD τ).loc b) := fun c b => E1 m ρ c b
/-- After the first kernel's region: its arrays at what the pipeline leaves, every other buffer as entered. -/
def E2 (c : Dev nD) : Valuation τ sig (Elt F) :=
  Pipeline.withArrays spec0 c (E1 m ρ c) fun w => (dat0 (Ein1 m ρ) c).arrAt w cfg0.N
theorem E2_arr (c : Dev nD) (w : Fin cfg0.W) :
    E2 m ρ c (Proc.devRef .tc (Pipeline.arrRef spec0 w)) = (dat0 (Ein1 m ρ) c).arrAt w cfg0.N := by
  unfold E2; exact Pipeline.withArrays_arr spec0 launch0.win.arr_inj c _ _ w
theorem E2_of_ne (c : Dev nD) (b : Ref sig .tc) (hb : ∀ w, Pipeline.arrRef spec0 w ≠ b) :
    E2 m ρ c (Proc.devRef .tc b) = E1 m ρ c (Proc.devRef .tc b) := by
  unfold E2; exact Pipeline.withArrays_of_ne spec0 c _ _ b hb
abbrev Ein2 : (c : Dev nD) → (b : Ref sig .tc) → Buf (Elt F) ((c : Thread nD τ).loc b) := fun c b => E2 m ρ c b
theorem hF0 (c : Dev nD) (w : Fin cfg0.W) : (dat0 (Ein1 m ρ) c).arrAt w cfg0.N = Ein2 m ρ c (Pipeline.arrRef spec0 w) :=
  (E2_arr m ρ c w).symm
theorem hrest0 (c : Dev nD) : ∀ b, b ∉ Finset.univ.image (Pipeline.arrRef spec0) → Ein2 m ρ c b = Ein1 m ρ c b :=
  fun b hb => E2_of_ne m ρ c b fun w e => hb (Finset.mem_image.mpr ⟨w, Finset.mem_univ _, e⟩)
/-- After the second host stretch (the row bounds and the transposed second attention term). -/
abbrev E3 : Dev nD → Valuation τ sig (Elt F) := fun c => StableHlo.after hostOps1 (E2 m ρ c)
abbrev Ein3 : (c : Dev nD) → (b : Ref sig .tc) → Buf (Elt F) ((c : Thread nD τ).loc b) := fun c b => E3 m ρ c b
/-- After the attention kernel's region. -/
def E4 (c : Dev nD) : Valuation τ sig (Elt F) :=
  Pipeline.withArrays spec1 c (E3 m ρ c) fun w => (dat1 (Ein3 m ρ) c).arrAt w cfg1.N
theorem E4_arr (c : Dev nD) (w : Fin cfg1.W) :
    E4 m ρ c (Proc.devRef .tc (Pipeline.arrRef spec1 w)) = (dat1 (Ein3 m ρ) c).arrAt w cfg1.N := by
  unfold E4; exact Pipeline.withArrays_arr spec1 launch1.win.arr_inj c _ _ w
theorem E4_of_ne (c : Dev nD) (b : Ref sig .tc) (hb : ∀ w, Pipeline.arrRef spec1 w ≠ b) :
    E4 m ρ c (Proc.devRef .tc b) = E3 m ρ c (Proc.devRef .tc b) := by
  unfold E4; exact Pipeline.withArrays_of_ne spec1 c _ _ b hb
abbrev Ein4 : (c : Dev nD) → (b : Ref sig .tc) → Buf (Elt F) ((c : Thread nD τ).loc b) := fun c b => E4 m ρ c b
theorem hF1 (c : Dev nD) (w : Fin cfg1.W) : (dat1 (Ein3 m ρ) c).arrAt w cfg1.N = Ein4 m ρ c (Pipeline.arrRef spec1 w) :=
  (E4_arr m ρ c w).symm
theorem hrest1 (c : Dev nD) : ∀ b, b ∉ Finset.univ.image (Pipeline.arrRef spec1) → Ein4 m ρ c b = Ein3 m ρ c b :=
  fun b hb => E4_of_ne m ρ c b fun w e => hb (Finset.mem_image.mpr ⟨w, Finset.mem_univ _, e⟩)

/-! ### The arguments end as launched: no host operation writes one, and a region reads one only through an input window -/

theorem E1_of (c : Dev nD) (r : Ref sig .tc) (h : r ∉ hostOps0_W) : E1 m ρ c r = E0 m ρ c r :=
  StableHlo.after_of_writes_sub hostOps0 _ hostOps0_writes h
theorem E3_of (c : Dev nD) (r : Ref sig .tc) (h : r ∉ hostOps1_W) : E3 m ρ c r = E2 m ρ c r :=
  StableHlo.after_of_writes_sub hostOps1 _ hostOps1_writes h

theorem E4_main_arg0 (c : Dev nD) : E4 m ρ c (Proc.devRef .tc main_arg0) = m ((c : Thread nD τ).loc main_arg0) :=
  calc E4 m ρ c (Proc.devRef .tc main_arg0)
    _ = E3 m ρ c (Proc.devRef .tc main_arg0) := E4_of_ne m ρ c main_arg0 (by decide)
    _ = E2 m ρ c (Proc.devRef .tc main_arg0) := E3_of m ρ c main_arg0 (by decide)
    _ = E1 m ρ c (Proc.devRef .tc main_arg0) := (E2_arr m ρ c 0).trans (((dat0 (Ein1 m ρ) c).arrAt_in 0 rfl _).trans (A_eq0 (Ein1 m ρ) c 0))
    _ = E0 m ρ c (Proc.devRef .tc main_arg0) := E1_of m ρ c main_arg0 (by decide)
    _ = m ((c : Thread nD τ).loc main_arg0) := rfl
theorem E4_main_arg1 (c : Dev nD) : E4 m ρ c (Proc.devRef .tc main_arg1) = m ((c : Thread nD τ).loc main_arg1) :=
  calc E4 m ρ c (Proc.devRef .tc main_arg1)
    _ = E3 m ρ c (Proc.devRef .tc main_arg1) := E4_of_ne m ρ c main_arg1 (by decide)
    _ = E2 m ρ c (Proc.devRef .tc main_arg1) := E3_of m ρ c main_arg1 (by decide)
    _ = E1 m ρ c (Proc.devRef .tc main_arg1) := (E2_arr m ρ c 1).trans (((dat0 (Ein1 m ρ) c).arrAt_in 1 rfl _).trans (A_eq0 (Ein1 m ρ) c 1))
    _ = E0 m ρ c (Proc.devRef .tc main_arg1) := E1_of m ρ c main_arg1 (by decide)
    _ = m ((c : Thread nD τ).loc main_arg1) := rfl
theorem E4_main_arg2 (c : Dev nD) : E4 m ρ c (Proc.devRef .tc main_arg2) = m ((c : Thread nD τ).loc main_arg2) :=
  calc E4 m ρ c (Proc.devRef .tc main_arg2)
    _ = E3 m ρ c (Proc.devRef .tc main_arg2) := E4_of_ne m ρ c main_arg2 (by decide)
    _ = E2 m ρ c (Proc.devRef .tc main_arg2) := E3_of m ρ c main_arg2 (by decide)
    _ = E1 m ρ c (Proc.devRef .tc main_arg2) := E2_of_ne m ρ c main_arg2 (by decide)
    _ = E0 m ρ c (Proc.devRef .tc main_arg2) := E1_of m ρ c main_arg2 (by decide)
    _ = m ((c : Thread nD τ).loc main_arg2) := rfl
theorem E4_main_arg3 (c : Dev nD) : E4 m ρ c (Proc.devRef .tc main_arg3) = m ((c : Thread nD τ).loc main_arg3) :=
  calc E4 m ρ c (Proc.devRef .tc main_arg3)
    _ = E3 m ρ c (Proc.devRef .tc main_arg3) := (E4_arr m ρ c 4).trans (((dat1 (Ein3 m ρ) c).arrAt_in 4 rfl _).trans (A_eq1 (Ein3 m ρ) c 4))
    _ = E2 m ρ c (Proc.devRef .tc main_arg3) := E3_of m ρ c main_arg3 (by decide)
    _ = E1 m ρ c (Proc.devRef .tc main_arg3) := E2_of_ne m ρ c main_arg3 (by decide)
    _ = E0 m ρ c (Proc.devRef .tc main_arg3) := E1_of m ρ c main_arg3 (by decide)
    _ = m ((c : Thread nD τ).loc main_arg3) := rfl

/-! ## The proof data family and the thread state -/

abbrev admH : (p : Fin 2) → (pcfgs (F := F) p).Adm := fun p => (cfgs p).toPCfg_adm
/-- Every pipeline's proof data, each at its region's entry contents. -/
def pdatsH : (p : Fin 2) → (c : Dev nD) → Dat τ (Elt F) Unit ℕ (UR sig nD τ) ℕ (Pipeline.pin (pcfgs (F := F)) admH p) c
  | ⟨0, _⟩ => fun c => dat0 (Ein1 m ρ) c
  | ⟨1, _⟩ => fun c => dat1 (Ein3 m ρ) c
abbrev 𝒱H : Variants := Variants.none
abbrev LH : GSem nD τ sig → Finset Unit := fun _ => ∅
abbrev lvH : GSem nD τ sig → Unit → ℕ := fun _ _ => 0
/-- What rides beside the buffers through every item: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev TnH (c : Dev nD) : sProp 𝕄 := iprop(StableHlo.held (c : Thread nD τ) (Pipeline.ucRefs τ sig) (E4 m ρ c) ∗ ∃ r, prngReg c r)

/-! ## The regions as segments -/

set_option backward.isDefEq.respectTransparency.types false in
/-- The first kernel's region: entered from every unscoped buffer at `E1`, left at `E2`. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Ein1 m ρ) c).loose
  hwaits := Pipeline.hwaits_of_owed_zero _ _ _ _ LH lvH 0 fun _ _ => rfl
  pre c := iprop(StableHlo.held (c : Thread nD τ) (Pipeline.ucRefs τ sig) (E1 m ρ c) ∗ RH c)
  post c := iprop(StableHlo.held (c : Thread nD τ) (Pipeline.ucRefs τ sig) (E2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Ein1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Ein1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Ein1 m ρ c) (Ein2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel's region: entered from every unscoped buffer at `E3`, left at `E4`. The generator register
    and the scoped rest go into the region's invariant at the first point; the invariant at the last point gives
    them back, the accumulators' contents forgotten. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Ein3 m ρ) c).loose
  hwaits := Pipeline.hwaits_of_owed_zero _ _ _ _ LH lvH 1 fun _ _ => rfl
  pre c := iprop(StableHlo.held (c : Thread nD τ) (Pipeline.ucRefs τ sig) (E3 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ein3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Ein3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hback : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (F := F) (Ein3 m ρ) c).trans hback
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Ein3 m ρ c) (Ein4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ 𝒱H LH lvH) :=
  [ .host (hsegH hostOps0 hostOps0_sub hostOps0_fresh (E0 m ρ)),
    .region (reg0 m ρ),
    .host (hsegH hostOps1 hostOps1_sub hostOps1_fresh (E2 m ρ)),
    .region (reg1 m ρ) ]
theorem main_runH (c : Dev nD) : main (F := F) c = Pipeline.Seg.run (segsH m ρ) := (main_chain c).trans (by chain_rfl)

set_option backward.isDefEq.respectTransparency.types false in
/-- THE RUN. From any memory with zero counters every weakly fair execution of @main terminates, nothing faulting,
    and in the final state every unscoped buffer holds the last boundary's contents `E4`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = E4 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ RH c)) (Tₙ := TnH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E4 m ρ c b)
    (hfin := fun c s' => by
      iintro ⟨⟨Hh, -⟩, HSI⟩
      unfold StableHlo.held
      imodintro
      iapply (pointsTo_read_all (Pipeline.ucRefs τ sig) (fun b => (((c : Thread nD τ)).1, b)) (E4 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_ucH main_arg0 (by decide))).trans (E4_main_arg0 m ρ c),
     (h c _ (mem_ucH main_arg1 (by decide))).trans (E4_main_arg1 m ρ c),
     (h c _ (mem_ucH main_arg2 (by decide))).trans (E4_main_arg2 m ρ c),
     (h c _ (mem_ucH main_arg3 (by decide))).trans (E4_main_arg3 m ρ c)⟩) (run_all m ρ)

end Cert.Kernel.Hand

end
-- ==== Proof.KI.Body0.lean ====
/-
  The first kernel's body on one block of rows: what it leaves in its three output buffers, as a triple of the program logic.
-/
import proofs.«179567_j26920855011723_2_alg».proof.Proof.Gen.KernelIdeal.Launch
import proofs.«179567_j26920855011723_2_alg».proof.Proof.Gen.KernelIdeal.Skeleton
import proofs.«179567_j26920855011723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first kernel's region: projected features and the two attention terms, one block of 1024 rows per grid point

Everything here is stated at a parameter `V`, the contents of the core's buffers when the region is entered. -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry contents at every point, whether the
    pipeline fetched it there or not (where it did not, the block index has not moved since the fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry contents at every point, whether the
    pipeline fetched it there or not (where it did not, the block index has not moved since the fetch). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the entry contents at every point, whether the
    pipeline fetched it there or not (where it did not, the block index has not moved since the fetch). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the entry contents at every point, whether the
    pipeline fetched it there or not (where it did not, the block index has not moved since the fetch). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through: each is its buffer whole -/

abbrev rFeat : Rect S1024x512 := Rect.unit (s := S1024x512) ![0, 0] S1024x512.size inb_S1024x512_S1024x512_0_0
abbrev rW : Rect S512x256 := Rect.unit (s := S512x256) ![0, 0] S512x256.size inb_S512x256_S512x256_0_0
abbrev rRow : Rect S1x256 := Rect.unit (s := S1x256) ![0, 0] S1x256.size inb_S1x256_S1x256_0_0
abbrev rWh : Rect S1024x256 := Rect.unit (s := S1024x256) ![0, 0] S1024x256.size inb_S1024x256_S1024x256_0_0
abbrev rCol : Rect S1024x1 := Rect.unit (s := S1024x1) ![0, 0] S1024x1.size inb_S1024x1_S1024x1_0_0

/-! ## What the body leaves in each output window's buffer: its one store, over the blocks it loaded -/

/-- The projected-feature block: the product of the feature block and the projection. -/
def out0_4 (x0 : Vec F S1024x512 .f32) (x1 : Vec F S512x256 .f32) : Vec F S1024x256 .bf16 :=
  View.canon [⟨rWh, k0_pay2 (View.ld x0 rFeat) (View.ld x1 rW)⟩]
/-- The first attention term of the block's rows. -/
def out0_5 (x0 : Vec F S1024x512 .f32) (x1 : Vec F S512x256 .f32) (x2 : Vec F S1x256 .f32) : Vec F S1024x1 .f32 :=
  View.canon [⟨rCol, k0_pay3 (View.ld x0 rFeat) (View.ld x1 rW) (View.ld x2 rRow)⟩]
/-- The second attention term of the block's rows. -/
def out0_6 (x0 : Vec F S1024x512 .f32) (x1 : Vec F S512x256 .f32) (x3 : Vec F S1x256 .f32) : Vec F S1024x1 .f32 :=
  View.canon [⟨rCol, k0_pay4 (View.ld x0 rFeat) (View.ld x1 rW) (View.ld x3 rRow)⟩]

/-- A store through the whole-buffer rectangle covers the buffer. -/
theorem cover0_4 (p0 : Vec F S1024x256 .bf16) (y : S1024x256.Idx) :
    ∃ pc ∈ ([⟨rWh, p0⟩] : List (View.Piece (Elt F) S1024x256 .bf16)), y ∈ pc.1.set :=
  View.cover_of_tiled [⟨rWh, p0⟩] S1024x256.size (by rfl) y
theorem cover0_col (p0 : Vec F S1024x1 .f32) (y : S1024x1.Idx) :
    ∃ pc ∈ ([⟨rCol, p0⟩] : List (View.Piece (Elt F) S1024x1 .f32)), y ∈ pc.1.set :=
  View.cover_of_tiled [⟨rCol, p0⟩] S1024x1.size (by rfl) y

/-! ## The body's triple -/

set_option maxHeartbeats 1000000 in
/-- On whole staging memrefs, the four inputs' at read contents and the three outputs' at anything, the body runs to a
    state holding the inputs' as they were and each output's at its one store's value. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1024x256 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x512 .f32) (x1 : Vec F S512x256 .f32) (x2 : Vec F S1x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__wh_kernel i arg1 harg1 arg2 harg2 arg3 harg3 arg4 harg4 arg5 harg5 arg6 harg6 arg7 harg7) K := by
  simp only [cc0__wh_kernel_eq_skeleton]; unfold cc0__wh_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_col _)
  iexists _; isplitr
  swap; · iexact H6
  ipureintro
  exact View.read_writes_eq_canon _ _ _ (cover0_col _)

end Region0

end Cert.KernelIdeal.Hand

end
-- ==== Proof.KI.Oblig0.lean ====
/-
  The first kernel's region: the pipeline's proof data (after the body each input buffer holds its block, each output
  buffer its one store's value) and the body obligation at every grid point.
-/
import proofs.«179567_j26920855011723_2_alg».proof.Proof.Gen.KernelIdeal.Launch
import proofs.«179567_j26920855011723_2_alg».proof.Proof.Gen.KernelIdeal.Skeleton
import proofs.«179567_j26920855011723_2_alg».proof.Proof.Gen.KernelIdeal.Points
import proofs.«179567_j26920855011723_2_alg».proof.Proof.KI.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- The proof data: the arrays as the region finds them; the class's invariant (the scoped rest and the generator
    register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Spec.lean ====
/-
  The mathematics of one dense graph-attention layer, stated once, free of any program.

  Inputs: a feature matrix X (8192 × 512), a projection W (512 × 256), two attention vectors a₁, a₂ (256 each: the two
  halves of the 512 × 1 parameter), and an adjacency mask (8192 × 8192, here a Boolean per pair).
  H = X·W are the projected features; the raw score of the pair (i, j) is s = ⟨H i, a₁⟩ + ⟨H j, a₂⟩, passed through the
  leaky rectifier (slope the binary value of 0.2 that both programs carry) and replaced by ZERO (not −∞) off the mask.
  The layer's output is relu of the softmax-weighted average of the rows of H:
      out i f = max (∑ⱼ softmax(E i ·) j · H j f) 0.
  Two ways of computing that softmax are stated here. One subtracts from every score of row i a bound b i that need not be
  the row's maximum, accumulates numerator and denominator over eight column tiles of 1024, and divides once at the end
  (`tiledOut`). The other subtracts a row constant M i, normalizes every weight, then sums (`normalizedOut`). Over the
  reals the two agree whatever b i and M i are, since exp (e − c) = exp e · exp (−c) and the common positive factor cancels.
-/
import Idealize.ShloMosaic.PureOps.Ideal
import Idealize.ShloMosaic.PureOps.Ideal.Laws

noncomputable section

namespace Cert.GatSpec

open Idealize.ShloMosaic

/-- The leaky rectifier's slope: the binary32 value nearest 0.2, the same word in both programs. -/
def slope : EReal := Ideal.ofBits .f32 0x3E4CCCCD#32

/-- Projected features: row `i` of `X` against column `f` of `W`. -/
def proj (X : Fin 8192 → Fin 512 → EReal) (W : Fin 512 → Fin 256 → EReal) (i : Fin 8192) (f : Fin 256) : EReal :=
  ∑ k : Fin 512, X i k * W k f

/-- A row of projected features against an attention vector. -/
def att (H : Fin 8192 → Fin 256 → EReal) (a : Fin 256 → EReal) (i : Fin 8192) : EReal :=
  ∑ f : Fin 256, H i f * a f

/-- The leaky rectifier. -/
def leaky (s : EReal) : EReal := if 0 < s then s else slope * s

/-- The masked score of a pair: the rectified sum on the mask, zero off it. -/
def score (u v : EReal) (on : Bool) : EReal := if on then leaky (u + v) else 0

/-- A row bound: the row's own term plus a quantity `mx` common to all rows, clipped below at zero. -/
def bound (u mx : EReal) : EReal := max (u + mx) 0

/-- Column `j` of column tile `k` (tiles of 1024 columns; the index wraps so that the function is total). -/
def tile (k : ℕ) (j : Fin 1024) : Fin 8192 := ⟨(1024 * k + j.val) % 8192, Nat.mod_lt _ (by norm_num)⟩

/-- The softmax denominator after `k` column tiles: a running sum started at zero. -/
def denomAcc (p : Fin 8192 → EReal) : ℕ → EReal
  | 0 => 0
  | k + 1 => denomAcc p k + ∑ j : Fin 1024, p (tile k j)

/-- The softmax numerator of one feature after `k` column tiles. -/
def numerAcc (p h : Fin 8192 → EReal) : ℕ → EReal
  | 0 => 0
  | k + 1 => numerAcc p h k + ∑ j : Fin 1024, p (tile k j) * h (tile k j)

/-- Divide-once form: weights exp (E i j − b i), numerator and denominator accumulated over the eight tiles. -/
def tiledOut (E : Fin 8192 → Fin 8192 → EReal) (H : Fin 8192 → Fin 256 → EReal) (b : Fin 8192 → EReal)
    (i : Fin 8192) (f : Fin 256) : EReal :=
  max (Ideal.div (numerAcc (fun j => Ideal.exp (E i j - b i)) (fun j => H j f) 8)
        (denomAcc (fun j => Ideal.exp (E i j - b i)) 8)) 0

/-- Normalize-then-sum form: weights exp (E i j − M i) divided by their row sum (started at zero), then averaged. -/
def normalizedOut (E : Fin 8192 → Fin 8192 → EReal) (H : Fin 8192 → Fin 256 → EReal) (M : Fin 8192 → EReal)
    (i : Fin 8192) (f : Fin 256) : EReal :=
  max (∑ j : Fin 8192, Ideal.div (Ideal.exp (E i j - M i)) (0 + ∑ j' : Fin 8192, Ideal.exp (E i j' - M i)) * H j f) 0

/-- The masked scores of the layer from its inputs. -/
def scores (X : Fin 8192 → Fin 512 → EReal) (W : Fin 512 → Fin 256 → EReal) (a₁ a₂ : Fin 256 → EReal)
    (on : Fin 8192 → Fin 8192 → Bool) (i j : Fin 8192) : EReal :=
  score (att (proj X W) a₁ i) (att (proj X W) a₂ j) (on i j)

/-- The layer in divide-once form, the rows bounded by `bound (⟨H i, a₁⟩) mx`. -/
def tiledLayer (X : Fin 8192 → Fin 512 → EReal) (W : Fin 512 → Fin 256 → EReal) (a₁ a₂ : Fin 256 → EReal)
    (on : Fin 8192 → Fin 8192 → Bool) (mx : EReal) (i : Fin 8192) (f : Fin 256) : EReal :=
  tiledOut (scores X W a₁ a₂ on) (proj X W) (fun i => bound (att (proj X W) a₁ i) mx) i f

/-- The layer in normalize-then-sum form, the rows shifted by `M`. -/
def normalizedLayer (X : Fin 8192 → Fin 512 → EReal) (W : Fin 512 → Fin 256 → EReal) (a₁ a₂ : Fin 256 → EReal)
    (on : Fin 8192 → Fin 8192 → Bool) (M : Fin 8192 → EReal) (i : Fin 8192) (f : Fin 256) : EReal :=
  normalizedOut (scores X W a₁ a₂ on) (proj X W) M i f

end Cert.GatSpec

end
-- ==== Proof.Conv.lean ====
/-
  The programs hold their arrays as functions of a shape's index; the layer's mathematics (Spec) is stated over functions
  of the separate coordinates. These are the readings between the two: the feature matrix and the projection by their two
  coordinates, the two attention vectors as the upper and the lower 256 rows of the 512 × 1 parameter, and the adjacency
  mask as the Boolean "the integer entry is positive" (signed comparison with zero, as both programs test it).
-/
import Idealize.ShloMosaic.Lib.ValueIdx
import proofs.«179567_j26920855011723_2_alg».proof.Proof.Spec

noncomputable section

namespace Cert.GatSpec

open Idealize.ShloMosaic Idealize.ShloMosaic.ValueIdx

/-- The feature matrix by its coordinates. -/
def featOf (x : (⟨2, ![8192, 512]⟩ : Shape).Idx → EReal) : Fin 8192 → Fin 512 → EReal := fun i k => x (ix2 i k)

/-- The projection matrix by its coordinates. -/
def weightOf (w : (⟨2, ![512, 256]⟩ : Shape).Idx → EReal) : Fin 512 → Fin 256 → EReal := fun k f => w (ix2 k f)

/-- The first attention vector: rows 0 … 255 of the 512 × 1 parameter. -/
def att1Of (w2 : (⟨2, ![512, 1]⟩ : Shape).Idx → EReal) : Fin 256 → EReal :=
  fun f => w2 (ix2 (⟨f.val, by omega⟩ : Fin 512) (0 : Fin 1))

/-- The second attention vector: rows 256 … 511 of the 512 × 1 parameter. -/
def att2Of (w2 : (⟨2, ![512, 1]⟩ : Shape).Idx → EReal) : Fin 256 → EReal :=
  fun f => w2 (ix2 (⟨256 + f.val, by omega⟩ : Fin 512) (0 : Fin 1))

/-- The adjacency mask: the pair is on when its integer entry is positive. -/
def maskOf (a : (⟨2, ![8192, 8192]⟩ : Shape).Idx → BitVec 32) : Fin 8192 → Fin 8192 → Bool :=
  fun i j => decide (IntOp.cmpi .sgt (a (ix2 i j)) 0#32 = 1#1)

end Cert.GatSpec

end
-- ==== Proof.KernelReads1.lean ====
/-
  The second kernel's pure values, read entry by entry over the extended reals.

  At a grid point the second kernel holds a tile of 1024 rows against a tile of 1024 columns. From the row terms u (a
  column 1024 × 1), the row bounds b (a column), the column terms v (a row 1 × 1024) and the integer mask tile it forms
  the weight of the pair (r, c): the exponential of the masked, rectified score of u r + v c less the bound b r. The
  denominator column adds to its old value the sum of the row's 1024 weights; the numerator tile adds to its old value
  the product of the weight tile with the 1024 × 256 tile of projected features; at the last column tile the output is
  the numerator over the denominator, clipped below at zero; at the first column tile both accumulators start at zero.
  Each of these is stated here at one entry (r, c), (r, f) or (r, 0), as a formula in the entries of the loaded tiles.

  The layout steps between the arithmetic are read once, for any extents: a column broadcast along its rows, a vector
  cast to a column, a sum along the second axis as the finite sum over that axis's coordinates, and a matrix product
  into a zero accumulator as the finite sum over the one contracted axis.
-/
import proofs.«179567_j26920855011723_2_alg».proof.Proof.Gen.KernelIdeal.Skeleton
import proofs.«179567_j26920855011723_2_alg».proof.Proof.Conv
import Idealize.ShloMosaic.Lib.ValueLayout
import Idealize.ShloMosaic.PureOps.Ideal.Laws

noncomputable section

namespace Cert.KernelIdeal.Reads

open Cert.KernelIdeal Cert.KernelIdeal.Gen Idealize.ShloMosaic Idealize.ShloMosaic.ValueIdx

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One pair's masked, rectified score as the second kernel computes it from words and selects. -/
theorem select_score (a b : EReal) (w : BitVec 32) :
    Scalar.select (IntOp.cmpi .sgt w 0#32)
        (Scalar.select (Ideal.cmp .ogt (a + b) (Ideal.ofBits .f32 0x00000000#32)) (a + b)
          (Ideal.ofBits .f32 0x3E4CCCCD#32 * (a + b)))
        (Ideal.ofBits .f32 0x00000000#32)
      = Cert.GatSpec.score a b (decide (IntOp.cmpi .sgt w 0#32 = 1#1)) := by
  unfold Cert.GatSpec.score Cert.GatSpec.leaky Cert.GatSpec.slope Scalar.select Ideal.cmp
  rw [Ideal.ofBits_zero_f32]
  by_cases hw : IntOp.cmpi .sgt w 0#32 = 1#1
  · by_cases hs : (0 : EReal) < a + b
    · simp [hw, hs]
    · simp [hw, hs]
  · simp [hw]

/-- The weight of the pair `(r, c)`: the exponential of the masked, rectified score of the row term plus the column term,
    less the row's bound. The three broadcasts are read at the pair first; what is left is arithmetic on four scalars. -/
theorem k1_pay5_apply (v3 v5 : Vec Ideal S1024x1 .f32) (v7 : Vec Ideal S1x1024 .f32) (v17 : Vec Ideal S1024x1024 .i32)
    (r c : Fin 1024) :
    k1_pay5 (F := Ideal) v3 v5 v7 v17 (ix2 r c)
      = Ideal.exp (Cert.GatSpec.score (v3 (ix2 r (0 : Fin 1))) (v7 (ix2 (0 : Fin 1) c))
          (decide (IntOp.cmpi .sgt (v17 (ix2 r c)) 0#32 = 1#1)) - v5 (ix2 r (0 : Fin 1))) := by
  have hA : broadcastTo S1024x1024 (shapeCast S1024x1 v3 shapeCasts_S1024x1_S1024x1) broadcasts_S1024x1_S1024x1024 (ix2 r c)
      = v3 (ix2 r (0 : Fin 1)) :=
    (broadcastTo_a1_ab_apply _ _ r c).trans (congrFun (shapeCast_self v3 _) _)
  have hB : broadcastTo S1024x1024 (shapeCast S1x1024 v7 shapeCasts_S1x1024_S1x1024) broadcasts_S1x1024_S1024x1024 (ix2 r c)
      = v7 (ix2 (0 : Fin 1) c) :=
    (broadcastTo_1b_ab_apply _ _ r c).trans (congrFun (shapeCast_self v7 _) _)
  have hC : broadcastTo S1024x1024 (shapeCast S1024x1 v5 shapeCasts_S1024x1_S1024x1) broadcasts_S1024x1_S1024x1024 (ix2 r c)
      = v5 (ix2 r (0 : Fin 1)) :=
    (broadcastTo_a1_ab_apply _ _ r c).trans (congrFun (shapeCast_self v5 _) _)
  have key : ∀ a b m : EReal,
      broadcastTo S1024x1024 (shapeCast S1024x1 v3 shapeCasts_S1024x1_S1024x1) broadcasts_S1024x1_S1024x1024 (ix2 r c) = a →
      broadcastTo S1024x1024 (shapeCast S1x1024 v7 shapeCasts_S1x1024_S1x1024) broadcasts_S1x1024_S1024x1024 (ix2 r c) = b →
      broadcastTo S1024x1024 (shapeCast S1024x1 v5 shapeCasts_S1024x1_S1024x1) broadcasts_S1024x1_S1024x1024 (ix2 r c) = m →
      k1_pay5 (F := Ideal) v3 v5 v7 v17 (ix2 r c)
        = Ideal.exp (Scalar.select (IntOp.cmpi .sgt (v17 (ix2 r c)) 0#32)
            (Scalar.select (Ideal.cmp .ogt (a + b) (Ideal.ofBits .f32 0x00000000#32)) (a + b)
              (Ideal.ofBits .f32 0x3E4CCCCD#32 * (a + b)))
            (Ideal.ofBits .f32 0x00000000#32) - m) := by
    intro a b m ha hb hm
    subst ha hb hm
    rfl
  rw [key _ _ _ hA hB hC, select_score]

/-- The denominator column starts at zero. -/
theorem k1_pay3_apply (r : Fin 1024) : k1_pay3 (F := Ideal) (ix2 r (0 : Fin 1)) = 0 := by
  unfold k1_pay3
  refine (congrFun (shapeCast_self _ _) _).trans ?_
  exact Ideal.ofBits_zero_f32

/-- The numerator tile starts at zero. -/
theorem k1_pay4_apply (r : Fin 1024) (f : Fin 256) : k1_pay4 (F := Ideal) (ix2 r f) = 0 := by
  unfold k1_pay4
  refine (congrFun (shapeCast_self _ _) _).trans ?_
  exact Ideal.ofBits_zero_f32

/-- A sum along the second axis of an `[n, m]` array, read at row `r`: the sum over the row's `m` entries. The
    accumulator word is the zero word, and the side condition is typed as the payloads carry it. -/
theorem rowSum_apply {n m : ℕ} (src : FVec Ideal ⟨2, ![n, m]⟩ .f32) (h : (⟨2, ![n, m]⟩ : Shape).Reduces [1] ⟨1, ![n]⟩)
    (hφ : FKind.Formats .f32) (hacc : (0x00000000#32 : BitVec 32) = FKind.add.neutral .f32 hφ) (r : Fin n) :
    multiReduction .add [1] ⟨1, ![n]⟩ src 0x00000000#32 h hφ hacc (ix1 r) = ∑ k : Fin m, src (ix2 r k) := by
  refine (Ideal.multiReduction_add_single src 0x00000000#32 h hφ hacc (ix1 r)).trans ?_
  refine Finset.sum_congr rfl fun k _ => congrArg src ?_
  funext a
  refine Fin.ext ?_
  match a with
  | ⟨0, _⟩ => rfl
  | ⟨1, _⟩ => rfl

/-! The operand indices of the second kernel's matrix product at an output index and a contraction index, coordinate by
    coordinate: the left operand sits at (output row, contraction), the right at (contraction, output column). -/

theorem matmul1_lhs0 (i : S1024x256.Idx) (q : dot_S1024x1024_S1024x256_S1024x256_1_0_0_1_n_n.contr.Idx) : (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl
theorem matmul1_lhs1 (i : S1024x256.Idx) (q : dot_S1024x1024_S1024x256_S1024x256_1_0_0_1_n_n.contr.Idx) : (dot_S1024x1024_S1024x256_S1024x256_1_0_0_1_n_n.lhsIdx i q 1).val = (q ⟨0, by decide⟩).val :=
  dot_S1024x1024_S1024x256_S1024x256_1_0_0_1_n_n.lhsIdx_val_of_single rfl i q
theorem matmul1_rhs0 (i : S1024x256.Idx) (q : dot_S1024x1024_S1024x256_S1024x256_1_0_0_1_n_n.contr.Idx) : (dot_S1024x1024_S1024x256_S1024x256_1_0_0_1_n_n.rhsIdx i q 0).val = (q ⟨0, by decide⟩).val :=
  dot_S1024x1024_S1024x256_S1024x256_1_0_0_1_n_n.rhsIdx_val_of_single rfl i q
theorem matmul1_rhs1 (i : S1024x256.Idx) (q : dot_S1024x1024_S1024x256_S1024x256_1_0_0_1_n_n.contr.Idx) : (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- The second kernel's matrix product into a zero accumulator, read at `(r, f)`: the sum over the 1024 columns of the
    tile of the left entry of row `r` times the right entry of column `f`. -/
theorem matmul1_apply (lhs : FVec Ideal S1024x1024 .bf16) (rhs : FVec Ideal S1024x256 .bf16) (r : Fin 1024) (f : Fin 256) :
    matmul dot_S1024x1024_S1024x256_S1024x256_1_0_0_1_n_n none lhs rhs (constant S1024x256 .f32 0x00000000#32) (ix2 r f)
      = ∑ c : Fin 1024, lhs (ix2 r c) * rhs (ix2 c f) := by
  refine (Ideal.matmul_constant_zero_apply dot_S1024x1024_S1024x256_S1024x256_1_0_0_1_n_n none lhs rhs (ix2 r f)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r f) ((contrEquiv1 dot_S1024x1024_S1024x256_S1024x256_1_0_0_1_n_n 1024 rfl rfl).symm k) = ix2 r k :=
    funext fun a => Fin.ext (by
      match a with
      | ⟨0, _⟩ => exact matmul1_lhs0 _ _
      | ⟨1, _⟩ => exact (matmul1_lhs1 _ _).trans hk)
  have er : dot_S1024x1024_S1024x256_S1024x256_1_0_0_1_n_n.rhsIdx (ix2 r f) ((contrEquiv1 dot_S1024x1024_S1024x256_S1024x256_1_0_0_1_n_n 1024 rfl rfl).symm k) = ix2 k f :=
    funext fun a => Fin.ext (by
      match a with
      | ⟨0, _⟩ => exact (matmul1_rhs0 _ _).trans hk
      | ⟨1, _⟩ => exact matmul1_rhs1 _ _)
  rw [el, er]

/-- The denominator of row `r` after this column tile: its old value plus the sum of the row's 1024 weights. -/
theorem k1_pay6_apply (v3 v5 : Vec Ideal S1024x1 .f32) (v7 : Vec Ideal S1x1024 .f32) (v17 : Vec Ideal S1024x1024 .i32)
    (v25 : Vec Ideal S1024x1 .f32) (r : Fin 1024) :
    k1_pay6 (F := Ideal) v3 v5 v7 v17 v25 (ix2 r (0 : Fin 1))
      = v25 (ix2 r (0 : Fin 1)) + ∑ c : Fin 1024, k1_pay5 (F := Ideal) v3 v5 v7 v17 (ix2 r c) := by
  unfold k1_pay6
  refine (congrFun (shapeCast_self _ _) _).trans ?_
  refine (addf_apply _ _ _).trans ?_
  refine congrArg (v25 (ix2 r (0 : Fin 1)) + ·) ?_
  refine (shapeCast_a_a1_apply _ _ r 0).trans ?_
  exact rowSum_apply _ _ _ _ r

/-- The numerator at `(r, f)` after this column tile: its old value plus the sum over the tile's 1024 columns of the weight
    times the projected feature. -/
theorem k1_pay1_apply (v24 : FVec Ideal S1024x1024 .f32) (v35 : Vec Ideal S1024x256 .bf16) (v37 : Vec Ideal S1024x256 .f32)
    (r : Fin 1024) (f : Fin 256) :
    k1_pay1 (F := Ideal) v24 v35 v37 (ix2 r f)
      = v37 (ix2 r f) + ∑ c : Fin 1024, v24 (ix2 r c) * v35 (ix2 c f) := by
  unfold k1_pay1
  refine (congrFun (shapeCast_self _ _) _).trans ?_
  refine (addf_apply _ _ _).trans ?_
  refine congrArg (v37 (ix2 r f) + ·) ?_
  refine (matmul1_apply _ _ r f).trans ?_
  refine Finset.sum_congr rfl fun c _ => ?_
  exact congrArg (v24 (ix2 r c) * ·) (congrFun (shapeCast_self v35 _) _)

/-- The output at `(r, f)`: the numerator over the row's denominator, clipped below at zero. -/
theorem k1_pay2_apply (v47 : Vec Ideal S1024x256 .f32) (v48 : Vec Ideal S1024x1 .f32) (r : Fin 1024) (f : Fin 256) :
    k1_pay2 (F := Ideal) v47 v48 (ix2 r f) = max (Ideal.div (v47 (ix2 r f)) (v48 (ix2 r (0 : Fin 1)))) 0 := by
  unfold k1_pay2
  refine (maximumf_apply _ _ _).trans ?_
  refine congrArg₂ max ?_ Ideal.ofBits_zero_f32
  refine (divf_apply _ _ _).trans ?_
  exact congrArg (Ideal.div (v47 (ix2 r f))) (broadcastTo_a1_ab_apply _ _ r f)

end Cert.KernelIdeal.Reads

end
-- ==== Proof.KernelReads0.lean ====
/-
  The first kernel's pure values, read entry by entry over the extended reals.

  At a grid point the first kernel holds a tile of 1024 feature rows (1024 × 512), the projection (512 × 256) and the two
  attention rows (1 × 256 each). It forms the projected features of the tile, the matrix product of the two, and, for
  each attention row, the column whose entry at row r is the sum over the 256 features of the projected feature times
  the attention entry. Each is stated here at one entry, as a finite sum over the entries of the loaded arrays. The
  changes of float format on the way into the product and on the way to the stored copy are the identity on extended
  reals, so the stored projected features are the same sum.
-/
import proofs.«179567_j26920855011723_2_alg».proof.Proof.KernelReads1

noncomputable section

namespace Cert.KernelIdeal.Reads

open Cert.KernelIdeal Cert.KernelIdeal.Gen Idealize.ShloMosaic Idealize.ShloMosaic.ValueIdx

/-! The operand indices of the first kernel's matrix product at an output index and a contraction index, coordinate by
    coordinate: the left operand sits at (output row, contraction), the right at (contraction, output column). -/

theorem matmul0_lhs0 (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
theorem matmul0_lhs1 (i : S1024x256.Idx) (q : dot_S1024x512_S512x256_S1024x256_1_0_0_1_n_n.contr.Idx) : (dot_S1024x512_S512x256_S1024x256_1_0_0_1_n_n.lhsIdx i q 1).val = (q ⟨0, by decide⟩).val :=
  dot_S1024x512_S512x256_S1024x256_1_0_0_1_n_n.lhsIdx_val_of_single rfl i q
theorem matmul0_rhs0 (i : S1024x256.Idx) (q : dot_S1024x512_S512x256_S1024x256_1_0_0_1_n_n.contr.Idx) : (dot_S1024x512_S512x256_S1024x256_1_0_0_1_n_n.rhsIdx i q 0).val = (q ⟨0, by decide⟩).val :=
  dot_S1024x512_S512x256_S1024x256_1_0_0_1_n_n.rhsIdx_val_of_single rfl i q
theorem matmul0_rhs1 (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-- The first kernel's matrix product into a zero accumulator, read at `(r, f)`: the sum over the 512 input features of the
    left entry of row `r` times the right entry of column `f`. -/
theorem matmul0_apply (lhs : FVec Ideal S1024x512 .bf16) (rhs : FVec Ideal S512x256 .bf16) (r : Fin 1024) (f : Fin 256) :
    matmul dot_S1024x512_S512x256_S1024x256_1_0_0_1_n_n none lhs rhs (constant S1024x256 .f32 0x00000000#32) (ix2 r f)
      = ∑ c : Fin 512, lhs (ix2 r c) * rhs (ix2 c f) := by
  refine (Ideal.matmul_constant_zero_apply dot_S1024x512_S512x256_S1024x256_1_0_0_1_n_n none lhs rhs (ix2 r f)).trans ?_
  rw [← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 r f) ((contrEquiv1 dot_S1024x512_S512x256_S1024x256_1_0_0_1_n_n 512 rfl rfl).symm k) = ix2 r k :=
    funext fun a => Fin.ext (by
      match a with
      | ⟨0, _⟩ => exact matmul0_lhs0 _ _
      | ⟨1, _⟩ => exact (matmul0_lhs1 _ _).trans hk)
  have er : dot_S1024x512_S512x256_S1024x256_1_0_0_1_n_n.rhsIdx (ix2 r f) ((contrEquiv1 dot_S1024x512_S512x256_S1024x256_1_0_0_1_n_n 512 rfl rfl).symm k) = ix2 k f :=
    funext fun a => Fin.ext (by
      match a with
      | ⟨0, _⟩ => exact (matmul0_rhs0 _ _).trans hk
      | ⟨1, _⟩ => exact matmul0_rhs1 _ _)
  rw [el, er]

/-- The projected features of the row tile at `(r, f)`: the sum over the 512 input features of the feature entry times
    the projection entry. The change of float format on the way into the product is the identity on extended reals. -/
theorem k0_pay1_apply (v0 : Vec Ideal S1024x512 .f32) (v2 : Vec Ideal S512x256 .f32) (r : Fin 1024) (f : Fin 256) :
    k0_pay1 (F := Ideal) v0 v2 (ix2 r f) = ∑ k : Fin 512, v0 (ix2 r k) * v2 (ix2 k f) := by
  unfold k0_pay1
  exact matmul0_apply _ _ r f

/-- The stored projected features are the same sum: the narrowing of the format is the identity. -/
theorem k0_pay2_apply (v0 : Vec Ideal S1024x512 .f32) (v2 : Vec Ideal S512x256 .f32) (r : Fin 1024) (f : Fin 256) :
    k0_pay2 (F := Ideal) v0 v2 (ix2 r f) = ∑ k : Fin 512, v0 (ix2 r k) * v2 (ix2 k f) :=
  k0_pay1_apply v0 v2 r f

/-- A row of projected features against an attention row `a` (a `1 × 256` array), as both attention columns of the first
    kernel compute it: the products with the broadcast row, summed along the 256 features, kept as a column. -/
theorem att_apply (P : FVec Ideal S1024x256 .f32) (a : Vec Ideal S1x256 .f32) (r : Fin 1024) :
    shapeCast S1024x1
        (multiReduction .add [1] S1024
          (mulf P (broadcastTo S1024x256 (shapeCast S1x256 a shapeCasts_S1x256_S1x256) broadcasts_S1x256_S1024x256))
          0x00000000#32 reduces_S1024x256_S1024 (.inl rfl) rfl)
        shapeCasts_S1024_S1024x1 (ix2 r (0 : Fin 1))
      = ∑ f : Fin 256, P (ix2 r f) * a (ix2 (0 : Fin 1) f) := by
  refine (shapeCast_a_a1_apply _ _ r 0).trans ?_
  refine (rowSum_apply _ _ _ _ r).trans ?_
  refine Finset.sum_congr rfl fun f _ => ?_
  refine (mulf_apply _ _ _).trans ?_
  refine congrArg (P (ix2 r f) * ·) ?_
  exact (broadcastTo_1b_ab_apply _ _ r f).trans (congrFun (shapeCast_self a _) _)

/-- The first attention column at row `r`: the row of projected features against the first attention row. -/
theorem k0_pay3_apply (v0 : Vec Ideal S1024x512 .f32) (v2 : Vec Ideal S512x256 .f32) (v7 : Vec Ideal S1x256 .f32) (r : Fin 1024) :
    k0_pay3 (F := Ideal) v0 v2 v7 (ix2 r (0 : Fin 1))
      = ∑ f : Fin 256, (∑ k : Fin 512, v0 (ix2 r k) * v2 (ix2 k f)) * v7 (ix2 (0 : Fin 1) f) := by
  unfold k0_pay3
  refine (att_apply (k0_pay1 (F := Ideal) v0 v2) v7 r).trans ?_
  exact Finset.sum_congr rfl fun f _ => congrArg (· * v7 (ix2 (0 : Fin 1) f)) (k0_pay1_apply v0 v2 r f)

/-- The second attention column at row `r`: the row of projected features against the second attention row. -/
theorem k0_pay4_apply (v0 : Vec Ideal S1024x512 .f32) (v2 : Vec Ideal S512x256 .f32) (v9 : Vec Ideal S1x256 .f32) (r : Fin 1024) :
    k0_pay4 (F := Ideal) v0 v2 v9 (ix2 r (0 : Fin 1))
      = ∑ f : Fin 256, (∑ k : Fin 512, v0 (ix2 r k) * v2 (ix2 k f)) * v9 (ix2 (0 : Fin 1) f) := by
  unfold k0_pay4
  refine (att_apply (k0_pay1 (F := Ideal) v0 v2) v9 r).trans ?_
  exact Finset.sum_congr rfl fun f _ => congrArg (· * v9 (ix2 (0 : Fin 1) f)) (k0_pay1_apply v0 v2 r f)

end Cert.KernelIdeal.Reads

end
-- ==== Proof.KI.Value0.lean ====
/-
  The first kernel's region, from blocks to whole arrays.

  The region runs over eight grid points. At point t the feature window holds rows 1024 t … 1024 t + 1023 of the feature
  matrix, the projection and the two attention rows are held whole, and the three output windows sit at the same block of
  rows. The body's stored values at an entry of the block are finite sums over the loaded blocks' entries; read through
  the blocks' positions they are the projected features, and the two attention columns, of the WHOLE feature matrix at
  the array entry under the block entry. So what each point writes back is its block of one whole-array function, the
  eight blocks tile the 8192 rows (row r lies in the block of point r / 1024) and every point writes back: each output
  array ends holding that function.
-/
import proofs.«179567_j26920855011723_2_alg».proof.Proof.KI.Oblig0
import proofs.«179567_j26920855011723_2_alg».proof.Proof.KernelReads0
import proofs.«179567_j26920855011723_2_alg».proof.Proof.Conv
import Idealize.ShloMosaic.Lib.Pipeline.Value

noncomputable section

namespace Cert.KernelIdeal.Hand

open Cert.KernelIdeal Cert.KernelIdeal.Gen Cert.KernelIdeal.Reads Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

theorem hz0 : (![0, 0] : Fin 2 → Nat) = fun _ => 0 := funext fun a => by fin_cases a <;> rfl

/-- The block indices of the first region's windows at every grid point: the feature window and the three output
    windows sit at block `(t, 0)`; the projection and the two attention rows are whole, at block `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks as the arrays' entries -/

/-- The feature block at point `t` holds rows `1024 t … 1024 t + 1023` of the feature matrix. -/
theorem iblk0_0_apply (t : Fin cfg0.N) (x : S1024x512.Idx) (i : S8192x512.Idx)
    (h0 : (i 0).val = t.val * 1024 + (x 0).val) (h1 : (i 1).val = (x 1).val) :
    (iblk0 V c 0 t : Vec Ideal S1024x512 .f32) x = (V c main_arg0 : S8192x512.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 1024 + 1 * (x 0).val = (i 0).val; rw [e0, h0]; omega
  | ⟨1, _⟩ => show win0_0.index t (1 : Fin 2) * 512 + 1 * (x 1).val = (i 1).val; rw [e1, h1]; omega

/-- The projection's block at every point is the projection. -/
theorem iblk0_1_apply (t : Fin cfg0.N) (x : S512x256.Idx) :
    (iblk0 V c 1 t : Vec Ideal S512x256 .f32) x = (V c main_arg1 : S512x256.Idx → EReal) x := by
  obtain ⟨-, -, e0, e1, -⟩ := idx_facts0 t
  unfold iblk0
  rw [View.read_apply]
  show V c main_arg1 _ = V c main_arg1 _
  congr 1
  funext a
  apply Fin.ext
  match a with
  | ⟨0, _⟩ => show win0_1.index t (0 : Fin 2) * 512 + 1 * (x 0).val = (x 0).val; rw [e0]; omega
  | ⟨1, _⟩ => show win0_1.index t (1 : Fin 2) * 256 + 1 * (x 1).val = (x 1).val; rw [e1]; omega

/-- The first attention row's block at every point is the row. -/
theorem iblk0_2_apply (t : Fin cfg0.N) (x : S1x256.Idx) :
    (iblk0 V c 2 t : Vec Ideal S1x256 .f32) x = (V c main_v2 : S1x256.Idx → EReal) x := by
  obtain ⟨-, -, -, -, e0, e1, -⟩ := idx_facts0 t
  unfold iblk0
  rw [View.read_apply]
  show V c main_v2 _ = V c main_v2 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- The second attention row's block at every point is the row. -/
theorem iblk0_3_apply (t : Fin cfg0.N) (x : S1x256.Idx) :
    (iblk0 V c 3 t : Vec Ideal S1x256 .f32) x = (V c main_v3 : S1x256.Idx → EReal) x := by
  obtain ⟨-, -, -, -, -, -, e0, e1, -⟩ := idx_facts0 t
  unfold iblk0
  rw [View.read_apply]
  show V c main_v3 _ = V c main_v3 _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 256 + 1 * (x 1).val = (x 1).val; rw [e1]; omega

/-! ## Output window 4: the projected features -/

/-- The projected features of the whole feature matrix, entry by entry. -/
abbrev G0_4 : S8192x256.Idx → EReal := fun idx =>
  Cert.GatSpec.proj (Cert.GatSpec.featOf (V c main_arg0)) (Cert.GatSpec.weightOf (V c main_arg1)) (idx 0) (idx 1)

/-- On loaded blocks that are rows `1024 q …` of `X` and all of `W`, the stored block is those rows of the projected
    features of `X` by `W`. -/
theorem pay2_rows (x0 : Vec Ideal S1024x512 .f32) (x1 : Vec Ideal S512x256 .f32) (X : S8192x512.Idx → EReal)
    (W : S512x256.Idx → EReal) (q : ℕ)
    (h0 : ∀ (x : S1024x512.Idx) (i : S8192x512.Idx), (i 0).val = q * 1024 + (x 0).val → (i 1).val = (x 1).val → x0 x = X i)
    (h1 : ∀ x : S512x256.Idx, x1 x = W x)
    (j : S1024x256.Idx) (i : S8192x256.Idx) (hi0 : (i 0).val = q * 1024 + (j 0).val) (hi1 : (i 1).val = (j 1).val) :
    k0_pay2 (F := Ideal) x0 x1 j = Cert.GatSpec.proj (Cert.GatSpec.featOf X) (Cert.GatSpec.weightOf W) (i 0) (i 1) := by
  obtain ⟨r, f, rfl⟩ : ∃ (r : Fin 1024) (f : Fin 256), j = ix2 r f := ⟨j 0, j 1, eq_ix2 j⟩
  obtain ⟨p, g, rfl⟩ : ∃ (p : Fin 8192) (g : Fin 256), i = ix2 p g := ⟨i 0, i 1, eq_ix2 i⟩
  have hg : g = f := Fin.ext hi1
  subst hg
  rw [k0_pay2_apply]
  unfold Cert.GatSpec.proj Cert.GatSpec.featOf Cert.GatSpec.weightOf
  refine Finset.sum_congr rfl fun k _ => ?_
  rw [h0 (ix2 r k) (ix2 p k) hi0 rfl, h1]

/-- What point `t` writes back to the projected-feature array is block `t` of the projected features. -/
theorem flushed0_4_eq (t : Fin cfg0.N) :
    (dat0 V c).flushed 4 t = ((cfg0.win 4).blk t).view.read (Elt Ideal) (G0_4 V c) := by
  show (cfg0.win 4).cut (grid0.coords t) ((dat0 V c).after 4 t) = _
  rw [after0_4]
  unfold out0_4
  rw [View.canon_unit_zero hz0]
  simp only [View.ld_unit_zero (S := S1024x512) hz0, View.ld_unit_zero (S := S512x256) hz0]
  obtain ⟨-, -, -, -, -, -, -, -, e0, e1, -⟩ := idx_facts0 t
  funext j
  show k0_pay2 (F := Ideal) (iblk0 V c 0 t) (iblk0 V c 1 t) j = G0_4 V c (((cfg0.win 4).blk t).view.emb j)
  refine pay2_rows _ _ (V c main_arg0) (V c main_arg1) t.val (fun x i h0 h1 => iblk0_0_apply V c t x i h0 h1)
    (fun x => iblk0_1_apply V c t x) j _ ?_ ?_
  · show win0_4.index t (0 : Fin 2) * 1024 + 1 * (j 0).val = t.val * 1024 + (j 0).val; rw [e0]; omega
  · show win0_4.index t (1 : Fin 2) * 256 + 1 * (j 1).val = (j 1).val; rw [e1]; omega

/-- An index of the projected-feature array lies in point `t`'s block iff each coordinate lies in the block's range. -/
theorem mem_blk0_4 (t : Fin cfg0.N) (i : S8192x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v4_0).slice (win0_4.rect t)).set ↔ _
  rw [View.set_slice_whole, Rect.mem_set_unit]
  exact Iff.rfl

/-- The projected-feature array after the region: the projected features of the whole feature matrix. Row `r` lies in
    the block of point `r / 1024`, and every point writes its block back. -/
theorem final0_4 : (dat0 V c).arrAt 4 cfg0.N = fun idx : S8192x256.Idx =>
    Cert.GatSpec.proj (Cert.GatSpec.featOf (V c main_arg0)) (Cert.GatSpec.weightOf (V c main_arg1)) (idx 0) (idx 1) :=
  (dat0 V c).arrAt_eq_of_cover 4 (G0_4 V c) (fun t _ => flushed0_4_eq V c t) fun i => by
    have hi0 : (i 0).val < 8192 := (i 0).isLt
    have hi1 : (i 1).val < 256 := (i 1).isLt
    have hN : cfg0.N = 8 := N_0
    refine ⟨⟨(i 0).val / 1024, by rw [hN]; omega⟩, flush0_4 _, ?_⟩
    rw [mem_blk0_4]
    obtain ⟨-, -, -, -, -, -, -, -, e0, e1, -⟩ := idx_facts0 ⟨(i 0).val / 1024, by rw [hN]; omega⟩
    intro a
    match a with
    | ⟨0, _⟩ =>
      show win0_4.index _ (0 : Fin 2) * 1024 ≤ (i 0).val ∧ (i 0).val < win0_4.index _ (0 : Fin 2) * 1024 + 1024
      rw [e0]; show (i 0).val / 1024 * 1024 ≤ (i 0).val ∧ (i 0).val < (i 0).val / 1024 * 1024 + 1024; omega
    | ⟨1, _⟩ =>
      show win0_4.index _ (1 : Fin 2) * 256 ≤ (i 1).val ∧ (i 1).val < win0_4.index _ (1 : Fin 2) * 256 + 256
      rw [e1]; omega

/-! ## Output windows 5 and 6: the two attention columns -/

/-- On loaded blocks that are rows `1024 q …` of `X`, all of `W` and all of the attention row `A`, an attention column's
    stored block is those rows of the projected features of `X` by `W` against `A`. Both columns are this, each with its
    own row; the payloads differ only in name. -/
theorem att_rows (pay : Vec Ideal S1024x512 .f32 → Vec Ideal S512x256 .f32 → Vec Ideal S1x256 .f32 → FVec Ideal S1024x1 .f32)
    (hpay : ∀ v0 v2 v7 (r : Fin 1024), pay v0 v2 v7 (ix2 r (0 : Fin 1))
      = ∑ f : Fin 256, (∑ k : Fin 512, v0 (ix2 r k) * v2 (ix2 k f)) * v7 (ix2 (0 : Fin 1) f))
    (x0 : Vec Ideal S1024x512 .f32) (x1 : Vec Ideal S512x256 .f32) (x2 : Vec Ideal S1x256 .f32)
    (X : S8192x512.Idx → EReal) (W : S512x256.Idx → EReal) (A : S1x256.Idx → EReal) (q : ℕ)
    (h0 : ∀ (x : S1024x512.Idx) (i : S8192x512.Idx), (i 0).val = q * 1024 + (x 0).val → (i 1).val = (x 1).val → x0 x = X i)
    (h1 : ∀ x : S512x256.Idx, x1 x = W x) (h2 : ∀ x : S1x256.Idx, x2 x = A x)
    (j : S1024x1.Idx) (i : S8192x1.Idx) (hi0 : (i 0).val = q * 1024 + (j 0).val) :
    pay x0 x1 x2 j = Cert.GatSpec.att (Cert.GatSpec.proj (Cert.GatSpec.featOf X) (Cert.GatSpec.weightOf W))
      (fun f => A (ix2 (0 : Fin 1) f)) (i 0) := by
  obtain ⟨r, u, rfl⟩ : ∃ (r : Fin 1024) (u : Fin 1), j = ix2 r u := ⟨j 0, j 1, eq_ix2 j⟩
  obtain rfl : u = 0 := Subsingleton.elim _ _
  obtain ⟨p, u', rfl⟩ : ∃ (p : Fin 8192) (u' : Fin 1), i = ix2 p u' := ⟨i 0, i 1, eq_ix2 i⟩
  rw [hpay]
  unfold Cert.GatSpec.att Cert.GatSpec.proj Cert.GatSpec.featOf Cert.GatSpec.weightOf
  refine Finset.sum_congr rfl fun f _ => ?_
  rw [h2]
  refine congrArg (· * A (ix2 (0 : Fin 1) f)) ?_
  refine Finset.sum_congr rfl fun k _ => ?_
  rw [h0 (ix2 r k) (ix2 p k) hi0 rfl, h1]

/-- The first attention column of the whole feature matrix, entry by entry. -/
abbrev G0_5 : S8192x1.Idx → EReal := fun idx =>
  Cert.GatSpec.att (Cert.GatSpec.proj (Cert.GatSpec.featOf (V c main_arg0)) (Cert.GatSpec.weightOf (V c main_arg1)))
    (fun f => V c main_v2 (ix2 (0 : Fin 1) f)) (idx 0)

/-- What point `t` writes back to the first attention column is block `t` of that column. -/
theorem flushed0_5_eq (t : Fin cfg0.N) :
    (dat0 V c).flushed 5 t = ((cfg0.win 5).blk t).view.read (Elt Ideal) (G0_5 V c) := by
  show (cfg0.win 5).cut (grid0.coords t) ((dat0 V c).after 5 t) = _
  rw [after0_5]
  unfold out0_5
  rw [View.canon_unit_zero hz0]
  simp only [View.ld_unit_zero (S := S1024x512) hz0, View.ld_unit_zero (S := S512x256) hz0, View.ld_unit_zero (S := S1x256) hz0]
  obtain ⟨-, -, -, -, -, -, -, -, -, -, e0, e1, -⟩ := idx_facts0 t
  funext j
  show k0_pay3 (F := Ideal) (iblk0 V c 0 t) (iblk0 V c 1 t) (iblk0 V c 2 t) j = G0_5 V c (((cfg0.win 5).blk t).view.emb j)
  refine att_rows (k0_pay3 (F := Ideal)) k0_pay3_apply _ _ _ (V c main_arg0) (V c main_arg1) (V c main_v2) t.val
    (fun x i h0 h1 => iblk0_0_apply V c t x i h0 h1) (fun x => iblk0_1_apply V c t x) (fun x => iblk0_2_apply V c t x) j _ ?_
  show win0_5.index t (0 : Fin 2) * 1024 + 1 * (j 0).val = t.val * 1024 + (j 0).val; rw [e0]; omega

/-- An index of the first attention column lies in point `t`'s block iff each coordinate lies in the block's range. -/
theorem mem_blk0_5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v4_1).slice (win0_5.rect t)).set ↔ _
  rw [View.set_slice_whole, Rect.mem_set_unit]
  exact Iff.rfl

/-- The first attention column after the region: every row's projected features against the first attention row. -/
theorem final0_5 : (dat0 V c).arrAt 5 cfg0.N = fun idx : S8192x1.Idx =>
    Cert.GatSpec.att (Cert.GatSpec.proj (Cert.GatSpec.featOf (V c main_arg0)) (Cert.GatSpec.weightOf (V c main_arg1)))
      (fun f => V c main_v2 (ix2 (0 : Fin 1) f)) (idx 0) :=
  (dat0 V c).arrAt_eq_of_cover 5 (G0_5 V c) (fun t _ => flushed0_5_eq V c t) fun i => by
    have hi0 : (i 0).val < 8192 := (i 0).isLt
    have hi1 : (i 1).val < 1 := (i 1).isLt
    have hN : cfg0.N = 8 := N_0
    refine ⟨⟨(i 0).val / 1024, by rw [hN]; omega⟩, flush0_5 _, ?_⟩
    rw [mem_blk0_5]
    obtain ⟨-, -, -, -, -, -, -, -, -, -, e0, e1, -⟩ := idx_facts0 ⟨(i 0).val / 1024, by rw [hN]; omega⟩
    intro a
    match a with
    | ⟨0, _⟩ =>
      show win0_5.index _ (0 : Fin 2) * 1024 ≤ (i 0).val ∧ (i 0).val < win0_5.index _ (0 : Fin 2) * 1024 + 1024
      rw [e0]; show (i 0).val / 1024 * 1024 ≤ (i 0).val ∧ (i 0).val < (i 0).val / 1024 * 1024 + 1024; omega
    | ⟨1, _⟩ =>
      show win0_5.index _ (1 : Fin 2) * 1 ≤ (i 1).val ∧ (i 1).val < win0_5.index _ (1 : Fin 2) * 1 + 1
      rw [e1]; omega

/-- The second attention column of the whole feature matrix, entry by entry. -/
abbrev G0_6 : S8192x1.Idx → EReal := fun idx =>
  Cert.GatSpec.att (Cert.GatSpec.proj (Cert.GatSpec.featOf (V c main_arg0)) (Cert.GatSpec.weightOf (V c main_arg1)))
    (fun f => V c main_v3 (ix2 (0 : Fin 1) f)) (idx 0)

/-- What point `t` writes back to the second attention column is block `t` of that column. -/
theorem flushed0_6_eq (t : Fin cfg0.N) :
    (dat0 V c).flushed 6 t = ((cfg0.win 6).blk t).view.read (Elt Ideal) (G0_6 V c) := by
  show (cfg0.win 6).cut (grid0.coords t) ((dat0 V c).after 6 t) = _
  rw [after0_6]
  unfold out0_6
  rw [View.canon_unit_zero hz0]
  simp only [View.ld_unit_zero (S := S1024x512) hz0, View.ld_unit_zero (S := S512x256) hz0, View.ld_unit_zero (S := S1x256) hz0]
  obtain ⟨-, -, -, -, -, -, -, -, -, -, -, -, e0, e1⟩ := idx_facts0 t
  funext j
  show k0_pay4 (F := Ideal) (iblk0 V c 0 t) (iblk0 V c 1 t) (iblk0 V c 3 t) j = G0_6 V c (((cfg0.win 6).blk t).view.emb j)
  refine att_rows (k0_pay4 (F := Ideal)) k0_pay4_apply _ _ _ (V c main_arg0) (V c main_arg1) (V c main_v3) t.val
    (fun x i h0 h1 => iblk0_0_apply V c t x i h0 h1) (fun x => iblk0_1_apply V c t x) (fun x => iblk0_3_apply V c t x) j _ ?_
  show win0_6.index t (0 : Fin 2) * 1024 + 1 * (j 0).val = t.val * 1024 + (j 0).val; rw [e0]; omega

/-- An index of the second attention column lies in point `t`'s block iff each coordinate lies in the block's range. -/
theorem mem_blk0_6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v4_2).slice (win0_6.rect t)).set ↔ _
  rw [View.set_slice_whole, Rect.mem_set_unit]
  exact Iff.rfl

/-- The second attention column after the region: every row's projected features against the second attention row. -/
theorem final0_6 : (dat0 V c).arrAt 6 cfg0.N = fun idx : S8192x1.Idx =>
    Cert.GatSpec.att (Cert.GatSpec.proj (Cert.GatSpec.featOf (V c main_arg0)) (Cert.GatSpec.weightOf (V c main_arg1)))
      (fun f => V c main_v3 (ix2 (0 : Fin 1) f)) (idx 0) :=
  (dat0 V c).arrAt_eq_of_cover 6 (G0_6 V c) (fun t _ => flushed0_6_eq V c t) fun i => by
    have hi0 : (i 0).val < 8192 := (i 0).isLt
    have hi1 : (i 1).val < 1 := (i 1).isLt
    have hN : cfg0.N = 8 := N_0
    refine ⟨⟨(i 0).val / 1024, by rw [hN]; omega⟩, flush0_6 _, ?_⟩
    rw [mem_blk0_6]
    obtain ⟨-, -, -, -, -, -, -, -, -, -, -, -, e0, e1⟩ := idx_facts0 ⟨(i 0).val / 1024, by rw [hN]; omega⟩
    intro a
    match a with
    | ⟨0, _⟩ =>
      show win0_6.index _ (0 : Fin 2) * 1024 ≤ (i 0).val ∧ (i 0).val < win0_6.index _ (0 : Fin 2) * 1024 + 1024
      rw [e0]; show (i 0).val / 1024 * 1024 ≤ (i 0).val ∧ (i 0).val < (i 0).val / 1024 * 1024 + 1024; omega
    | ⟨1, _⟩ =>
      show win0_6.index _ (1 : Fin 2) * 1 ≤ (i 1).val ∧ (i 1).val < win0_6.index _ (1 : Fin 2) * 1 + 1
      rw [e1]; omega

end Cert.KernelIdeal.Hand

end
-- ==== Proof.KI.Defs1.lean ====
/-
  The second kernel's region (the attention kernel on an 8 × 8 grid of row tiles by column tiles): what its three control
  cases share. The body resets its two accumulators at the first column tile of a row tile, adds one column tile's
  contribution at every point, and divides and stores at the last column tile; the output window is idle elsewhere.
-/
import proofs.«179567_j26920855011723_2_alg».proof.Proof.Gen.KernelIdeal.Launch
import proofs.«179567_j26920855011723_2_alg».proof.Proof.Gen.KernelIdeal.Skeleton
import proofs.«179567_j26920855011723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The attention kernel's region, at a parameter `V`: the core's buffer contents when the region is entered -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the entry contents at every point, whether the
    pipeline fetched it there or not (where it did not, the block index has not moved since the fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the entry contents at every point, whether the
    pipeline fetched it there or not (where it did not, the block index has not moved since the fetch). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the entry contents at every point, whether the
    pipeline fetched it there or not (where it did not, the block index has not moved since the fetch). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the entry contents at every point, whether the
    pipeline fetched it there or not (where it did not, the block index has not moved since the fetch). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block of the entry contents at every point, whether the
    pipeline fetched it there or not (where it did not, the block index has not moved since the fetch). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions, decided over the grid -/

/-- "This is the first column tile of its row tile": the accumulators are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last column tile of its row tile": the quotient is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last column tile the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last column tile it is live. -/
theorem liveAt1_5 : ∀ t : Fin cfg1.N, cond1_1 (grid1.coords t) → cfg1.idle 5 (grid1.coords t) = false := by decide +kernel

/-! ## The memrefs the pipeline calls the body with -/

abbrev ms1_0 (t : Fin cfg1.N) : Memref sig .tc .vmem S8192x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .f32 := win1_5.stage (cfg1.slots t 5)
abbrev hs1_5 (t : Fin cfg1.N) : (ms1_5 t).IsWhole := hstage1_5 ((cfg1.slots t 5).cast nbuf1_5)
/-- The two scratch accumulators: the softmax denominator and the weighted feature sum. -/
abbrev scM1_0 : Memref sig .tc .vmem S1024x1 .f32 := Memref.whole cc1_scratch0
abbrev scM1_1 : Memref sig .tc .vmem S1024x256 .f32 := Memref.whole cc1_scratch1
/-- Views through which buffer contents are stated. -/
abbrev VO1_5 : View sig .tc .vmem S1024x256 .f32 := (Memref.whole cc1_stg5_0 : Memref sig .tc .vmem S1024x256 .f32).view
abbrev VS1_0 : View sig .tc .vmem S1024x1 .f32 := scM1_0.view
abbrev VS1_1 : View sig .tc .vmem S1024x256 .f32 := scM1_1.view

/-! ## The core's scoped buffers that are not this region's staging buffers -/

/-- The first kernel's staging buffers, each at some contents: untouched by this region. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class's region invariant, opened: the untouched buffers, the two scratch accumulators at some contents, the
    generator register at some state. -/
theorem PhiA1_open (c : Dev nD) :
    (Pipeline.ΦA spec1 c : sProp 𝕄) ⊢ iprop(rest1 c ∗ (∃ d, owns (c : Thread nD τ) scM1_0 fullShare d) ∗ (∃ d, owns (c : Thread nD τ) scM1_1 fullShare d) ∗ (∃ r, prngReg c r)) := by
  unfold Pipeline.ΦA rest1; rw [scopedRest1_eq]; simp only [scM1_0, scM1_1, owns_whole]
  iintro ⟨⟨H1, H2, H3, H4, H5, H6, H7, H8, H9, H10, H11, HS0, HS1⟩, Hg⟩
  isplitl [H1 H2 H3 H4 H5 H6 H7 H8 H9 H10 H11]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [HS0]; · iexact HS0
  isplitl [HS1]; · iexact HS1
  iexact Hg

/-- And closed again. -/
theorem PhiA1_close (c : Dev nD) :
    iprop(rest1 c ∗ (∃ d, owns (c : Thread nD τ) scM1_0 fullShare d) ∗ (∃ d, owns (c : Thread nD τ) scM1_1 fullShare d) ∗ (∃ r, prngReg c r)) ⊢ (Pipeline.ΦA spec1 c : sProp 𝕄) := by
  unfold Pipeline.ΦA rest1; rw [scopedRest1_eq]; simp only [scM1_0, scM1_1, owns_whole]
  iintro ⟨⟨H1, H2, H3, H4, H5, H6, H7, H8, H9, H10, H11⟩, HS0, HS1, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  iexact HS1

end Cert.KernelIdeal.Hand

end
-- ==== Proof.KI.Run1A.lean ====
/-
  The attention kernel's body in one of its three control cases: the first column tile of a row tile — both accumulators are reset, then one tile's contribution is added; nothing is stored to the output.
-/
import proofs.«179567_j26920855011723_2_alg».proof.Proof.Gen.KernelIdeal.Launch
import proofs.«179567_j26920855011723_2_alg».proof.Proof.Gen.KernelIdeal.Skeleton
import proofs.«179567_j26920855011723_2_alg».proof.Proof.Gen.KernelIdeal.Points
import proofs.«179567_j26920855011723_2_alg».proof.Proof.KI.Defs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output buffer and in the two accumulators (last store first), with the
    proof that on whole memrefs — the five inputs' at their contents, the idle output's handed back untouched, the accumulators'
    at anything — the body runs to a state holding the inputs as they were and those pieces written. -/
noncomputable def kernelRun1_A (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S8192x256 .bf16) (x1 : Vec F S1024x1 .f32) (x2 : Vec F S1024x1 .f32) (x3 : Vec F S1x1024 .f32) (x4 : Vec F S1024x1024 .i32) :
    Σ' (L7 : List (View.Piece (Elt F) S1024x256 .f32)), Σ' (LS0 : List (View.Piece (Elt F) S1024x1 .f32)), { LS1 : List (View.Piece (Elt F) S1024x256 .f32) //
      ∀ (xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi7 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi7 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9) K } := by
  refine ⟨[], ?_, ?_, fun xi7 E K => ?run⟩
  case run =>
    simp only [cc1__gat_kernel_eq_skeleton]; unfold cc1__gat_kernel_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; isplitr; · ipureintro; exact harg7.read_unread _
      iexact H7
    isplitl [HS0]; · iexists _; iexact HS0
    iexists _; iexact HS1

end Cert.KernelIdeal.Hand

end
-- ==== Proof.KI.Run1B.lean ====
/-
  The attention kernel's body in one of its three control cases: an inner column tile — one tile's contribution is added to the accumulators the point before left; nothing is stored to the output.
-/
import proofs.«179567_j26920855011723_2_alg».proof.Proof.Gen.KernelIdeal.Launch
import proofs.«179567_j26920855011723_2_alg».proof.Proof.Gen.KernelIdeal.Skeleton
import proofs.«179567_j26920855011723_2_alg».proof.Proof.Gen.KernelIdeal.Points
import proofs.«179567_j26920855011723_2_alg».proof.Proof.KI.Defs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output buffer and in the two accumulators (last store first), with the
    proof that on whole memrefs — the five inputs' at their contents, the idle output's handed back untouched, the accumulators'
    at what the point before left — the body runs to a state holding the inputs as they were and those pieces written. -/
noncomputable def kernelRun1_B (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) :
    Σ' (L7 : List (View.Piece (Elt F) S1024x256 .f32)), Σ' (LS0 : List (View.Piece (Elt F) S1024x1 .f32)), { LS1 : List (View.Piece (Elt F) S1024x256 .f32) //
      ∀ (xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi7 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi7 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9) K } := by
  refine ⟨[], ?_, ?_, fun xi7 E K => ?run⟩
  case run =>
    simp only [cc1__gat_kernel_eq_skeleton]; unfold cc1__gat_kernel_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf7; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; isplitr; · ipureintro; exact harg7.read_unread _
      iexact H7
    isplitl [HS0]; · iexists _; iexact HS0
    iexists _; iexact HS1

end Cert.KernelIdeal.Hand

end
-- ==== Proof.KI.Run1C.lean ====
/-
  The attention kernel's body in one of its three control cases: the last column tile of a row tile — the last contribution is added, then the weighted sum is divided by the denominator, clipped below at zero and stored.
-/
import proofs.«179567_j26920855011723_2_alg».proof.Proof.Gen.KernelIdeal.Launch
import proofs.«179567_j26920855011723_2_alg».proof.Proof.Gen.KernelIdeal.Skeleton
import proofs.«179567_j26920855011723_2_alg».proof.Proof.Gen.KernelIdeal.Points
import proofs.«179567_j26920855011723_2_alg».proof.Proof.KI.Defs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output buffer and in the two accumulators (last store first), with the
    proof that on whole memrefs — the five inputs' at their contents, the output's at anything, the accumulators'
    at what the point before left — the body runs to a state holding the inputs as they were and those pieces written. -/
noncomputable def kernelRun1_C (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) :
    Σ' (L7 : List (View.Piece (Elt F) S1024x256 .f32)), Σ' (LS0 : List (View.Piece (Elt F) S1024x1 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9) K } := by
  refine ⟨?_, ?_, ?_, fun E K => ?run⟩
  case run =>
    simp only [cc1__gat_kernel_eq_skeleton]; unfold cc1__gat_kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [HS0]; · iexists _; iexact HS0
    iexists _; iexact HS1

end Cert.KernelIdeal.Hand

end
-- ==== Proof.KI.Frame1.lean ====
/-
  The attention kernel's region, point by point: what the output buffer and the two accumulators hold after each grid
  point, the region's invariant (the accumulators at what the point before left), the pipeline's proof data and the
  body obligation — the body at every grid point, from what the pipeline hands it to what it takes back.
-/
import proofs.«179567_j26920855011723_2_alg».proof.Proof.Gen.KernelIdeal.Launch
import proofs.«179567_j26920855011723_2_alg».proof.Proof.Gen.KernelIdeal.Skeleton
import proofs.«179567_j26920855011723_2_alg».proof.Proof.Gen.KernelIdeal.Points
import proofs.«179567_j26920855011723_2_alg».proof.Proof.KI.Run1A
import proofs.«179567_j26920855011723_2_alg».proof.Proof.KI.Run1B
import proofs.«179567_j26920855011723_2_alg».proof.Proof.KI.Run1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- In case A the stores into the denominator accumulator cover it. -/
theorem scover1_A_0 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S8192x256 .bf16) (x1 : Vec F S1024x1 .f32) (x2 : Vec F S1024x1 .f32) (x3 : Vec F S1x1024 .f32) (x4 : Vec F S1024x1024 .i32) (y : S1024x1.Idx) :
    ∃ pc ∈ (kernelRun1_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4).2.1 S1024x1.size (by sl_kernel_rfl) y
/-- What case A leaves in the denominator accumulator. -/
def sout1_A_0 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S8192x256 .bf16) (x1 : Vec F S1024x1 .f32) (x2 : Vec F S1024x1 .f32) (x3 : Vec F S1x1024 .f32) (x4 : Vec F S1024x1024 .i32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4).2.1)
/-- In case A the stores into the weighted-sum accumulator cover it. -/
theorem scover1_A_1 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S8192x256 .bf16) (x1 : Vec F S1024x1 .f32) (x2 : Vec F S1024x1 .f32) (x3 : Vec F S1x1024 .f32) (x4 : Vec F S1024x1024 .i32) (y : S1024x256.Idx) :
    ∃ pc ∈ (kernelRun1_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4).2.2.1 S1024x256.size (by sl_kernel_rfl) y
/-- What case A leaves in the weighted-sum accumulator. -/
def sout1_A_1 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S8192x256 .bf16) (x1 : Vec F S1024x1 .f32) (x2 : Vec F S1024x1 .f32) (x3 : Vec F S1x1024 .f32) (x4 : Vec F S1024x1024 .i32) : Vec F S1024x256 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3 x4).2.2.1)

/-- In case B the stores into the denominator accumulator cover it. -/
theorem scover1_B_0 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 xs0 xs1).2.1 S1024x1.size (by sl_kernel_rfl) y
/-- What case B leaves in the denominator accumulator. -/
def sout1_B_0 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 xs0 xs1).2.1)
/-- In case B the stores into the weighted-sum accumulator cover it. -/
theorem scover1_B_1 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) (y : S1024x256.Idx) :
    ∃ pc ∈ (kernelRun1_B c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 xs0 xs1).2.2.1 S1024x256.size (by sl_kernel_rfl) y
/-- What case B leaves in the weighted-sum accumulator. -/
def sout1_B_1 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) : Vec F S1024x256 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 x4 xs0 xs1).2.2.1)

/-- In case C the stores into the denominator accumulator cover it. -/
theorem scover1_C_0 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0 xs1).2.1 S1024x1.size (by sl_kernel_rfl) y
/-- What case C leaves in the denominator accumulator. -/
def sout1_C_0 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 xs0 xs1).2.1)
/-- In case C the stores into the weighted-sum accumulator cover it. -/
theorem scover1_C_1 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0 xs1).2.2.1 S1024x256.size (by sl_kernel_rfl) y
/-- What case C leaves in the weighted-sum accumulator. -/
def sout1_C_1 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) : Vec F S1024x256 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 x4 xs0 xs1).2.2.1)
/-- In case C the store into the output buffer covers it. -/
theorem cover1_C_5 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0 xs1).1 S1024x256.size (by sl_kernel_rfl) y
/-- What case C leaves in the output buffer. -/
def out1_C_5 (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) : Vec F S1024x256 .f32 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 x4 xs0 xs1).1)

/-- A placeholder for the output buffer's contents at the points where the window is idle: nothing consults it there
    (the buffer is neither written back nor read at the next point). -/
def junk5 : Vec F S1024x256 .f32 := VO1_5.read (Elt F) (VO1_5.writes (Elt F) VO1_5.junk [])

section Region1
variable (V : (c : Dev nD) → (b : Ref sig .tc) → Buf (Elt F) ((c : Thread nD τ).loc b))

/-! ## What the buffers hold after each grid point -/

/-- THE ACCUMULATION. After the body at position `n`: the output buffer, the denominator accumulator, the weighted-sum
    accumulator. At the first column tile of a row tile (position ≡ 0 mod 8) the accumulators restart from zero; at the
    other positions they continue from what position `n - 1` left; at the last column tile (≡ 7 mod 8) the output
    buffer receives the quotient. -/
def outsAt1 (c : Dev nD) : (n : ℕ) → n < cfg1.N → Vec F S1024x256 .f32 × Vec F S1024x1 .f32 × Vec F S1024x256 .f32
  | 0, hn => (junk5, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      (junk5, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)
      else
        (junk5, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2)

/-- At a first column tile. -/
theorem outsAt1_A (c : Dev nD) (t : Fin cfg1.N) (h0 : t.val % 8 = 0) (h1 : ¬t.val % 8 = 7) :
    outsAt1 V c t.val t.isLt = (junk5, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans rfl

/-- At an inner column tile: over what the point before left. -/
theorem outsAt1_B (c : Dev nD) (t : Fin cfg1.N) (h0 : ¬t.val % 8 = 0) (h1 : ¬t.val % 8 = 7) :
    outsAt1 V c t.val t.isLt = (junk5, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last column tile: over what the point before left. -/
theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start the class's invariant (every scoped buffer that is not this region's staging, at
    anything, and the generator register); afterwards the same with the two accumulators at what position `n - 1` left. -/
def PhiS (c : Dev nD) : (n : ℕ) → n ≤ cfg1.N → sProp 𝕄
  | 0, _ => Pipeline.ΦA spec1 c
  | n + 1, hn => iprop(rest1 c ∗ owns (c : Thread nD τ) scM1_0 fullShare ((outsAt1 V c n hn).2.1) ∗ owns (c : Thread nD τ) scM1_1 fullShare ((outsAt1 V c n hn).2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(rest1 c ∗ owns (c : Thread nD τ) scM1_0 fullShare ((outsAt1 V c n hn).2.1) ∗ owns (c : Thread nD τ) scM1_1 fullShare ((outsAt1 V c n hn).2.2) ∗ (∃ r, prngReg c r)) := rfl
theorem PhiS_pos (c : Dev nD) (n : ℕ) (h : n ≤ cfg1.N) (hz : n ≠ 0) :
    PhiS V c n h = iprop(rest1 c ∗ owns (c : Thread nD τ) scM1_0 fullShare ((outsAt1 V c (n - 1) (by omega)).2.1) ∗ owns (c : Thread nD τ) scM1_1 fullShare ((outsAt1 V c (n - 1) (by omega)).2.2) ∗ (∃ r, prngReg c r)) := by
  cases n with
  | zero => exact absurd rfl hz
  | succ n => rfl

/-! ## The pipeline's proof data -/

/-- The arrays as the region finds them; after the body at a point each input's buffer at its block, the output's at
    `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Region1

end Cert.KernelIdeal.Hand

end
-- ==== Proof.KI.Blocks1.lean ====
/-
  The attention kernel's windows at a grid point, read at an index. Grid point t is row tile t / 8 and column tile
  t % 8 (tiles of 1024). The projected features are staged whole; the first attention term and the row bound by row
  tile; the transposed second attention term by column tile; the adjacency block by both. An entry of a block is the
  entry of the array at block index × block size + the coordinate inside the block.
-/
import proofs.«179567_j26920855011723_2_alg».proof.Proof.KI.Frame1
import proofs.«179567_j26920855011723_2_alg».proof.Proof.Conv
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.GatSpec

/-- The printed index maps and the column coordinate, decided over the 64 grid points. -/
theorem idx_facts1 : ∀ t : Fin cfg1.N,
    win1_0.index t (0 : Fin 2) = 0 ∧ win1_0.index t (1 : Fin 2) = 0
    ∧ win1_1.index t (0 : Fin 2) = t.val / 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = t.val / 8 ∧ win1_4.index t (1 : Fin 2) = t.val % 8
    ∧ win1_5.index t (0 : Fin 2) = t.val / 8 ∧ win1_5.index t (1 : Fin 2) = 0
    ∧ ((grid1.coords t) 1).val = t.val % 8 :=
  (by decide +kernel : ∀ t : Fin grid1.N, _)

/-- Row (or column) `r` of tile `q`, for a tile that exists, is 1024·q + r. -/
theorem tile_val (q : ℕ) (hq : q < 8) (r : Fin 1024) : (tile q r).val = 1024 * q + r.val := by
  unfold tile; show (1024 * q + r.val) % 8192 = _; have := r.isLt; exact Nat.mod_eq_of_lt (by omega)

section
variable (V : (c : Dev nD) → (b : Ref sig .tc) → Buf (Elt Ideal) ((c : Thread nD τ).loc b)) (c : Dev nD)

theorem blk1_0 (t : Fin cfg1.N) (j : Fin 8192) (f : Fin 256) :
    iblk1 V c 0 t (ix2 j f) = V c main_v4_0 (ix2 j f) := by
  obtain ⟨e00, e01, -⟩ := idx_facts1 t
  unfold iblk1
  show V c main_v4_0 (((cfg1.win 0).blk t).view.emb (ix2 j f)) = _
  refine congrArg _ ?_
  funext a; apply Fin.ext
  match a with
  | ⟨0, _⟩ => show win1_0.index t (0 : Fin 2) * 8192 + 1 * j.val = j.val; omega
  | ⟨1, _⟩ => show win1_0.index t (1 : Fin 2) * 256 + 1 * f.val = f.val; omega

theorem blk1_1 (t : Fin cfg1.N) (r : Fin 1024) :
    iblk1 V c 1 t (ix2 r (0 : Fin 1)) = V c main_v4_1 (ix2 (tile (t.val / 8) r) (0 : Fin 1)) := by
  obtain ⟨-, -, e10, e11, -⟩ := idx_facts1 t
  have hN : t.val < 64 := lt_of_lt_of_eq t.isLt (show cfg1.N = 64 from N_1)
  have hv := tile_val (t.val / 8) (by omega) r
  unfold iblk1
  show V c main_v4_1 (((cfg1.win 1).blk t).view.emb (ix2 r (0 : Fin 1))) = _
  refine congrArg _ ?_
  funext a; apply Fin.ext
  match a with
  | ⟨0, _⟩ => show win1_1.index t (0 : Fin 2) * 1024 + 1 * r.val = (tile (t.val / 8) r).val; omega
  | ⟨1, _⟩ => show win1_1.index t (1 : Fin 2) * 1 + 1 * 0 = 0; omega

theorem blk1_2 (t : Fin cfg1.N) (r : Fin 1024) :
    iblk1 V c 2 t (ix2 r (0 : Fin 1)) = V c main_v9 (ix2 (tile (t.val / 8) r) (0 : Fin 1)) := by
  obtain ⟨-, -, -, -, e20, e21, -⟩ := idx_facts1 t
  have hN : t.val < 64 := lt_of_lt_of_eq t.isLt (show cfg1.N = 64 from N_1)
  have hv := tile_val (t.val / 8) (by omega) r
  unfold iblk1
  show V c main_v9 (((cfg1.win 2).blk t).view.emb (ix2 r (0 : Fin 1))) = _
  refine congrArg _ ?_
  funext a; apply Fin.ext
  match a with
  | ⟨0, _⟩ => show win1_2.index t (0 : Fin 2) * 1024 + 1 * r.val = (tile (t.val / 8) r).val; omega
  | ⟨1, _⟩ => show win1_2.index t (1 : Fin 2) * 1 + 1 * 0 = 0; omega

theorem blk1_3 (t : Fin cfg1.N) (k : Fin 1024) :
    iblk1 V c 3 t (ix2 (0 : Fin 1) k) = V c main_v10 (ix2 (0 : Fin 1) (tile (t.val % 8) k)) := by
  obtain ⟨-, -, -, -, -, -, e30, e31, -⟩ := idx_facts1 t
  have hv := tile_val (t.val % 8) (by omega) k
  unfold iblk1
  show V c main_v10 (((cfg1.win 3).blk t).view.emb (ix2 (0 : Fin 1) k)) = _
  refine congrArg _ ?_
  funext a; apply Fin.ext
  match a with
  | ⟨0, _⟩ => show win1_3.index t (0 : Fin 2) * 1 + 1 * 0 = 0; omega
  | ⟨1, _⟩ => show win1_3.index t (1 : Fin 2) * 1024 + 1 * k.val = (tile (t.val % 8) k).val; omega

theorem blk1_4 (t : Fin cfg1.N) (r k : Fin 1024) :
    iblk1 V c 4 t (ix2 r k) = V c main_arg3 (ix2 (tile (t.val / 8) r) (tile (t.val % 8) k)) := by
  obtain ⟨-, -, -, -, -, -, -, -, e40, e41, -⟩ := idx_facts1 t
  have hN : t.val < 64 := lt_of_lt_of_eq t.isLt (show cfg1.N = 64 from N_1)
  have hv := tile_val (t.val / 8) (by omega) r
  have hw := tile_val (t.val % 8) (by omega) k
  unfold iblk1
  show V c main_arg3 (((cfg1.win 4).blk t).view.emb (ix2 r k)) = _
  refine congrArg _ ?_
  funext a; apply Fin.ext
  match a with
  | ⟨0, _⟩ => show win1_4.index t (0 : Fin 2) * 1024 + 1 * r.val = (tile (t.val / 8) r).val; omega
  | ⟨1, _⟩ => show win1_4.index t (1 : Fin 2) * 1024 + 1 * k.val = (tile (t.val % 8) k).val; omega

end

end Cert.KernelIdeal.Hand

end
-- ==== Proof.KI.Pieces1.lean ====
/-
  What the attention kernel's body leaves in its two accumulators and in its output tile, in each of its three control
  cases, read as values.

  At a grid point (row tile, column tile) the body holds the row terms, the row bounds, the column terms and the mask
  tile, and forms the 1024 × 1024 tile of weights. At the first column tile it first clears both accumulators, so the
  denominator column ends at zero plus the row sums of the weights and the weighted-sum tile at zero plus the product
  of the weights with the 1024 rows of projected features that the column tile meets. At every later column tile the
  same two quantities are added to what the accumulators held. At the last column tile the output tile is, entry by
  entry, the weighted sum over the row's denominator, clipped below at zero, both read after that tile's additions.

  Each statement comes twice: as an equation of whole tiles that holds for any float values, and entry by entry over
  the extended reals.
-/
import proofs.«179567_j26920855011723_2_alg».proof.Proof.KI.Frame1
import proofs.«179567_j26920855011723_2_alg».proof.Proof.KernelReads1
import proofs.«179567_j26920855011723_2_alg».proof.Proof.Conv
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Reads

variable {F : FTy → Type} [FloatOps F]

/-- Zero offsets, however spelt, are the zero function. -/
theorem zeroOff1 : (![0, 0] : Fin 2 → Nat) = fun _ => 0 := funext fun a => by fin_cases a <;> rfl

/-! ## The rows of projected features that a column tile meets -/

/-- The 1024 rows of the projected features, from row 1024 · (column tile) on, as the body loads them. -/
def featSlab1 (x0 : Vec F S8192x256 .bf16) (i : grid1.Coords) : Vec F S1024x256 .bf16 :=
  View.ld x0 (Rect.unit (s := S8192x256) (k1_off1 i) S1024x256.size (Cert.KernelIdeal.Gen.k1_off1_inb i))

/-- Column c of column tile (i 1) is a column of the whole matrix: there are eight column tiles of 1024. -/
theorem col1_lt (i : grid1.Coords) (c : Fin 1024) : 1024 * (i 1).val + c.val < 8192 := by
  have h0 : (k1_off1 i) 0 + S1024x256.size 0 ≤ S8192x256.size 0 := Cert.KernelIdeal.Gen.k1_off1_inb i 0
  rw [k1_off1_eq i] at h0
  have h1 : 1024 * (i 1).val + 1024 ≤ 8192 := h0
  omega

/-- Row c of the slab is row 1024 · (column tile) + c of the projected features. -/
theorem featSlab1_apply (x0 : Vec F S8192x256 .bf16) (i : grid1.Coords) (c : Fin 1024) (f : Fin 256) :
    featSlab1 x0 i (ix2 c f) = x0 (ix2 (⟨1024 * (i 1).val + c.val, col1_lt i c⟩ : Fin 8192) f) := by
  unfold featSlab1
  show x0 ((Rect.unit (s := S8192x256) (k1_off1 i) S1024x256.size (Cert.KernelIdeal.Gen.k1_off1_inb i)).idx (ix2 c f)) = _
  refine congrArg x0 (funext fun a => Fin.ext ?_)
  have e := k1_off1_eq i
  match a with
  | ⟨0, _⟩ =>
    show k1_off1 i 0 + 1 * c.val = 1024 * (i 1).val + c.val
    rw [e]; show 1024 * (i 1).val + 1 * c.val = _; omega
  | ⟨1, _⟩ =>
    show k1_off1 i 1 + 1 * f.val = f.val
    rw [e]; show 0 + 1 * f.val = _; omega

/-! ## The first column tile: both accumulators cleared, then one tile added -/

/-- The denominator column after the first column tile: the tile's addition to the cleared column. -/
theorem sout1_A_0_eq (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S8192x256 .bf16) (x1 : Vec F S1024x1 .f32) (x2 : Vec F S1024x1 .f32) (x3 : Vec F S1x1024 .f32) (x4 : Vec F S1024x1024 .i32) :
    sout1_A_0 c i arg2 harg2 arg3 harg3 arg4 harg4 arg5 harg5 arg6 harg6 arg7 harg7 arg8 harg8 arg9 harg9 hc0 hc1 x0 x1 x2 x3 x4 = k1_pay6 x1 x2 x3 x4 (k1_pay3 (F := F)) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S1024x1) zeroOff1, View.readCov_unit_zero (S := S1024x1) _ zeroOff1]
  simp only [View.readAt_eq_ld, harg2.read_unread, harg3.read_unread, harg4.read_unread, harg5.read_unread, harg6.read_unread,
    harg8.read_unread, harg9.read_unread, View.ld_unit_zero (S := S1024x1) zeroOff1, View.ld_unit_zero (S := S1x1024) zeroOff1,
    View.ld_unit_zero (S := S1024x1024) zeroOff1, View.ld_unit_zero (S := S1024x256) zeroOff1]

/-- The weighted-sum tile after the first column tile: the tile's addition to the cleared tile. -/
theorem sout1_A_1_eq (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S8192x256 .bf16) (x1 : Vec F S1024x1 .f32) (x2 : Vec F S1024x1 .f32) (x3 : Vec F S1x1024 .f32) (x4 : Vec F S1024x1024 .i32) :
    sout1_A_1 c i arg2 harg2 arg3 harg3 arg4 harg4 arg5 harg5 arg6 harg6 arg7 harg7 arg8 harg8 arg9 harg9 hc0 hc1 x0 x1 x2 x3 x4
      = k1_pay1 (k1_pay5 x1 x2 x3 x4) (featSlab1 x0 i) (k1_pay4 (F := F)) := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S1024x256) zeroOff1, View.readCov_unit_zero (S := S1024x256) _ zeroOff1]
  simp only [View.readAt_eq_ld, harg2.read_unread, harg3.read_unread, harg4.read_unread, harg5.read_unread, harg6.read_unread,
    harg8.read_unread, harg9.read_unread, View.ld_unit_zero (S := S1024x1) zeroOff1, View.ld_unit_zero (S := S1x1024) zeroOff1,
    View.ld_unit_zero (S := S1024x1024) zeroOff1, View.ld_unit_zero (S := S1024x256) zeroOff1]
  rfl

/-! ## A middle column tile: one tile added to what the accumulators held -/

/-- The denominator column after a middle column tile. -/
theorem sout1_B_0_eq (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) :
    sout1_B_0 c i arg2 harg2 arg3 harg3 arg4 harg4 arg5 harg5 arg6 harg6 arg7 harg7 arg8 harg8 arg9 harg9 hc0 hc1 x0 x1 x2 x3 x4 xs0 xs1 = k1_pay6 x1 x2 x3 x4 xs0 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 x4 xs0 xs1)]
  unfold kernelRun1_B
  dsimp only
  sl_unfold_words
  rw [View.canon_unit_zero (S := S1024x1) zeroOff1]
  simp only [View.readAt_eq_ld, harg2.read_unread, harg3.read_unread, harg4.read_unread, harg5.read_unread, harg6.read_unread,
    harg8.read_unread, harg9.read_unread, View.ld_unit_zero (S := S1024x1) zeroOff1, View.ld_unit_zero (S := S1x1024) zeroOff1,
    View.ld_unit_zero (S := S1024x1024) zeroOff1, View.ld_unit_zero (S := S1024x256) zeroOff1]

/-- The weighted-sum tile after a middle column tile. -/
theorem sout1_B_1_eq (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) :
    sout1_B_1 c i arg2 harg2 arg3 harg3 arg4 harg4 arg5 harg5 arg6 harg6 arg7 harg7 arg8 harg8 arg9 harg9 hc0 hc1 x0 x1 x2 x3 x4 xs0 xs1 = k1_pay1 (k1_pay5 x1 x2 x3 x4) (featSlab1 x0 i) xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 x4 xs0 xs1)]
  unfold kernelRun1_B
  dsimp only
  sl_unfold_words
  rw [View.canon_unit_zero (S := S1024x256) zeroOff1]
  simp only [View.readAt_eq_ld, harg2.read_unread, harg3.read_unread, harg4.read_unread, harg5.read_unread, harg6.read_unread,
    harg8.read_unread, harg9.read_unread, View.ld_unit_zero (S := S1024x1) zeroOff1, View.ld_unit_zero (S := S1x1024) zeroOff1,
    View.ld_unit_zero (S := S1024x1024) zeroOff1, View.ld_unit_zero (S := S1024x256) zeroOff1]
  rfl

/-! ## The last column tile: one tile added, then the quotient stored -/

/-- The denominator column after the last column tile. -/
theorem sout1_C_0_eq (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) :
    sout1_C_0 c i arg2 harg2 arg3 harg3 arg4 harg4 arg5 harg5 arg6 harg6 arg7 harg7 arg8 harg8 arg9 harg9 hc0 hc1 x0 x1 x2 x3 x4 xs0 xs1 = k1_pay6 x1 x2 x3 x4 xs0 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 x4 xs0 xs1)]
  unfold kernelRun1_C
  dsimp only
  sl_unfold_words
  rw [View.canon_unit_zero (S := S1024x1) zeroOff1]
  simp only [View.readAt_eq_ld, harg2.read_unread, harg3.read_unread, harg4.read_unread, harg5.read_unread, harg6.read_unread,
    harg8.read_unread, harg9.read_unread, View.ld_unit_zero (S := S1024x1) zeroOff1, View.ld_unit_zero (S := S1x1024) zeroOff1,
    View.ld_unit_zero (S := S1024x1024) zeroOff1, View.ld_unit_zero (S := S1024x256) zeroOff1]

/-- The weighted-sum tile after the last column tile. -/
theorem sout1_C_1_eq (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) :
    sout1_C_1 c i arg2 harg2 arg3 harg3 arg4 harg4 arg5 harg5 arg6 harg6 arg7 harg7 arg8 harg8 arg9 harg9 hc0 hc1 x0 x1 x2 x3 x4 xs0 xs1 = k1_pay1 (k1_pay5 x1 x2 x3 x4) (featSlab1 x0 i) xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 x3 x4 xs0 xs1)]
  unfold kernelRun1_C
  dsimp only
  sl_unfold_words
  rw [View.canon_unit_zero (S := S1024x256) zeroOff1]
  simp only [View.readAt_eq_ld, harg2.read_unread, harg3.read_unread, harg4.read_unread, harg5.read_unread, harg6.read_unread,
    harg8.read_unread, harg9.read_unread, View.ld_unit_zero (S := S1024x1) zeroOff1, View.ld_unit_zero (S := S1x1024) zeroOff1,
    View.ld_unit_zero (S := S1024x1024) zeroOff1, View.ld_unit_zero (S := S1024x256) zeroOff1]
  rfl

/-- The output tile at the last column tile: the quotient of the two accumulators as that tile leaves them. -/
theorem out1_C_5_eq (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S8192x256 .bf16) (x1 : Vec F S1024x1 .f32) (x2 : Vec F S1024x1 .f32) (x3 : Vec F S1x1024 .f32) (x4 : Vec F S1024x1024 .i32) (xs0 : Vec F S1024x1 .f32) (xs1 : Vec F S1024x256 .f32) :
    out1_C_5 c i arg2 harg2 arg3 harg3 arg4 harg4 arg5 harg5 arg6 harg6 arg7 harg7 arg8 harg8 arg9 harg9 hc0 hc1 x0 x1 x2 x3 x4 xs0 xs1
      = k1_pay2 (k1_pay1 (k1_pay5 x1 x2 x3 x4) (featSlab1 x0 i) xs1) (k1_pay6 x1 x2 x3 x4 xs0) := by
  unfold out1_C_5
  rw [View.read_writes_eq_canon _ _ _ (cover1_C_5 c i arg2 harg2 arg3 harg3 arg4 harg4 arg5 harg5 arg6 harg6 arg7 harg7 arg8 harg8 arg9 harg9 hc0 hc1 x0 x1 x2 x3 x4 xs0 xs1)]
  unfold kernelRun1_C
  dsimp only
  sl_unfold_words
  rw [View.canon_unit_zero (S := S1024x256) zeroOff1, View.readCov_unit_zero (S := S1024x256) _ zeroOff1,
    View.readCov_unit_zero (S := S1024x1) _ zeroOff1]
  simp only [View.readAt_eq_ld, harg2.read_unread, harg3.read_unread, harg4.read_unread, harg5.read_unread, harg6.read_unread,
    harg8.read_unread, harg9.read_unread, View.ld_unit_zero (S := S1024x1) zeroOff1, View.ld_unit_zero (S := S1x1024) zeroOff1,
    View.ld_unit_zero (S := S1024x1024) zeroOff1, View.ld_unit_zero (S := S1024x256) zeroOff1]
  rfl

/-! ## Entry by entry over the extended reals -/

/-- First column tile, denominator of row r: zero plus the sum of the row's 1024 weights. -/
theorem sout1_A_0_apply (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec Ideal S8192x256 .bf16) (x1 : Vec Ideal S1024x1 .f32) (x2 : Vec Ideal S1024x1 .f32) (x3 : Vec Ideal S1x1024 .f32) (x4 : Vec Ideal S1024x1024 .i32) (r : Fin 1024) :
    sout1_A_0 (F := Ideal) c i arg2 harg2 arg3 harg3 arg4 harg4 arg5 harg5 arg6 harg6 arg7 harg7 arg8 harg8 arg9 harg9 hc0 hc1 x0 x1 x2 x3 x4 (ix2 r (0 : Fin 1))
      = 0 + ∑ c : Fin 1024, k1_pay5 (F := Ideal) x1 x2 x3 x4 (ix2 r c) := by
  rw [sout1_A_0_eq, k1_pay6_apply, k1_pay3_apply]

/-- First column tile, weighted sum at (r, f): zero plus the sum over the tile's columns of weight times feature. -/
theorem sout1_A_1_apply (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec Ideal S8192x256 .bf16) (x1 : Vec Ideal S1024x1 .f32) (x2 : Vec Ideal S1024x1 .f32) (x3 : Vec Ideal S1x1024 .f32) (x4 : Vec Ideal S1024x1024 .i32) (r : Fin 1024) (f : Fin 256) :
    sout1_A_1 (F := Ideal) c i arg2 harg2 arg3 harg3 arg4 harg4 arg5 harg5 arg6 harg6 arg7 harg7 arg8 harg8 arg9 harg9 hc0 hc1 x0 x1 x2 x3 x4 (ix2 r f)
      = 0 + ∑ c : Fin 1024, k1_pay5 (F := Ideal) x1 x2 x3 x4 (ix2 r c)
          * x0 (ix2 (⟨1024 * (i 1).val + c.val, col1_lt i c⟩ : Fin 8192) f) := by
  rw [sout1_A_1_eq, k1_pay1_apply, k1_pay4_apply]
  refine congrArg (0 + ·) (Finset.sum_congr rfl fun c _ => ?_)
  rw [featSlab1_apply]

/-- Middle column tile, denominator of row r: the old value plus the sum of the row's 1024 weights. -/
theorem sout1_B_0_apply (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec Ideal S8192x256 .bf16) (x1 : Vec Ideal S1024x1 .f32) (x2 : Vec Ideal S1024x1 .f32) (x3 : Vec Ideal S1x1024 .f32) (x4 : Vec Ideal S1024x1024 .i32) (xs0 : Vec Ideal S1024x1 .f32) (xs1 : Vec Ideal S1024x256 .f32) (r : Fin 1024) :
    sout1_B_0 (F := Ideal) c i arg2 harg2 arg3 harg3 arg4 harg4 arg5 harg5 arg6 harg6 arg7 harg7 arg8 harg8 arg9 harg9 hc0 hc1 x0 x1 x2 x3 x4 xs0 xs1 (ix2 r (0 : Fin 1))
      = xs0 (ix2 r (0 : Fin 1)) + ∑ c : Fin 1024, k1_pay5 (F := Ideal) x1 x2 x3 x4 (ix2 r c) := by
  rw [sout1_B_0_eq, k1_pay6_apply]

/-- Middle column tile, weighted sum at (r, f): the old value plus the sum of weight times feature. -/
theorem sout1_B_1_apply (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec Ideal S8192x256 .bf16) (x1 : Vec Ideal S1024x1 .f32) (x2 : Vec Ideal S1024x1 .f32) (x3 : Vec Ideal S1x1024 .f32) (x4 : Vec Ideal S1024x1024 .i32) (xs0 : Vec Ideal S1024x1 .f32) (xs1 : Vec Ideal S1024x256 .f32) (r : Fin 1024) (f : Fin 256) :
    sout1_B_1 (F := Ideal) c i arg2 harg2 arg3 harg3 arg4 harg4 arg5 harg5 arg6 harg6 arg7 harg7 arg8 harg8 arg9 harg9 hc0 hc1 x0 x1 x2 x3 x4 xs0 xs1 (ix2 r f)
      = xs1 (ix2 r f) + ∑ c : Fin 1024, k1_pay5 (F := Ideal) x1 x2 x3 x4 (ix2 r c)
          * x0 (ix2 (⟨1024 * (i 1).val + c.val, col1_lt i c⟩ : Fin 8192) f) := by
  rw [sout1_B_1_eq, k1_pay1_apply]
  refine congrArg (xs1 (ix2 r f) + ·) (Finset.sum_congr rfl fun c _ => ?_)
  rw [featSlab1_apply]

/-- Last column tile, denominator of row r: the old value plus the sum of the row's 1024 weights. -/
theorem sout1_C_0_apply (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec Ideal S8192x256 .bf16) (x1 : Vec Ideal S1024x1 .f32) (x2 : Vec Ideal S1024x1 .f32) (x3 : Vec Ideal S1x1024 .f32) (x4 : Vec Ideal S1024x1024 .i32) (xs0 : Vec Ideal S1024x1 .f32) (xs1 : Vec Ideal S1024x256 .f32) (r : Fin 1024) :
    sout1_C_0 (F := Ideal) c i arg2 harg2 arg3 harg3 arg4 harg4 arg5 harg5 arg6 harg6 arg7 harg7 arg8 harg8 arg9 harg9 hc0 hc1 x0 x1 x2 x3 x4 xs0 xs1 (ix2 r (0 : Fin 1))
      = xs0 (ix2 r (0 : Fin 1)) + ∑ c : Fin 1024, k1_pay5 (F := Ideal) x1 x2 x3 x4 (ix2 r c) := by
  rw [sout1_C_0_eq, k1_pay6_apply]

/-- Last column tile, weighted sum at (r, f): the old value plus the sum of weight times feature. -/
theorem sout1_C_1_apply (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec Ideal S8192x256 .bf16) (x1 : Vec Ideal S1024x1 .f32) (x2 : Vec Ideal S1024x1 .f32) (x3 : Vec Ideal S1x1024 .f32) (x4 : Vec Ideal S1024x1024 .i32) (xs0 : Vec Ideal S1024x1 .f32) (xs1 : Vec Ideal S1024x256 .f32) (r : Fin 1024) (f : Fin 256) :
    sout1_C_1 (F := Ideal) c i arg2 harg2 arg3 harg3 arg4 harg4 arg5 harg5 arg6 harg6 arg7 harg7 arg8 harg8 arg9 harg9 hc0 hc1 x0 x1 x2 x3 x4 xs0 xs1 (ix2 r f)
      = xs1 (ix2 r f) + ∑ c : Fin 1024, k1_pay5 (F := Ideal) x1 x2 x3 x4 (ix2 r c)
          * x0 (ix2 (⟨1024 * (i 1).val + c.val, col1_lt i c⟩ : Fin 8192) f) := by
  rw [sout1_C_1_eq, k1_pay1_apply]
  refine congrArg (xs1 (ix2 r f) + ·) (Finset.sum_congr rfl fun c _ => ?_)
  rw [featSlab1_apply]

/-- The output at (r, f): the weighted sum over the row's denominator, both as the last tile leaves them, clipped below
    at zero. -/
theorem out1_C_5_apply (c : Dev nD) (i : grid1.Coords) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec Ideal S8192x256 .bf16) (x1 : Vec Ideal S1024x1 .f32) (x2 : Vec Ideal S1024x1 .f32) (x3 : Vec Ideal S1x1024 .f32) (x4 : Vec Ideal S1024x1024 .i32) (xs0 : Vec Ideal S1024x1 .f32) (xs1 : Vec Ideal S1024x256 .f32) (r : Fin 1024) (f : Fin 256) :
    out1_C_5 (F := Ideal) c i arg2 harg2 arg3 harg3 arg4 harg4 arg5 harg5 arg6 harg6 arg7 harg7 arg8 harg8 arg9 harg9 hc0 hc1 x0 x1 x2 x3 x4 xs0 xs1 (ix2 r f)
      = max (Ideal.div (sout1_C_1 (F := Ideal) c i arg2 harg2 arg3 harg3 arg4 harg4 arg5 harg5 arg6 harg6 arg7 harg7 arg8 harg8 arg9 harg9 hc0 hc1 x0 x1 x2 x3 x4 xs0 xs1 (ix2 r f))
          (sout1_C_0 (F := Ideal) c i arg2 harg2 arg3 harg3 arg4 harg4 arg5 harg5 arg6 harg6 arg7 harg7 arg8 harg8 arg9 harg9 hc0 hc1 x0 x1 x2 x3 x4 xs0 xs1 (ix2 r (0 : Fin 1)))) 0 := by
  rw [out1_C_5_eq, k1_pay2_apply, sout1_C_1_eq, sout1_C_0_eq]

end Cert.KernelIdeal.Hand

end
-- ==== Proof.KI.Value1.lean ====
/-
  The attention kernel's two accumulators, followed through the grid. Grid point n is row tile n / 8 and column tile
  n % 8. After it, row r of the denominator accumulator holds the running softmax denominator of matrix row
  1024·(n / 8) + r over the first n % 8 + 1 column tiles, and entry (r, f) of the weighted-sum accumulator the running
  numerator of feature f over the same tiles — by induction along the grid: at a first column tile both restart from
  zero, elsewhere they continue from what the point before left. At a last column tile the output tile is the
  divide-once form of the layer at that matrix row.
-/
import proofs.«179567_j26920855011723_2_alg».proof.Proof.KI.Blocks1
import proofs.«179567_j26920855011723_2_alg».proof.Proof.KI.Pieces1

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Reads Cert.GatSpec

section
variable (V : (c : Dev nD) → (b : Ref sig .tc) → Buf (Elt Ideal) ((c : Thread nD τ).loc b)) (c : Dev nD)

/-! ## The region's entry arrays by their coordinates -/

/-- Projected features. -/
def Hf : Fin 8192 → Fin 256 → EReal := fun j f => V c main_v4_0 (ix2 j f)
/-- The first attention term of a row. -/
def u1 : Fin 8192 → EReal := fun i => V c main_v4_1 (ix2 i (0 : Fin 1))
/-- The second attention term of a column. -/
def u2 : Fin 8192 → EReal := fun j => V c main_v10 (ix2 (0 : Fin 1) j)
/-- The row bound. -/
def bnd : Fin 8192 → EReal := fun i => V c main_v9 (ix2 i (0 : Fin 1))
/-- The masked scores. -/
def Esc : Fin 8192 → Fin 8192 → EReal := fun i j => score (u1 V c i) (u2 V c j) (maskOf (V c main_arg3) i j)
/-- The softmax weights relative to the row bound. -/
def Pw (i j : Fin 8192) : EReal := Ideal.exp (Esc V c i j - bnd V c i)

/-- One weight of the tile the body forms at grid point `t`. -/
theorem pay5_at (t : Fin cfg1.N) (r k : Fin 1024) :
    k1_pay5 (F := Ideal) (iblk1 V c 1 t) (iblk1 V c 2 t) (iblk1 V c 3 t) (iblk1 V c 4 t) (ix2 r k)
      = Pw V c (tile (t.val / 8) r) (tile (t.val % 8) k) := by
  refine (k1_pay5_apply (iblk1 V c 1 t) (iblk1 V c 2 t) (iblk1 V c 3 t) (iblk1 V c 4 t) r k).trans ?_
  rw [blk1_1 V c t r, blk1_2 V c t r, blk1_3 V c t k, blk1_4 V c t r k]
  rfl

/-- The row of projected features that column k of the point's column tile meets. -/
theorem feat_at (t : Fin cfg1.N) (k : Fin 1024) (f : Fin 256) :
    iblk1 V c 0 t (ix2 (⟨1024 * ((grid1.coords t) 1).val + k.val, col1_lt (grid1.coords t) k⟩ : Fin 8192) f)
      = Hf V c (tile (t.val % 8) k) f := by
  rw [blk1_0 V c t]
  have e := (idx_facts1 t).2.2.2.2.2.2.2.2.2.2.2.2
  have hv := tile_val (t.val % 8) (by omega) k
  unfold Hf
  refine congrArg (fun j => V c main_v4_0 (ix2 j f)) (Fin.ext ?_)
  show 1024 * ((grid1.coords t) 1).val + k.val = (tile (t.val % 8) k).val
  omega

/-- One tile's contribution to the denominator of row r. -/
theorem tile_denom (t : Fin cfg1.N) (r : Fin 1024) :
    (∑ k : Fin 1024, k1_pay5 (F := Ideal) (iblk1 V c 1 t) (iblk1 V c 2 t) (iblk1 V c 3 t) (iblk1 V c 4 t) (ix2 r k))
      = ∑ k : Fin 1024, Pw V c (tile (t.val / 8) r) (tile (t.val % 8) k) :=
  Finset.sum_congr rfl fun k _ => pay5_at V c t r k

/-- One tile's contribution to the numerator of (r, f). -/
theorem tile_numer (t : Fin cfg1.N) (r : Fin 1024) (f : Fin 256) :
    (∑ k : Fin 1024, k1_pay5 (F := Ideal) (iblk1 V c 1 t) (iblk1 V c 2 t) (iblk1 V c 3 t) (iblk1 V c 4 t) (ix2 r k)
        * iblk1 V c 0 t (ix2 (⟨1024 * ((grid1.coords t) 1).val + k.val, col1_lt (grid1.coords t) k⟩ : Fin 8192) f))
      = ∑ k : Fin 1024, Pw V c (tile (t.val / 8) r) (tile (t.val % 8) k) * Hf V c (tile (t.val % 8) k) f :=
  Finset.sum_congr rfl fun k _ => by rw [pay5_at V c t r k, feat_at V c t k f]

/-! ## The accumulators along the grid -/

set_option maxHeartbeats 1600000 in
/-- THE INVARIANT, at every grid point. -/
theorem acc_inv : ∀ (n : ℕ) (t : Fin cfg1.N), t.val = n → ∀ r : Fin 1024,
    (outsAt1 V c t.val t.isLt).2.1 (ix2 r (0 : Fin 1)) = denomAcc (fun j => Pw V c (tile (t.val / 8) r) j) (t.val % 8 + 1)
    ∧ ∀ f : Fin 256, (outsAt1 V c t.val t.isLt).2.2 (ix2 r f)
        = numerAcc (fun j => Pw V c (tile (t.val / 8) r) j) (fun j => Hf V c j f) (t.val % 8 + 1) := by
  intro n
  induction n using Nat.strong_induction_on with
  | _ n IH =>
    intro t htn r
    have hN : t.val < 64 := lt_of_lt_of_eq t.isLt (show cfg1.N = 64 from N_1)
    by_cases h0 : t.val % 8 = 0
    · have h1 : ¬t.val % 8 = 7 := by omega
      rw [outsAt1_A V c t h0 h1]
      refine ⟨?_, fun f => ?_⟩
      · dsimp only
        rw [sout1_A_0_apply, tile_denom V c t r, h0]
        rfl
      · dsimp only
        rw [sout1_A_1_apply, tile_numer V c t r f, h0]
        rfl
    · have hlt : t.val - 1 < cfg1.N := Nat.lt_of_le_of_lt (Nat.sub_le _ _) t.isLt
      obtain ⟨ih0, ih1⟩ := IH (t.val - 1) (by omega) ⟨t.val - 1, hlt⟩ rfl r
      dsimp only at ih0 ih1
      have hq : (t.val - 1) / 8 = t.val / 8 := by omega
      have hk : (t.val - 1) % 8 + 1 = t.val % 8 := by omega
      by_cases h1 : t.val % 8 = 7
      ·
        rw [outsAt1_C V c t h0 h1]
        refine ⟨?_, fun f => ?_⟩
        · dsimp only
          rw [sout1_C_0_apply, tile_denom V c t r, ih0, hq, hk]
          rfl
        · dsimp only
          rw [sout1_C_1_apply, tile_numer V c t r f, ih1 f, hq, hk]
          rfl
      ·
        rw [outsAt1_B V c t h0 h1]
        refine ⟨?_, fun f => ?_⟩
        · dsimp only
          rw [sout1_B_0_apply, tile_denom V c t r, ih0, hq, hk]
          rfl
        · dsimp only
          rw [sout1_B_1_apply, tile_numer V c t r f, ih1 f, hq, hk]
          rfl

set_option maxHeartbeats 1600000 in
/-- At a last column tile the output tile is the divide-once form of the layer, at the tile's matrix rows. -/
theorem out_at (t : Fin cfg1.N) (h1 : t.val % 8 = 7) (r : Fin 1024) (f : Fin 256) :
    (outsAt1 V c t.val t.isLt).1 (ix2 r f) = tiledOut (Esc V c) (Hf V c) (bnd V c) (tile (t.val / 8) r) f := by
  have h0 : ¬t.val % 8 = 0 := by omega
  obtain ⟨a0, a1⟩ := acc_inv V c t.val t rfl r
  have a1f := a1 f
  rw [outsAt1_C V c t h0 h1] at a0 a1f ⊢
  dsimp only at a0 a1f ⊢
  rw [out1_C_5_apply, a1f, a0, h1]
  rfl

end

end Cert.KernelIdeal.Hand

end
-- ==== Proof.KI.Final1.lean ====
/-
  The second kernel's region, from blocks to the whole output array.

  The region runs over 64 grid points: point t is row tile t / 8 and column tile t % 8. The output window sits at the
  block of rows of the row tile and is written back only at the last column tile of each row tile (t % 8 = 7). If at
  every such point the output buffer holds, at entry (r, f), one function G of the array row 1024 (t / 8) + r and of f,
  then what each writing point writes back is its block of G; the eight writing points' blocks tile the 8192 rows (row
  i lies in the block of point 8 (i / 1024) + 7); so the output array ends holding G.
-/
import proofs.«179567_j26920855011723_2_alg».proof.Proof.KI.Blocks1
import Idealize.ShloMosaic.Lib.Pipeline.Value

set_option maxRecDepth 16384

noncomputable section

namespace Cert.KernelIdeal.Hand

open Cert.KernelIdeal Cert.KernelIdeal.Gen Cert.GatSpec Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- What a writing point `t` writes back to the output array is block `t` of `G`, when the output buffer there holds `G`
    at the array rows under the block's rows. -/
theorem flushed1_5_eq (G : Fin 8192 → Fin 256 → EReal)
    (hG : ∀ (t : Fin cfg1.N), t.val % 8 = 7 → ∀ (r : Fin 1024) (f : Fin 256),
      (outsAt1 V c t.val t.isLt).1 (ix2 r f) = G (tile (t.val / 8) r) f)
    (t : Fin cfg1.N) (ht : t.val % 8 = 7) :
    (dat1 V c).flushed 5 t = ((cfg1.win 5).blk t).view.read (Elt Ideal) (fun idx : S8192x256.Idx => G (idx 0) (idx 1)) := by
  show (cfg1.win 5).cut (grid1.coords t) ((dat1 V c).after 5 t) = _
  rw [after1_5]
  obtain ⟨-, -, -, -, -, -, -, -, -, -, e0, e1, -⟩ := idx_facts1 t
  have hN : t.val < 64 := lt_of_lt_of_eq t.isLt (show cfg1.N = 64 from N_1)
  funext j
  show (outsAt1 V c t.val t.isLt).1 j = G ((((cfg1.win 5).blk t).view.emb j) 0) ((((cfg1.win 5).blk t).view.emb j) 1)
  obtain ⟨r, f, rfl⟩ : ∃ (r : Fin 1024) (f : Fin 256), j = ix2 r f := ⟨j 0, j 1, eq_ix2 j⟩
  rw [hG t ht r f]
  have hv := tile_val (t.val / 8) (by omega) r
  have a0 : (((cfg1.win 5).blk t).view.emb (ix2 r f)) 0 = tile (t.val / 8) r := Fin.ext (by
    show win1_5.index t (0 : Fin 2) * 1024 + 1 * r.val = (tile (t.val / 8) r).val
    rw [e0, hv]; omega)
  have a1 : (((cfg1.win 5).blk t).view.emb (ix2 r f)) 1 = f := Fin.ext (by
    show win1_5.index t (1 : Fin 2) * 256 + 1 * f.val = f.val
    rw [e1]; omega)
  rw [a0, a1]

/-- An index of the output array lies in point `t`'s block iff each coordinate lies in the block's range. -/
theorem mem_blk1_5 (t : Fin cfg1.N) (i : S8192x256.Idx) :
    i ∈ ((cfg1.win 5).blk t).view.set ↔ ∀ a : Fin 2, win1_5.index t a * S1024x256.size a ≤ (i a).val ∧ (i a).val < win1_5.index t a * S1024x256.size a + S1024x256.size a := by
  show i ∈ ((View.whole main_v11).slice (win1_5.rect t)).set ↔ _
  rw [View.set_slice_whole, Rect.mem_set_unit]
  exact Iff.rfl

/-- The output array after the region is `G`, when at every writing point the output buffer holds `G` at the array rows
    under the block's rows. -/
theorem final1_5_of (G : Fin 8192 → Fin 256 → EReal)
    (hG : ∀ (t : Fin cfg1.N), t.val % 8 = 7 → ∀ (r : Fin 1024) (f : Fin 256),
      (outsAt1 V c t.val t.isLt).1 (ix2 r f) = G (tile (t.val / 8) r) f) :
    (dat1 V c).arrAt 5 cfg1.N = fun idx : S8192x256.Idx => G (idx 0) (idx 1) :=
  (dat1 V c).arrAt_eq_of_cover 5 (fun idx : S8192x256.Idx => G (idx 0) (idx 1))
    (fun t hf => flushed1_5_eq V c G hG t ((flush1_5 t).mp hf)) fun i => by
    have hi0 : (i 0).val < 8192 := (i 0).isLt
    have hi1 : (i 1).val < 256 := (i 1).isLt
    have hN : cfg1.N = 64 := N_1
    refine ⟨⟨8 * ((i 0).val / 1024) + 7, by rw [hN]; omega⟩, (flush1_5 _).mpr (by show (8 * ((i 0).val / 1024) + 7) % 8 = 7; omega), ?_⟩
    rw [mem_blk1_5]
    obtain ⟨-, -, -, -, -, -, -, -, -, -, e0, e1, -⟩ := idx_facts1 ⟨8 * ((i 0).val / 1024) + 7, by rw [hN]; omega⟩
    intro a
    match a with
    | ⟨0, _⟩ =>
      show win1_5.index _ (0 : Fin 2) * 1024 ≤ (i 0).val ∧ (i 0).val < win1_5.index _ (0 : Fin 2) * 1024 + 1024
      rw [e0]; show (8 * ((i 0).val / 1024) + 7) / 8 * 1024 ≤ (i 0).val ∧ (i 0).val < (8 * ((i 0).val / 1024) + 7) / 8 * 1024 + 1024; omega
    | ⟨1, _⟩ =>
      show win1_5.index _ (1 : Fin 2) * 256 ≤ (i 1).val ∧ (i 1).val < win1_5.index _ (1 : Fin 2) * 256 + 256
      rw [e1]; omega

end Cert.KernelIdeal.Hand

end
-- ==== Proof.KI.Oblig1.lean ====
/-
  The attention kernel's body obligation: at every grid point the body, handed the invariant and the windows' current
  buffers, returns the invariant of the next point and each buffer at what the proof data say it holds. One case per
  control path of the body, selected by the closed forms of its two conditions.
-/
import proofs.«179567_j26920855011723_2_alg».proof.Proof.Gen.KernelIdeal.Launch
import proofs.«179567_j26920855011723_2_alg».proof.Proof.Gen.KernelIdeal.Skeleton
import proofs.«179567_j26920855011723_2_alg».proof.Proof.Gen.KernelIdeal.Points
import proofs.«179567_j26920855011723_2_alg».proof.Proof.KI.Frame1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point. The inputs' buffers hold their blocks; the closed forms say which case the point is in; the
    invariant hands the body the two accumulators (at anything at the very first point, at what the point before left
    afterwards) and takes them back at this point's contents; the output buffer is handed back untouched where the
    window is idle and at the stored quotient at a last column tile; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · have h1 : ¬t.val % 8 = 7 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold sout1_A_0 sout1_A_1; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA1_open (F := F) c) $$ HΦ
      icases HΦ' with ⟨Hr, HS0, HS1, Hg⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [Hr HS0 HS1 Hg]
      · isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨Hr, HS0, HS1, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [Hr HS0 HS1 Hg]
      · isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun hz => h0 (by rw [hz])
    by_cases h1 : t.val % 8 = 7
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0 sout1_C_1; (try dsimp only)
      rw [PhiS_castSucc V c t, PhiS_pos V c _ _ hz]
      iintro ⟨⟨Hr, HS0, HS1, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [Hr HS0 HS1 Hg]
      · isplitl [Hr]; · iexact Hr
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0 sout1_B_1; (try dsimp only)
      rw [PhiS_castSucc V c t, PhiS_pos V c _ _ hz]
      iintro ⟨⟨Hr, HS0, HS1, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [Hr HS0 HS1 Hg]
      · isplitl [Hr]; · iexact Hr
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After any point the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨Hr, HS0, HS1, Hg⟩
  iapply (PhiA1_close (F := F) c)
  isplitl [Hr]; · iexact Hr
  isplitl [HS0]; · iexists _; iexact HS0
  isplitl [HS1]; · iexists _; iexact HS1
  iexact Hg

theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Hand

end
-- ==== Proof.KI.Run.lean ====
/-
  The whole program as a run: two stretches of host operations and the two kernels' regions, in @main's order. The
  contents of the core's buffers are followed from the launch through each of the four items; at the end every
  unscoped buffer is read back, so both the frame (the argument arrays end as launched) and the value of the result
  array can be read off one run.
-/
import proofs.«179567_j26920855011723_2_alg».proof.Proof.Gen.KernelIdeal.Launch
import proofs.«179567_j26920855011723_2_alg».proof.Proof.Gen.KernelIdeal.Skeleton
import proofs.«179567_j26920855011723_2_alg».proof.Proof.Gen.KernelIdeal.Points
import proofs.«179567_j26920855011723_2_alg».proof.Proof.Gen.KernelIdeal.Regions
import proofs.«179567_j26920855011723_2_alg».proof.Proof.KI.Oblig0
import proofs.«179567_j26920855011723_2_alg».proof.Proof.KI.Oblig1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev E0 : Dev nD → Valuation τ sig (Elt F) := fun c b => (s₀ m ρ).mem ((c : Dev nD), b)
/-- After the first host stretch (the two attention vectors cut out of the parameter and laid as rows). -/
abbrev E1 : Dev nD → Valuation τ sig (Elt F) := fun c => StableHlo.after hostOps0 (E0 m ρ c)
abbrev Ein1 : (c : Dev nD) → (b : Ref sig .tc) → Buf (Elt F) ((c : Thread nD τ).loc b) := fun c b => E1 m ρ c b
/-- After the first kernel's region: its arrays at what the pipeline leaves, every other buffer as entered. -/
def E2 (c : Dev nD) : Valuation τ sig (Elt F) :=
  Pipeline.withArrays spec0 c (E1 m ρ c) fun w => (dat0 (Ein1 m ρ) c).arrAt w cfg0.N
theorem E2_arr (c : Dev nD) (w : Fin cfg0.W) :
    E2 m ρ c (Proc.devRef .tc (Pipeline.arrRef spec0 w)) = (dat0 (Ein1 m ρ) c).arrAt w cfg0.N := by
  unfold E2; exact Pipeline.withArrays_arr spec0 launch0.win.arr_inj c _ _ w
theorem E2_of_ne (c : Dev nD) (b : Ref sig .tc) (hb : ∀ w, Pipeline.arrRef spec0 w ≠ b) :
    E2 m ρ c (Proc.devRef .tc b) = E1 m ρ c (Proc.devRef .tc b) := by
  unfold E2; exact Pipeline.withArrays_of_ne spec0 c _ _ b hb
abbrev Ein2 : (c : Dev nD) → (b : Ref sig .tc) → Buf (Elt F) ((c : Thread nD τ).loc b) := fun c b => E2 m ρ c b
theorem hF0 (c : Dev nD) (w : Fin cfg0.W) : (dat0 (Ein1 m ρ) c).arrAt w cfg0.N = Ein2 m ρ c (Pipeline.arrRef spec0 w) :=
  (E2_arr m ρ c w).symm
theorem hrest0 (c : Dev nD) : ∀ b, b ∉ Finset.univ.image (Pipeline.arrRef spec0) → Ein2 m ρ c b = Ein1 m ρ c b :=
  fun b hb => E2_of_ne m ρ c b fun w e => hb (Finset.mem_image.mpr ⟨w, Finset.mem_univ _, e⟩)
/-- After the second host stretch (the row bounds and the transposed second attention term). -/
abbrev E3 : Dev nD → Valuation τ sig (Elt F) := fun c => StableHlo.after hostOps1 (E2 m ρ c)
abbrev Ein3 : (c : Dev nD) → (b : Ref sig .tc) → Buf (Elt F) ((c : Thread nD τ).loc b) := fun c b => E3 m ρ c b
/-- After the attention kernel's region. -/
def E4 (c : Dev nD) : Valuation τ sig (Elt F) :=
  Pipeline.withArrays spec1 c (E3 m ρ c) fun w => (dat1 (Ein3 m ρ) c).arrAt w cfg1.N
theorem E4_arr (c : Dev nD) (w : Fin cfg1.W) :
    E4 m ρ c (Proc.devRef .tc (Pipeline.arrRef spec1 w)) = (dat1 (Ein3 m ρ) c).arrAt w cfg1.N := by
  unfold E4; exact Pipeline.withArrays_arr spec1 launch1.win.arr_inj c _ _ w
theorem E4_of_ne (c : Dev nD) (b : Ref sig .tc) (hb : ∀ w, Pipeline.arrRef spec1 w ≠ b) :
    E4 m ρ c (Proc.devRef .tc b) = E3 m ρ c (Proc.devRef .tc b) := by
  unfold E4; exact Pipeline.withArrays_of_ne spec1 c _ _ b hb
abbrev Ein4 : (c : Dev nD) → (b : Ref sig .tc) → Buf (Elt F) ((c : Thread nD τ).loc b) := fun c b => E4 m ρ c b
theorem hF1 (c : Dev nD) (w : Fin cfg1.W) : (dat1 (Ein3 m ρ) c).arrAt w cfg1.N = Ein4 m ρ c (Pipeline.arrRef spec1 w) :=
  (E4_arr m ρ c w).symm
theorem hrest1 (c : Dev nD) : ∀ b, b ∉ Finset.univ.image (Pipeline.arrRef spec1) → Ein4 m ρ c b = Ein3 m ρ c b :=
  fun b hb => E4_of_ne m ρ c b fun w e => hb (Finset.mem_image.mpr ⟨w, Finset.mem_univ _, e⟩)

/-! ### The arguments end as launched: no host operation writes one, and a region reads one only through an input window -/

theorem E1_of (c : Dev nD) (r : Ref sig .tc) (h : r ∉ hostOps0_W) : E1 m ρ c r = E0 m ρ c r :=
  StableHlo.after_of_writes_sub hostOps0 _ hostOps0_writes h
theorem E3_of (c : Dev nD) (r : Ref sig .tc) (h : r ∉ hostOps1_W) : E3 m ρ c r = E2 m ρ c r :=
  StableHlo.after_of_writes_sub hostOps1 _ hostOps1_writes h

theorem E4_main_arg0 (c : Dev nD) : E4 m ρ c (Proc.devRef .tc main_arg0) = m ((c : Thread nD τ).loc main_arg0) :=
  calc E4 m ρ c (Proc.devRef .tc main_arg0)
    _ = E3 m ρ c (Proc.devRef .tc main_arg0) := E4_of_ne m ρ c main_arg0 (by decide)
    _ = E2 m ρ c (Proc.devRef .tc main_arg0) := E3_of m ρ c main_arg0 (by decide)
    _ = E1 m ρ c (Proc.devRef .tc main_arg0) := (E2_arr m ρ c 0).trans (((dat0 (Ein1 m ρ) c).arrAt_in 0 rfl _).trans (A_eq0 (Ein1 m ρ) c 0))
    _ = E0 m ρ c (Proc.devRef .tc main_arg0) := E1_of m ρ c main_arg0 (by decide)
    _ = m ((c : Thread nD τ).loc main_arg0) := rfl
theorem E4_main_arg1 (c : Dev nD) : E4 m ρ c (Proc.devRef .tc main_arg1) = m ((c : Thread nD τ).loc main_arg1) :=
  calc E4 m ρ c (Proc.devRef .tc main_arg1)
    _ = E3 m ρ c (Proc.devRef .tc main_arg1) := E4_of_ne m ρ c main_arg1 (by decide)
    _ = E2 m ρ c (Proc.devRef .tc main_arg1) := E3_of m ρ c main_arg1 (by decide)
    _ = E1 m ρ c (Proc.devRef .tc main_arg1) := (E2_arr m ρ c 1).trans (((dat0 (Ein1 m ρ) c).arrAt_in 1 rfl _).trans (A_eq0 (Ein1 m ρ) c 1))
    _ = E0 m ρ c (Proc.devRef .tc main_arg1) := E1_of m ρ c main_arg1 (by decide)
    _ = m ((c : Thread nD τ).loc main_arg1) := rfl
theorem E4_main_arg2 (c : Dev nD) : E4 m ρ c (Proc.devRef .tc main_arg2) = m ((c : Thread nD τ).loc main_arg2) :=
  calc E4 m ρ c (Proc.devRef .tc main_arg2)
    _ = E3 m ρ c (Proc.devRef .tc main_arg2) := E4_of_ne m ρ c main_arg2 (by decide)
    _ = E2 m ρ c (Proc.devRef .tc main_arg2) := E3_of m ρ c main_arg2 (by decide)
    _ = E1 m ρ c (Proc.devRef .tc main_arg2) := E2_of_ne m ρ c main_arg2 (by decide)
    _ = E0 m ρ c (Proc.devRef .tc main_arg2) := E1_of m ρ c main_arg2 (by decide)
    _ = m ((c : Thread nD τ).loc main_arg2) := rfl
theorem E4_main_arg3 (c : Dev nD) : E4 m ρ c (Proc.devRef .tc main_arg3) = m ((c : Thread nD τ).loc main_arg3) :=
  calc E4 m ρ c (Proc.devRef .tc main_arg3)
    _ = E3 m ρ c (Proc.devRef .tc main_arg3) := (E4_arr m ρ c 4).trans (((dat1 (Ein3 m ρ) c).arrAt_in 4 rfl _).trans (A_eq1 (Ein3 m ρ) c 4))
    _ = E2 m ρ c (Proc.devRef .tc main_arg3) := E3_of m ρ c main_arg3 (by decide)
    _ = E1 m ρ c (Proc.devRef .tc main_arg3) := E2_of_ne m ρ c main_arg3 (by decide)
    _ = E0 m ρ c (Proc.devRef .tc main_arg3) := E1_of m ρ c main_arg3 (by decide)
    _ = m ((c : Thread nD τ).loc main_arg3) := rfl

/-! ## The proof data family and the thread state -/

abbrev admH : (p : Fin 2) → (pcfgs (F := F) p).Adm := fun p => (cfgs p).toPCfg_adm
/-- Every pipeline's proof data, each at its region's entry contents. -/
def pdatsH : (p : Fin 2) → (c : Dev nD) → Dat τ (Elt F) Unit ℕ (UR sig nD τ) ℕ (Pipeline.pin (pcfgs (F := F)) admH p) c
  | ⟨0, _⟩ => fun c => dat0 (Ein1 m ρ) c
  | ⟨1, _⟩ => fun c => dat1 (Ein3 m ρ) c
abbrev 𝒱H : Variants := Variants.none
abbrev LH : GSem nD τ sig → Finset Unit := fun _ => ∅
abbrev lvH : GSem nD τ sig → Unit → ℕ := fun _ _ => 0
/-- What rides beside the buffers through every item: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev TnH (c : Dev nD) : sProp 𝕄 := iprop(StableHlo.held (c : Thread nD τ) (Pipeline.ucRefs τ sig) (E4 m ρ c) ∗ ∃ r, prngReg c r)

/-! ## The regions as segments -/

set_option backward.isDefEq.respectTransparency.types false in
/-- The first kernel's region: entered from every unscoped buffer at `E1`, left at `E2`. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Ein1 m ρ) c).loose
  hwaits := Pipeline.hwaits_of_owed_zero _ _ _ _ LH lvH 0 fun _ _ => rfl
  pre c := iprop(StableHlo.held (c : Thread nD τ) (Pipeline.ucRefs τ sig) (E1 m ρ c) ∗ RH c)
  post c := iprop(StableHlo.held (c : Thread nD τ) (Pipeline.ucRefs τ sig) (E2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Ein1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Ein1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Ein1 m ρ c) (Ein2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel's region: entered from every unscoped buffer at `E3`, left at `E4`. The generator register
    and the scoped rest go into the region's invariant at the first point; the invariant at the last point gives
    them back, the accumulators' contents forgotten. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Ein3 m ρ) c).loose
  hwaits := Pipeline.hwaits_of_owed_zero _ _ _ _ LH lvH 1 fun _ _ => rfl
  pre c := iprop(StableHlo.held (c : Thread nD τ) (Pipeline.ucRefs τ sig) (E3 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ein3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Ein3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hback : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (F := F) (Ein3 m ρ) c).trans hback
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Ein3 m ρ c) (Ein4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ 𝒱H LH lvH) :=
  [ .host (hsegH hostOps0 hostOps0_sub hostOps0_fresh (E0 m ρ)),
    .region (reg0 m ρ),
    .host (hsegH hostOps1 hostOps1_sub hostOps1_fresh (E2 m ρ)),
    .region (reg1 m ρ) ]
theorem main_runH (c : Dev nD) : main (F := F) c = Pipeline.Seg.run (segsH m ρ) := (main_chain c).trans (by chain_rfl)

set_option backward.isDefEq.respectTransparency.types false in
/-- THE RUN. From any memory with zero counters every weakly fair execution of @main terminates, nothing faulting,
    and in the final state every unscoped buffer holds the last boundary's contents `E4`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = E4 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ RH c)) (Tₙ := TnH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E4 m ρ c b)
    (hfin := fun c s' => by
      iintro ⟨⟨Hh, -⟩, HSI⟩
      unfold StableHlo.held
      imodintro
      iapply (pointsTo_read_all (Pipeline.ucRefs τ sig) (fun b => (((c : Thread nD τ)).1, b)) (E4 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_ucH main_arg0 (by decide))).trans (E4_main_arg0 m ρ c),
     (h c _ (mem_ucH main_arg1 (by decide))).trans (E4_main_arg1 m ρ c),
     (h c _ (mem_ucH main_arg2 (by decide))).trans (E4_main_arg2 m ρ c),
     (h c _ (mem_ucH main_arg3 (by decide))).trans (E4_main_arg3 m ρ c)⟩) (run_all m ρ)

end Cert.KernelIdeal.Hand

end
-- ==== Proof.HostReads.lean ====
/-
  The host stages around the two kernels, read entry by entry over the extended reals.

  Before the first kernel the 512 × 1 parameter is cut into its upper and lower 256 rows and each half is laid out as a
  row 1 × 256: read at column f these are the two attention vectors at f. Between the kernels the second attention
  column (8192 × 1) is laid out as a row 1 × 8192, its maximum over all entries is taken starting from −∞, and every
  row's bound is formed: the row's first attention term plus that maximum, clipped below at zero. The maximum of
  finitely many reals, started from −∞, is never +∞.
-/
import proofs.«179567_j26920855011723_2_alg».proof.Proof.Gen.KernelIdeal
import proofs.«179567_j26920855011723_2_alg».proof.Proof.Conv
import Idealize.ShloMosaic.Lib.ValueLayout
import Idealize.ShloMosaic.PureOps.Ideal.Laws

noncomputable section

namespace Cert.KernelIdeal.Reads

open Cert.KernelIdeal Cert.KernelIdeal.Gen Idealize.ShloMosaic Idealize.ShloMosaic.ValueIdx

/-- The upper 256 rows of the parameter, laid out as a row, read at column `f`: the first attention vector at `f`. -/
theorem att1_read (x2 : Vec Ideal S512x1 .f32) (hs : S512x1.Slices ![0, 0] S256x1) (ht : S256x1.Transposes [1, 0] S1x256)
    (f : Fin 256) :
    transpose S1x256 [1, 0] (extractStridedSlice S256x1 ![0, 0] x2 hs) ht (ix2 (0 : Fin 1) f) = Cert.GatSpec.att1Of x2 f :=
  (transpose_ix2_apply _ ht (0 : Fin 1) f).trans
    (slice2_axis0_apply 0 x2 hs f (0 : Fin 1) ⟨f.val, by omega⟩ (Nat.zero_add _).symm)

/-- The lower 256 rows of the parameter, laid out as a row, read at column `f`: the second attention vector at `f`. -/
theorem att2_read (x2 : Vec Ideal S512x1 .f32) (hs : S512x1.Slices ![256, 0] S256x1) (ht : S256x1.Transposes [1, 0] S1x256)
    (f : Fin 256) :
    transpose S1x256 [1, 0] (extractStridedSlice S256x1 ![256, 0] x2 hs) ht (ix2 (0 : Fin 1) f) = Cert.GatSpec.att2Of x2 f :=
  (transpose_ix2_apply _ ht (0 : Fin 1) f).trans
    (slice2_axis0_apply 256 x2 hs f (0 : Fin 1) ⟨256 + f.val, by omega⟩ rfl)

/-- A column of 8192 entries laid out as a row reads, at column `j`, the column's entry `j`. -/
theorem row_of_column_read (y : Vec Ideal S8192x1 .f32) (ht : S8192x1.Transposes [1, 0] S1x8192) (j : Fin 8192) :
    transpose S1x8192 [1, 0] y ht (ix2 (0 : Fin 1) j) = y (ix2 j (0 : Fin 1)) :=
  transpose_ix2_apply y ht (0 : Fin 1) j

/-- The bound of row `i`: the row's term plus the scalar common to all rows, clipped below at zero. -/
theorem bound_read (y1 : Vec Ideal S8192x1 .f32) (mxv : Vec Ideal S_ .f32)
    (hb : S_.BroadcastsInDim S8192x1 (![] : Fin 0 → Fin S8192x1.rank)) (i : Fin 8192) :
    maximumf (addf y1 (broadcastInDim S8192x1 ![] hb mxv))
        (broadcastInDim S8192x1 ![] hb (constant (F := Ideal) S_ .f32 0x00000000#32)) (ix2 i (0 : Fin 1))
      = Cert.GatSpec.bound (y1 (ix2 i (0 : Fin 1))) (mxv ix0) := by
  have e1 : broadcastInDim S8192x1 ![] hb mxv (ix2 i (0 : Fin 1)) = mxv ix0 :=
    broadcastInDim_apply _ hb mxv _ ix0 fun a => a.elim0
  have e2 : broadcastInDim S8192x1 ![] hb (constant (F := Ideal) S_ .f32 0x00000000#32) (ix2 i (0 : Fin 1)) = 0 :=
    (broadcastInDim_apply _ hb _ _ ix0 fun a => a.elim0).trans Ideal.ofBits_zero_f32
  refine (maximumf_apply _ _ _).trans ?_
  refine congrArg₂ max ?_ e2
  exact (addf_apply _ _ _).trans (congrArg (y1 (ix2 i (0 : Fin 1)) + ·) e1)

/-- A left fold of `max` over a list, from a start below `⊤` and through values below `⊤`, stays below `⊤`. -/
theorem foldl_max_lt_top {ι : Type} (l : List ι) (g : ι → EReal) (b : EReal) (hb : b < ⊤) (hg : ∀ n, g n < ⊤) :
    l.foldl (fun r n => max r (g n)) b < ⊤ := by
  induction l generalizing b with
  | nil => exact hb
  | cons n l ih => exact ih _ (max_lt hb (hg n))

/-- The word the maximum starts from denotes `−∞`. -/
theorem ofBits_neg_inf_f32 : Ideal.ofBits .f32 0xFF800000#32 = ⊥ := by simp [Ideal.ofBits, Ideal.ieee]

/-- The maximum over all entries of a column none of whose entries is `+∞`, started from `−∞`, is not `+∞`. -/
theorem reduce_max_ne_top_of_ne_top (y : Vec Ideal S8192x1 .f32) (h' : S8192x1.ReducesTo [0, 1] S_) (hu : 0 < S_.numel)
    (hy : ∀ i, y i ≠ ⊤) :
    Host.reduce FloatOps.maximumf y (constant (F := Ideal) S_ .f32 0xFF800000#32) h' hu ix0 ≠ ⊤ := by
  refine ne_of_lt ?_
  unfold Host.reduce
  refine foldl_max_lt_top _ (fun n => y (S8192x1.rowMajor.symm n)) _ ?_ fun n => lt_top_iff_ne_top.mpr (hy _)
  show Ideal.ofBits .f32 0xFF800000#32 < ⊤
  rw [ofBits_neg_inf_f32]
  exact bot_lt_top

/-- In particular when every entry is a real number. -/
theorem reduce_max_ne_top (y : Vec Ideal S8192x1 .f32) (h' : S8192x1.ReducesTo [0, 1] S_) (hu : 0 < S_.numel)
    (hy : ∀ i, ∃ r : ℝ, y i = (r : EReal)) :
    Host.reduce FloatOps.maximumf y (constant (F := Ideal) S_ .f32 0xFF800000#32) h' hu ix0 ≠ ⊤ :=
  reduce_max_ne_top_of_ne_top y h' hu fun i => by
    obtain ⟨r, hr⟩ := hy i
    rw [hr]
    exact EReal.coe_ne_top r

end Cert.KernelIdeal.Reads

end
-- ==== Proof.KI.HostGlue.lean ====
/-
  What the two host stages of the program leave, read entry by entry.

  The first stage cuts the 512 × 1 parameter into its upper and lower 256 rows and lays each as a row: read at column f
  these are the two attention vectors at f; it writes neither the feature matrix nor the projection. The second stage
  takes the maximum of the second attention column over all rows (started from −∞), adds it to each row's first
  attention term and clips below at zero (the row's bound), and lays the second attention column as a row. It leaves
  the first kernel's other results and the adjacency mask as they were.
-/
import proofs.«179567_j26920855011723_2_alg».proof.Proof.KI.Run
import proofs.«179567_j26920855011723_2_alg».proof.Proof.HostReads
import proofs.«179567_j26920855011723_2_alg».proof.Proof.Conv

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg) (c : Dev nD)

/-- The first host stage does not write the feature matrix. -/
theorem Ein1_arg0 : Ein1 m ρ c main_arg0 = m ((c : Thread nD τ).loc main_arg0) :=
  (E1_of m ρ c main_arg0 (by decide)).trans rfl

/-- The first host stage does not write the projection. -/
theorem Ein1_arg1 : Ein1 m ρ c main_arg1 = m ((c : Thread nD τ).loc main_arg1) :=
  (E1_of m ρ c main_arg1 (by decide)).trans rfl

/-- The first row the first host stage lays out is the first attention vector. -/
theorem Ein1_v2 (f : Fin 256) :
    Ein1 m ρ c main_v2 (ix2 (0 : Fin 1) f) = Cert.GatSpec.att1Of (m ((c : Thread nD τ).loc main_arg2)) f := by
  have e : Ein1 m ρ c main_v2
      = transpose S1x256 [1, 0] (extractStridedSlice S256x1 ![0, 0] (m ((c : Thread nD τ).loc main_arg2))
          slices_S512x1_S256x1_0_0) transposes_S256x1_S1x256_1_0 := by
    show StableHlo.after hostOps0 (E0 m ρ c) (Proc.devRef .tc main_v2) = _
    after_results
  exact (congrFun e _).trans (Reads.att1_read _ _ _ f)

/-- The second row the first host stage lays out is the second attention vector. -/
theorem Ein1_v3 (f : Fin 256) :
    Ein1 m ρ c main_v3 (ix2 (0 : Fin 1) f) = Cert.GatSpec.att2Of (m ((c : Thread nD τ).loc main_arg2)) f := by
  have e : Ein1 m ρ c main_v3
      = transpose S1x256 [1, 0] (extractStridedSlice S256x1 ![256, 0] (m ((c : Thread nD τ).loc main_arg2))
          slices_S512x1_S256x1_256_0) transposes_S256x1_S1x256_1_0 := by
    show StableHlo.after hostOps0 (E0 m ρ c) (Proc.devRef .tc main_v3) = _
    after_results
  exact (congrFun e _).trans (Reads.att2_read _ _ _ f)

/-- The scalar the second host stage's maximum leaves: the largest entry of the second attention column, from −∞. -/
def mxOf : EReal :=
  Host.reduce (FloatOps.maximumf (F := Ideal) (φ := .f32)) (Ein2 m ρ c main_v4_2 : Vec Ideal S8192x1 .f32)
    (constant (F := Ideal) S_ .f32 0xFF800000#32) reducesTo_S8192x1_S_d0_1 h_S_ ix0

/-- When every entry of the second attention column is a real, that maximum is not +∞. -/
theorem mxOf_ne_top (hy : ∀ i, ∃ r : ℝ, Ein2 m ρ c main_v4_2 i = (r : EReal)) : mxOf m ρ c ≠ ⊤ :=
  Reads.reduce_max_ne_top (Ein2 m ρ c main_v4_2) reducesTo_S8192x1_S_d0_1 h_S_ hy

/-- The bound of row `i`: the row's first attention term plus the maximum, clipped below at zero. -/
theorem Ein3_v9 (i : Fin 8192) :
    Ein3 m ρ c main_v9 (ix2 i (0 : Fin 1))
      = Cert.GatSpec.bound (Ein2 m ρ c main_v4_1 (ix2 i (0 : Fin 1))) (mxOf m ρ c) := by
  show StableHlo.after hostOps1 (E2 m ρ c) (Proc.devRef .tc main_v9) (ix2 i (0 : Fin 1)) = _
  after_results
  exact Reads.bound_read (E2 m ρ c (Proc.devRef .tc main_v4_1)) _ bcast_S_S8192x1 i

/-- The second attention column laid as a row reads, at column `j`, the column's entry `j`. -/
theorem Ein3_v10 (j : Fin 8192) :
    Ein3 m ρ c main_v10 (ix2 (0 : Fin 1) j) = Ein2 m ρ c main_v4_2 (ix2 j (0 : Fin 1)) := by
  show StableHlo.after hostOps1 (E2 m ρ c) (Proc.devRef .tc main_v10) (ix2 (0 : Fin 1) j) = _
  after_results
  exact Reads.row_of_column_read (E2 m ρ c (Proc.devRef .tc main_v4_2)) transposes_S8192x1_S1x8192_1_0 j

/-- The second host stage does not write the projected features. -/
theorem Ein3_v4_0 : Ein3 m ρ c main_v4_0 = Ein2 m ρ c main_v4_0 := E3_of m ρ c main_v4_0 (by decide)

/-- The second host stage does not write the first attention column. -/
theorem Ein3_v4_1 : Ein3 m ρ c main_v4_1 = Ein2 m ρ c main_v4_1 := E3_of m ρ c main_v4_1 (by decide)

/-- Neither host stage nor the first kernel writes the adjacency mask. -/
theorem Ein3_arg3 : Ein3 m ρ c main_arg3 = m ((c : Thread nD τ).loc main_arg3) :=
  calc E3 m ρ c (Proc.devRef .tc main_arg3)
    _ = E2 m ρ c (Proc.devRef .tc main_arg3) := E3_of m ρ c main_arg3 (by decide)
    _ = E1 m ρ c (Proc.devRef .tc main_arg3) := E2_of_ne m ρ c main_arg3 (by decide)
    _ = E0 m ρ c (Proc.devRef .tc main_arg3) := E1_of m ρ c main_arg3 (by decide)
    _ = m ((c : Thread nD τ).loc main_arg3) := rfl

end Cert.KernelIdeal.Hand

end
-- ==== Proof.SpecLaw.lean ====
/-
  Laws of the layer's mathematics (Spec), proved over the extended reals with every input a real value.

  First, real-valuedness: a finite sum of products of reals is a real, so the projected features and their products with
  an attention vector are reals; the rectifier's slope is a finite binary value, so every masked score is a real; and a
  row bound max (u + mx) 0 is a real whenever mx is not +∞ (if mx = −∞ the sum is −∞ and the maximum is 0).

  Second, the two forms of the softmax-weighted average agree. The eight tiles of 1024 columns partition the 8192
  columns (tile k j = 1024·k + j for k < 8), so the accumulated numerator and denominator are the sums over all columns.
  With p j = exp (e j − b) and q j = exp (e j − m) one has p j = q j · exp (m − b); the positive factor exp (m − b) cancels
  between numerator and denominator, and the denominators are positive reals, so dividing by them is multiplying by
  their real inverses:   (∑ p j · h j) / (∑ p j) = ∑ (q j / ∑ q) · h j.   The maximum with 0 is taken on both sides.
-/
import proofs.«179567_j26920855011723_2_alg».proof.Proof.Spec

noncomputable section

namespace Cert.GatSpec

open Idealize.ShloMosaic

/-- The coercion of the reals into the extended reals commutes with finite sums. -/
theorem coe_finset_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real values is a real value. -/
theorem sum_real {ι : Type*} [Fintype ι] (g : ι → EReal) (h : ∀ i, ∃ r : ℝ, g i = (r : EReal)) :
    ∃ r : ℝ, ∑ i, g i = (r : EReal) := by
  choose r hr using h
  exact ⟨∑ i, r i, by rw [coe_finset_sum]; exact Finset.sum_congr rfl (fun i _ => hr i)⟩

theorem proj_real (X : Fin 8192 → Fin 512 → EReal) (W : Fin 512 → Fin 256 → EReal)
    (hX : ∀ i k, ∃ r : ℝ, X i k = (r : EReal)) (hW : ∀ k f, ∃ r : ℝ, W k f = (r : EReal)) (i : Fin 8192) (f : Fin 256) :
    ∃ r : ℝ, proj X W i f = (r : EReal) := by
  refine sum_real _ (fun k => ?_)
  obtain ⟨x, hx⟩ := hX i k
  obtain ⟨w, hw⟩ := hW k f
  exact ⟨x * w, by rw [hx, hw, EReal.coe_mul]⟩

theorem att_real (H : Fin 8192 → Fin 256 → EReal) (a : Fin 256 → EReal)
    (hH : ∀ i f, ∃ r : ℝ, H i f = (r : EReal)) (ha : ∀ f, ∃ r : ℝ, a f = (r : EReal)) (i : Fin 8192) :
    ∃ r : ℝ, att H a i = (r : EReal) := by
  refine sum_real _ (fun f => ?_)
  obtain ⟨x, hx⟩ := hH i f
  obtain ⟨w, hw⟩ := ha f
  exact ⟨x * w, by rw [hx, hw, EReal.coe_mul]⟩

/-- The slope is a finite binary value, hence a real. -/
theorem slope_real : ∃ r : ℝ, slope = (r : EReal) := by
  have h1 : slope ≠ ⊤ := by simp [slope, Ideal.ofBits, Ideal.ieee, -EReal.coe_mul]
  have h2 : slope ≠ ⊥ := by simp [slope, Ideal.ofBits, Ideal.ieee, -EReal.coe_mul]
  exact ⟨slope.toReal, (EReal.coe_toReal h1 h2).symm⟩

theorem leaky_real (s : ℝ) : ∃ r : ℝ, leaky (s : EReal) = (r : EReal) := by
  obtain ⟨c, hc⟩ := slope_real
  unfold leaky
  split_ifs
  · exact ⟨s, rfl⟩
  · exact ⟨c * s, by rw [hc, EReal.coe_mul]⟩

theorem score_real (u v : ℝ) (on : Bool) : ∃ r : ℝ, score (u : EReal) (v : EReal) on = (r : EReal) := by
  unfold score
  cases on
  · exact ⟨0, by simp⟩
  · obtain ⟨r, hr⟩ := leaky_real (u + v)
    exact ⟨r, by simpa [EReal.coe_add] using hr⟩

theorem scores_real (X : Fin 8192 → Fin 512 → EReal) (W : Fin 512 → Fin 256 → EReal) (a₁ a₂ : Fin 256 → EReal)
    (on : Fin 8192 → Fin 8192 → Bool)
    (hX : ∀ i k, ∃ r : ℝ, X i k = (r : EReal)) (hW : ∀ k f, ∃ r : ℝ, W k f = (r : EReal))
    (h₁ : ∀ f, ∃ r : ℝ, a₁ f = (r : EReal)) (h₂ : ∀ f, ∃ r : ℝ, a₂ f = (r : EReal)) (i j : Fin 8192) :
    ∃ r : ℝ, scores X W a₁ a₂ on i j = (r : EReal) := by
  obtain ⟨u, hu⟩ := att_real (proj X W) a₁ (proj_real X W hX hW) h₁ i
  obtain ⟨v, hv⟩ := att_real (proj X W) a₂ (proj_real X W hX hW) h₂ j
  unfold scores
  rw [hu, hv]
  exact score_real u v (on i j)

theorem bound_real (u : ℝ) (mx : EReal) (hmx : mx ≠ ⊤) : ∃ r : ℝ, bound (u : EReal) mx = (r : EReal) := by
  unfold bound
  induction mx using EReal.rec with
  | bot => exact ⟨0, by simp⟩
  | coe m =>
    refine ⟨max (u + m) 0, ?_⟩
    rw [← EReal.coe_add]
    rcases le_total (u + m) 0 with h | h
    · rw [max_eq_right h, max_eq_right (by exact_mod_cast h)]; rfl
    · rw [max_eq_left h, max_eq_left (by exact_mod_cast h)]
  | top => exact absurd rfl hmx

/-- The eight tiles of 1024 columns partition the 8192 columns: summing tile by tile is summing over all columns. -/
theorem sum_tiles {M : Type*} [AddCommMonoid M] (g : Fin 8192 → M) :
    ∑ t ∈ Finset.range 8, ∑ j : Fin 1024, g (tile t j) = ∑ j : Fin 8192, g j := by
  rw [← Fin.sum_univ_eq_sum_range (fun t => ∑ j : Fin 1024, g (tile t j)) 8]
  rw [← Fintype.sum_prod_type' (fun (k : Fin 8) (j : Fin 1024) => g (tile k.val j))]
  refine Fintype.sum_equiv (finProdFinEquiv (m := 8) (n := 1024)) _ _ ?_
  rintro ⟨k, j⟩
  congr 1
  apply Fin.ext
  simp only [tile, finProdFinEquiv, Equiv.coe_fn_mk]
  omega

/-- The denominator after `k` tiles is the sum over the first `k` tiles. -/
theorem denomAcc_eq_range (p : Fin 8192 → EReal) (k : ℕ) :
    denomAcc p k = ∑ t ∈ Finset.range k, ∑ j : Fin 1024, p (tile t j) := by
  induction k with
  | zero => simp [denomAcc]
  | succ k ih => rw [denomAcc, ih, Finset.sum_range_succ]

/-- The numerator after `k` tiles is the sum over the first `k` tiles. -/
theorem numerAcc_eq_range (p h : Fin 8192 → EReal) (k : ℕ) :
    numerAcc p h k = ∑ t ∈ Finset.range k, ∑ j : Fin 1024, p (tile t j) * h (tile t j) := by
  induction k with
  | zero => simp [numerAcc]
  | succ k ih => rw [numerAcc, ih, Finset.sum_range_succ]

/-- After all eight tiles the denominator is the sum of the weights over all columns. -/
theorem denomAcc_eight (p : Fin 8192 → EReal) : denomAcc p 8 = ∑ j : Fin 8192, p j :=
  (denomAcc_eq_range p 8).trans (sum_tiles p)

/-- After all eight tiles the numerator is the weighted sum over all columns. -/
theorem numerAcc_eight (p h : Fin 8192 → EReal) : numerAcc p h 8 = ∑ j : Fin 8192, p j * h j :=
  (numerAcc_eq_range p h 8).trans (sum_tiles (fun j => p j * h j))

/-- The cancellation over the reals: shifting every score by `b` instead of `m` multiplies every weight by the same
    positive factor `exp (m - b)`, which cancels between the numerator and the denominator. -/
theorem softmax_shift (e h : Fin 8192 → ℝ) (b m : ℝ) :
    (∑ j, Real.exp (e j - b) * h j) * (1 / ∑ j, Real.exp (e j - b))
      = ∑ j, Real.exp (e j - m) * (1 / ∑ j', Real.exp (e j' - m)) * h j := by
  have hc : ∀ j, Real.exp (e j - b) = Real.exp (e j - m) * Real.exp (m - b) := fun j => by
    rw [← Real.exp_add]; congr 1; ring
  have hD : 0 < ∑ j, Real.exp (e j - m) :=
    Finset.sum_pos (fun j _ => Real.exp_pos _) ⟨⟨0, by norm_num⟩, Finset.mem_univ _⟩
  have hc0 : 0 < Real.exp (m - b) := Real.exp_pos _
  have hN : ∑ j, Real.exp (e j - b) * h j = Real.exp (m - b) * ∑ j, Real.exp (e j - m) * h j := by
    rw [Finset.mul_sum]; exact Finset.sum_congr rfl (fun j _ => by rw [hc]; ring)
  have hDb : ∑ j, Real.exp (e j - b) = Real.exp (m - b) * ∑ j, Real.exp (e j - m) := by
    rw [Finset.mul_sum]; exact Finset.sum_congr rfl (fun j _ => by rw [hc]; ring)
  have hR : ∑ j, Real.exp (e j - m) * (1 / ∑ j', Real.exp (e j' - m)) * h j
      = (1 / ∑ j', Real.exp (e j' - m)) * ∑ j, Real.exp (e j - m) * h j := by
    rw [Finset.mul_sum]; exact Finset.sum_congr rfl (fun j _ => by ring)
  rw [hN, hDb, hR]
  field_simp

/-- A quotient of two real sums with positive denominator, computed in the extended reals, is the real quotient. -/
theorem div_sums (p h : Fin 8192 → ℝ) (hp : 0 < ∑ j, p j) :
    Ideal.div (∑ j, ((p j : ℝ) : EReal) * ((h j : ℝ) : EReal)) (∑ j, ((p j : ℝ) : EReal))
      = (((∑ j, p j * h j) * (1 / ∑ j, p j) : ℝ) : EReal) := by
  have h1 : (∑ j, ((p j : ℝ) : EReal) * ((h j : ℝ) : EReal)) = ((∑ j, p j * h j : ℝ) : EReal) := by
    rw [coe_finset_sum]; exact Finset.sum_congr rfl (fun j _ => (EReal.coe_mul _ _).symm)
  have h2 : (∑ j, ((p j : ℝ) : EReal)) = ((∑ j, p j : ℝ) : EReal) := (coe_finset_sum _ _).symm
  rw [h1, h2, Ideal.div_coe hp.ne', ← EReal.coe_mul]

/-- A sum of normalized real weights times real features, computed in the extended reals, is the real sum. -/
theorem sum_divs (q h : Fin 8192 → ℝ) (hq : 0 < ∑ j, q j) :
    ∑ j, Ideal.div ((q j : ℝ) : EReal) (0 + ∑ j', ((q j' : ℝ) : EReal)) * ((h j : ℝ) : EReal)
      = ((∑ j, q j * (1 / ∑ j', q j') * h j : ℝ) : EReal) := by
  have h2 : (∑ j, ((q j : ℝ) : EReal)) = ((∑ j, q j : ℝ) : EReal) := (coe_finset_sum _ _).symm
  rw [coe_finset_sum, zero_add, h2]
  refine Finset.sum_congr rfl (fun j _ => ?_)
  rw [Ideal.div_coe hq.ne', ← EReal.coe_mul, ← EReal.coe_mul]

theorem tiledOut_eq_normalizedOut (E : Fin 8192 → Fin 8192 → ℝ) (H : Fin 8192 → Fin 256 → ℝ) (b M : Fin 8192 → ℝ)
    (i : Fin 8192) (f : Fin 256) :
    tiledOut (fun i j => ((E i j : ℝ) : EReal)) (fun j f => ((H j f : ℝ) : EReal)) (fun i => ((b i : ℝ) : EReal)) i f
      = normalizedOut (fun i j => ((E i j : ℝ) : EReal)) (fun j f => ((H j f : ℝ) : EReal))
          (fun i => ((M i : ℝ) : EReal)) i f := by
  have hexp : ∀ x c : ℝ, Ideal.exp ((x : EReal) - (c : EReal)) = ((Real.exp (x - c) : ℝ) : EReal) := fun x c => by
    rw [← EReal.coe_sub]; rfl
  have hpos : ∀ c : ℝ, 0 < ∑ j : Fin 8192, Real.exp (E i j - c) := fun c =>
    Finset.sum_pos (fun j _ => Real.exp_pos _) ⟨⟨0, by norm_num⟩, Finset.mem_univ _⟩
  simp only [tiledOut, normalizedOut, numerAcc_eight, denomAcc_eight, hexp]
  rw [div_sums _ _ (hpos (b i)), sum_divs _ _ (hpos (M i))]
  exact congrArg (fun r : ℝ => max (r : EReal) 0) (softmax_shift (fun j => E i j) (fun j => H j f) (b i) (M i))

theorem tiledLayer_eq_normalizedLayer (X : Fin 8192 → Fin 512 → EReal) (W : Fin 512 → Fin 256 → EReal)
    (a₁ a₂ : Fin 256 → EReal) (on : Fin 8192 → Fin 8192 → Bool) (mx : EReal) (M : Fin 8192 → EReal)
    (hX : ∀ i k, ∃ r : ℝ, X i k = (r : EReal)) (hW : ∀ k f, ∃ r : ℝ, W k f = (r : EReal))
    (h₁ : ∀ f, ∃ r : ℝ, a₁ f = (r : EReal)) (h₂ : ∀ f, ∃ r : ℝ, a₂ f = (r : EReal))
    (hmx : mx ≠ ⊤) (hM : ∀ i, ∃ r : ℝ, M i = (r : EReal)) (i : Fin 8192) (f : Fin 256) :
    tiledLayer X W a₁ a₂ on mx i f = normalizedLayer X W a₁ a₂ on M i f := by
  choose E hE using scores_real X W a₁ a₂ on hX hW h₁ h₂
  choose Hr hH using proj_real X W hX hW
  have hb : ∀ i', ∃ r : ℝ, bound (att (proj X W) a₁ i') mx = (r : EReal) := fun i' => by
    obtain ⟨u, hu⟩ := att_real (proj X W) a₁ (proj_real X W hX hW) h₁ i'
    rw [hu]; exact bound_real u mx hmx
  choose br hbr using hb
  choose Mr hMr using hM
  have e1 : scores X W a₁ a₂ on = fun i j => ((E i j : ℝ) : EReal) := funext fun i => funext fun j => hE i j
  have e2 : proj X W = fun j f => ((Hr j f : ℝ) : EReal) := funext fun j => funext fun f => hH j f
  have e3 : (fun i => bound (att (proj X W) a₁ i) mx) = fun i => ((br i : ℝ) : EReal) := funext hbr
  have e4 : M = fun i => ((Mr i : ℝ) : EReal) := funext hMr
  unfold tiledLayer normalizedLayer
  rw [e3, e1, e2, e4]
  exact tiledOut_eq_normalizedOut E Hr br Mr i f

end Cert.GatSpec

end
-- ==== Proof.KI.KernelValue.lean ====
/-
  The idealized kernel program's result array as one function of its argument arrays: the layer in divide-once form.
  The first kernel leaves the projected features and the two attention terms; the host stretch between the kernels
  forms the row bounds from the largest second attention term and lays that term out as a row; the attention kernel
  then leaves, at every matrix row, the divide-once form over those arrays, which are the specification's own
  quantities of the arguments.
-/
import proofs.«179567_j26920855011723_2_alg».proof.Proof.KI.Value0
import proofs.«179567_j26920855011723_2_alg».proof.Proof.KI.Value1
import proofs.«179567_j26920855011723_2_alg».proof.Proof.KI.Final1
import proofs.«179567_j26920855011723_2_alg».proof.Proof.KI.HostGlue
import proofs.«179567_j26920855011723_2_alg».proof.Proof.SpecLaw

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.GatSpec

section
variable (m : (ℓ : Loc nD τ sig) → Buf (Elt Ideal) ℓ) (ρ : Dev nD → PrngReg) (c : Dev nD)

/-- The layer's inputs, read off the argument arrays. -/
abbrev inX : Fin 8192 → Fin 512 → EReal := featOf (m ((c : Thread nD τ).loc main_arg0))
abbrev inW : Fin 512 → Fin 256 → EReal := weightOf (m ((c : Thread nD τ).loc main_arg1))
abbrev inA1 : Fin 256 → EReal := att1Of (m ((c : Thread nD τ).loc main_arg2))
abbrev inA2 : Fin 256 → EReal := att2Of (m ((c : Thread nD τ).loc main_arg2))
abbrev inOn : Fin 8192 → Fin 8192 → Bool := maskOf (m ((c : Thread nD τ).loc main_arg3))

/-! ## What the first kernel's region leaves -/

theorem E2_v4_0 : Ein2 m ρ c main_v4_0 = fun idx : S8192x256.Idx => proj (inX m c) (inW m c) (idx 0) (idx 1) := by
  have h := (E2_arr m ρ c 4).trans (final0_4 (Ein1 m ρ) c)
  rw [Ein1_arg0 m ρ c, Ein1_arg1 m ρ c] at h
  exact h

theorem E2_v4_1 : Ein2 m ρ c main_v4_1 = fun idx : S8192x1.Idx => att (proj (inX m c) (inW m c)) (inA1 m c) (idx 0) := by
  have h := (E2_arr m ρ c 5).trans (final0_5 (Ein1 m ρ) c)
  rw [Ein1_arg0 m ρ c, Ein1_arg1 m ρ c, show (fun f => Ein1 m ρ c main_v2 (ix2 (0 : Fin 1) f)) = inA1 m c from funext fun f => Ein1_v2 m ρ c f] at h
  exact h

theorem E2_v4_2 : Ein2 m ρ c main_v4_2 = fun idx : S8192x1.Idx => att (proj (inX m c) (inW m c)) (inA2 m c) (idx 0) := by
  have h := (E2_arr m ρ c 6).trans (final0_6 (Ein1 m ρ) c)
  rw [Ein1_arg0 m ρ c, Ein1_arg1 m ρ c, show (fun f => Ein1 m ρ c main_v3 (ix2 (0 : Fin 1) f)) = inA2 m c from funext fun f => Ein1_v3 m ρ c f] at h
  exact h

/-! ## The attention kernel's entry arrays are the specification's quantities -/

theorem Hf_eq : Hf (Ein3 m ρ) c = proj (inX m c) (inW m c) := by
  funext j f
  unfold Hf
  rw [Ein3_v4_0 m ρ c]
  exact congrFun (E2_v4_0 m ρ c) (ix2 j f)

theorem u1_eq (i : Fin 8192) : u1 (Ein3 m ρ) c i = att (proj (inX m c) (inW m c)) (inA1 m c) i := by
  unfold u1
  rw [Ein3_v4_1 m ρ c]
  exact congrFun (E2_v4_1 m ρ c) (ix2 i (0 : Fin 1))

theorem u2_eq (j : Fin 8192) : u2 (Ein3 m ρ) c j = att (proj (inX m c) (inW m c)) (inA2 m c) j := by
  unfold u2
  rw [Ein3_v10 m ρ c j]
  exact congrFun (E2_v4_2 m ρ c) (ix2 j (0 : Fin 1))

theorem bnd_eq : bnd (Ein3 m ρ) c = fun i => bound (att (proj (inX m c) (inW m c)) (inA1 m c) i) (mxOf m ρ c) := by
  funext i
  unfold bnd
  rw [Ein3_v9 m ρ c i]
  exact congrArg (fun u => bound u (mxOf m ρ c)) (congrFun (E2_v4_1 m ρ c) (ix2 i (0 : Fin 1)))

theorem Esc_eq : Esc (Ein3 m ρ) c = scores (inX m c) (inW m c) (inA1 m c) (inA2 m c) (inOn m c) := by
  funext i j
  unfold Esc scores
  rw [u1_eq m ρ c i, u2_eq m ρ c j, Ein3_arg3 m ρ c]

/-! ## The result array -/

/-- The result array at the end of the run. -/
theorem result_value : E4 m ρ c (Proc.devRef .tc main_v11)
    = fun idx : S8192x256.Idx => tiledLayer (inX m c) (inW m c) (inA1 m c) (inA2 m c) (inOn m c) (mxOf m ρ c) (idx 0) (idx 1) := by
  refine (E4_arr m ρ c 5).trans ?_
  refine (final1_5_of (Ein3 m ρ) c (tiledOut (Esc (Ein3 m ρ) c) (Hf (Ein3 m ρ) c) (bnd (Ein3 m ρ) c))
    (fun t h7 r f => out_at (Ein3 m ρ) c t h7 r f)).trans ?_
  rw [Esc_eq m ρ c, Hf_eq m ρ c, bnd_eq m ρ c]
  rfl

/-- With real inputs the largest second attention term is not +∞. -/
theorem mx_ne_top (h0 : ∀ j, ∃ r : ℝ, (m ((c : Thread nD τ).loc main_arg0)) j = (r : EReal)) (h1 : ∀ j, ∃ r : ℝ, (m ((c : Thread nD τ).loc main_arg1)) j = (r : EReal))
    (h2 : ∀ j, ∃ r : ℝ, (m ((c : Thread nD τ).loc main_arg2)) j = (r : EReal)) : mxOf m ρ c ≠ ⊤ := by
  refine mxOf_ne_top m ρ c fun i => ?_
  rw [E2_v4_2 m ρ c]
  exact att_real _ _ (fun i f => proj_real _ _ (fun i k => h0 _) (fun k f => h1 _) i f) (fun f => h2 _) _

end

end Cert.KernelIdeal.Hand

end
-- ==== Proof.RefValue.lean ====
/-
  The reference program of the dense graph-attention layer, read into the layer's mathematics.

  The program projects the features (H = X·W), takes the two attention products ⟨H i, a₁⟩ and ⟨H j, a₂⟩ (the attention
  parameter's upper and lower 256 rows), adds them over all pairs (i, j), applies the leaky rectifier, puts zero off the
  adjacency mask, subtracts from every row its maximum (a fold of max from −∞ over the row's 8192 masked scores, then a
  maximum with −∞ which changes nothing), exponentiates, divides every weight by its row sum (a sum started at zero), and
  averages the rows of H with these weights; the result is clipped below at zero.

  Each stage is read here at an index given by its coordinates, and the last stage is the normalize-then-sum form of the
  layer with the row maximum as the row constant. That row constant is a real whenever the masked scores are, since a
  maximum from −∞ over a nonempty family of reals is one of them.
-/
import proofs.«179567_j26920855011723_2_alg».proof.Proof.Gen.ReferenceIdeal.Read
import proofs.«179567_j26920855011723_2_alg».proof.Proof.Conv

noncomputable section

namespace Cert.ReferenceIdeal.RefValue

open Cert.ReferenceIdeal Cert.ReferenceIdeal.Gen Cert.ReferenceIdeal.Read Cert.GatSpec
open Idealize.ShloMosaic Idealize.ShloMosaic.ValueIdx

/-! ## The projection and the two attention products -/

/-- The projected features at (p, f): row p of X against column f of W. -/
theorem proj_at (x0 : Vec Ideal S8192x512 .f32) (x1 : Vec Ideal S512x256 .f32) (p : Fin 8192) (f : Fin 256) :
    val_main_v0 (F := Ideal) x0 x1 (ix2 p f) = proj (featOf x0) (weightOf x1) p f := by
  rw [val_main_v0_apply]
  refine Finset.sum_congr rfl fun k _ => ?_
  have el : lidx_main_v0 (ix2 p f) k = ix2 p k :=
    funext fun a => Fin.ext (by match a with | ⟨0, _⟩ => rfl | ⟨1, _⟩ => rfl)
  have er : ridx_main_v0 (ix2 p f) k = ix2 k f :=
    funext fun a => Fin.ext (by match a with | ⟨0, _⟩ => rfl | ⟨1, _⟩ => rfl)
  rw [el, er]
  rfl

/-- The first attention product at row p: the projected row against the parameter's rows 0 … 255. -/
theorem att1_at (x0 : Vec Ideal S8192x512 .f32) (x1 : Vec Ideal S512x256 .f32) (x2 : Vec Ideal S512x1 .f32)
    (p : Fin 8192) (z : Fin 1) :
    val_main_v2 (F := Ideal) x0 x1 x2 (ix2 p z) = att (proj (featOf x0) (weightOf x1)) (att1Of x2) p := by
  rw [val_main_v2_apply]
  refine Finset.sum_congr rfl fun k _ => ?_
  have el : lidx_main_v2 (ix2 p z) k = ix2 p k :=
    funext fun a => Fin.ext (by match a with | ⟨0, _⟩ => rfl | ⟨1, _⟩ => rfl)
  have er : idx_main_v1 (ridx_main_v2 (ix2 p z) k) = ix2 (⟨k.val, by omega⟩ : Fin 512) (0 : Fin 1) :=
    funext fun a => Fin.ext (by
      match a with
      | ⟨0, _⟩ => rfl
      | ⟨1, _⟩ => show z.val = 0; omega)
  rw [el, proj_at, val_main_v1_apply, er]
  rfl

/-- The second attention product at row p: the projected row against the parameter's rows 256 … 511. -/
theorem att2_at (x0 : Vec Ideal S8192x512 .f32) (x1 : Vec Ideal S512x256 .f32) (x2 : Vec Ideal S512x1 .f32)
    (p : Fin 8192) (z : Fin 1) :
    val_main_v4 (F := Ideal) x0 x1 x2 (ix2 p z) = att (proj (featOf x0) (weightOf x1)) (att2Of x2) p := by
  rw [val_main_v4_apply]
  refine Finset.sum_congr rfl fun k _ => ?_
  have el : lidx_main_v4 (ix2 p z) k = ix2 p k :=
    funext fun a => Fin.ext (by match a with | ⟨0, _⟩ => rfl | ⟨1, _⟩ => rfl)
  have er : idx_main_v3 (ridx_main_v4 (ix2 p z) k) = ix2 (⟨256 + k.val, by omega⟩ : Fin 512) (0 : Fin 1) :=
    funext fun a => Fin.ext (by
      match a with
      | ⟨0, _⟩ => rfl
      | ⟨1, _⟩ => show z.val = 0; omega)
  rw [el, proj_at, val_main_v3_apply, er]
  rfl

/-- The raw score of the pair (i, j): the first product at i plus the second at j. -/
theorem raw_at (x0 : Vec Ideal S8192x512 .f32) (x1 : Vec Ideal S512x256 .f32) (x2 : Vec Ideal S512x1 .f32)
    (i j : Fin 8192) :
    val_main_v8 (F := Ideal) x0 x1 x2 (ix2 i j)
      = att (proj (featOf x0) (weightOf x1)) (att1Of x2) i + att (proj (featOf x0) (weightOf x1)) (att2Of x2) j := by
  have e6 : idx_main_v6 (ix2 i j) = ix2 i (0 : Fin 1) :=
    funext fun a => Fin.ext (by match a with | ⟨0, _⟩ => rfl | ⟨1, _⟩ => rfl)
  have e7 : idx_main_v5 (idx_main_v7 (ix2 i j)) = ix2 j (0 : Fin 1) :=
    funext fun a => Fin.ext (by match a with | ⟨0, _⟩ => rfl | ⟨1, _⟩ => rfl)
  rw [val_main_v8_apply, val_main_v6_apply, val_main_v7_apply, val_main_v5_apply, e6, e7, att1_at, att2_at]
  rfl

/-! ## The masked score -/

/-- A select on the bit of a decided proposition is the choice by that proposition. -/
theorem select_ofBool_decide {α : Type} (P : Prop) [Decidable P] (a b : α) :
    Scalar.select (BitVec.ofBool (decide P)) a b = if P then a else b := by
  unfold Scalar.select
  by_cases h : P
  · rw [if_pos h, decide_eq_true h]; rfl
  · rw [if_neg h, decide_eq_false h]; exact if_neg (by decide)

/-- A select on a one-bit word is the choice by the Boolean "the word is one". -/
theorem select_decide {α : Type} (c : BitVec 1) (a b : α) :
    Scalar.select c a b = if decide (c = 1#1) = true then a else b := by
  unfold Scalar.select
  by_cases h : c = 1#1
  · exact (if_pos h).trans (if_pos (decide_eq_true h)).symm
  · exact (if_neg h).trans (if_neg (by rw [decide_eq_false h]; decide)).symm

/-- The program's rectifier: "greater than zero" selects the sum itself, otherwise the slope times the sum. -/
theorem leaky_at (s : Ideal .f32) :
    Scalar.select (FloatOps.cmpf .ogt s (FloatOps.ofBits (F := Ideal) .f32 0x00000000#32)) s
        (FloatOps.mulf (FloatOps.ofBits (F := Ideal) .f32 0x3E4CCCCD#32) s) = leaky s := by
  rw [Ideal.cmpf_def, Ideal.ofBits_def, Ideal.ofBits_def, Ideal.ofBits_zero_f32, Ideal.mulf_def]
  exact select_ofBool_decide (0 < s) s _

/-- The masked score of the pair (i, j) as the program computes it. -/
theorem score_at (x0 : Vec Ideal S8192x512 .f32) (x1 : Vec Ideal S512x256 .f32) (x2 : Vec Ideal S512x1 .f32)
    (x3 : Vec Ideal S8192x8192 .i32) (i j : Fin 8192) :
    val_main_v16 (F := Ideal) x0 x1 x2 x3 (ix2 i j)
      = scores (featOf x0) (weightOf x1) (att1Of x2) (att2Of x2) (maskOf x3) i j := by
  rw [val_main_v16_apply, val_main_v15_apply, val_main_v14_apply, val_main_c_apply, val_main_v13_apply,
    val_main_v10_apply, val_main_v12_apply, val_main_v11_apply, val_main_cst_0_apply, val_main_v9_apply,
    val_main_cst_apply, val_main_call1_v0_apply, val_main_cst_1_apply, raw_at, leaky_at, select_decide,
    Ideal.ofBits_def, Ideal.ofBits_zero_f32]
  rfl

/-! ## The row maximum -/

/-- The word of −∞ is the bottom of the extended reals. -/
theorem ofBits_neg_inf : Ideal.ofBits .f32 0xFF800000#32 = (⊥ : EReal) := by simp [Ideal.ofBits, Ideal.ieee]

/-- Row i of the score matrix with column k put back is the pair (i, k). -/
theorem lift_row (h : S8192x8192.Reduces [1] S8192) (i : Fin 8192) (k : Fin (S8192x8192.size 1)) :
    h.lift (ix1 i) k = ix2 i (⟨k.val, k.isLt⟩ : Fin 8192) := by
  funext c; apply Fin.ext
  fin_cases c <;> rfl

/-- The row constant the reference subtracts: its maximum, from −∞, of row i's masked scores (the program takes a
    further maximum with −∞), as the program's stages give it at row i. -/
def rowShift (x0 : Vec Ideal S8192x512 .f32) (x1 : Vec Ideal S512x256 .f32) (x2 : Vec Ideal S512x1 .f32)
    (x3 : Vec Ideal S8192x8192 .i32) : Fin 8192 → EReal :=
  fun i => val_main_v19 (F := Ideal) x0 x1 x2 x3 (ix1 i)

/-- The row constant is the fold of max from −∞ over the row's masked scores. -/
theorem rowShift_eq_fold (x0 : Vec Ideal S8192x512 .f32) (x1 : Vec Ideal S512x256 .f32) (x2 : Vec Ideal S512x1 .f32)
    (x3 : Vec Ideal S8192x8192 .i32) (i : Fin 8192) :
    rowShift x0 x1 x2 x3 i
      = (Finset.univ : Finset (Fin 8192)).fold max (⊥ : EReal) (fun k => scores (featOf x0) (weightOf x1) (att1Of x2) (att2Of x2) (maskOf x3) i k) := by
  have hy : ∀ k : Fin 8192, val_main_v16 (F := Ideal) x0 x1 x2 x3 (ix2 i k) = scores (featOf x0) (weightOf x1) (att1Of x2) (att2Of x2) (maskOf x3) i k :=
    fun k => score_at x0 x1 x2 x3 i k
  unfold rowShift
  rw [val_main_v19_apply, val_main_v18_apply, val_main_cst_3_apply]
  unfold val_main_v17
  generalize val_main_v16 (F := Ideal) x0 x1 x2 x3 = y at hy ⊢
  have h : S8192x8192.Reduces [1] S8192 := by decide
  have hr := Host.reduce_eq_fold_single (FloatOps.maximumf (F := Ideal) (φ := .f32)) y (val_main_cst_2 (F := Ideal))
    reducesTo_S8192x8192_S8192_d1 h h_S_ (ix1 i)
  refine (congrArg (FloatOps.maximumf (F := Ideal) (φ := .f32) (FloatOps.ofBits .f32 0xFF800000#32)) hr).trans ?_
  show max (Ideal.ofBits .f32 0xFF800000#32)
      (Finset.fold max (Ideal.ofBits .f32 0xFF800000#32) (y ∘ h.lift (ix1 i)) Finset.univ) = _
  rw [ofBits_neg_inf, max_eq_right bot_le]
  have hf : (y ∘ h.lift (ix1 i)) = fun k : Fin 8192 => scores (featOf x0) (weightOf x1) (att1Of x2) (att2Of x2) (maskOf x3) i k :=
    funext fun k => (congrArg y (lift_row h i k)).trans (hy _)
  exact congrArg (fun f => Finset.fold max (⊥ : EReal) f (Finset.univ : Finset (Fin 8192))) hf

/-- A maximum from −∞ over a finite family of reals is −∞ on the empty family and otherwise a real. -/
theorem fold_max_real {ι : Type} (f : ι → EReal) (hf : ∀ k, ∃ r : ℝ, f k = (r : EReal)) (s : Finset ι) :
    (s = ∅ ∧ s.fold max (⊥ : EReal) f = ⊥) ∨ ∃ r : ℝ, s.fold max (⊥ : EReal) f = (r : EReal) := by
  classical
  induction s using Finset.induction_on with
  | empty => exact Or.inl ⟨rfl, Finset.fold_empty⟩
  | insert a s ha ih =>
    right
    obtain ⟨ra, hra⟩ := hf a
    rw [Finset.fold_insert ha, hra]
    rcases ih with ⟨_, h⟩ | ⟨r, h⟩
    · exact ⟨ra, by rw [h]; exact max_eq_left bot_le⟩
    · exact ⟨max ra r, by rw [h]; exact (EReal.coe_strictMono.monotone.map_max).symm⟩

/-- The row constant is a real when the masked scores are: the row has 8192 of them. -/
theorem rowShift_real (x0 : Vec Ideal S8192x512 .f32) (x1 : Vec Ideal S512x256 .f32) (x2 : Vec Ideal S512x1 .f32)
    (x3 : Vec Ideal S8192x8192 .i32)
    (hs : ∀ i j, ∃ r : ℝ, scores (featOf x0) (weightOf x1) (att1Of x2) (att2Of x2) (maskOf x3) i j = (r : EReal)) (i : Fin 8192) :
    ∃ r : ℝ, rowShift x0 x1 x2 x3 i = (r : EReal) := by
  rw [rowShift_eq_fold]
  rcases fold_max_real (fun k => scores (featOf x0) (weightOf x1) (att1Of x2) (att2Of x2) (maskOf x3) i k) (hs i) Finset.univ with ⟨he, _⟩ | h
  · exact absurd he (Finset.ne_empty_of_mem (Finset.mem_univ (⟨0, by norm_num⟩ : Fin 8192)))
  · exact h

/-! ## The weights, their row sums, and the result -/

/-- What the program subtracts at the pair (i, k) is row i's constant. -/
theorem shift_at (x0 : Vec Ideal S8192x512 .f32) (x1 : Vec Ideal S512x256 .f32) (x2 : Vec Ideal S512x1 .f32)
    (x3 : Vec Ideal S8192x8192 .i32) (i k : Fin 8192) :
    val_main_v21 (F := Ideal) x0 x1 x2 x3 (ix2 i k) = rowShift x0 x1 x2 x3 i := by
  have e : idx_main_v20 (idx_main_v21 (ix2 i k)) = ix1 i :=
    funext fun a => Fin.ext (by match a with | ⟨0, _⟩ => rfl)
  rw [val_main_v21_apply, val_main_v20_apply, e]
  rfl

/-- The unnormalized weight of the pair (i, k): the exponential of the shifted score. -/
theorem weight_at (x0 : Vec Ideal S8192x512 .f32) (x1 : Vec Ideal S512x256 .f32) (x2 : Vec Ideal S512x1 .f32)
    (x3 : Vec Ideal S8192x8192 .i32) (i k : Fin 8192) :
    val_main_v23 (F := Ideal) x0 x1 x2 x3 (ix2 i k)
      = Ideal.exp (scores (featOf x0) (weightOf x1) (att1Of x2) (att2Of x2) (maskOf x3) i k - rowShift x0 x1 x2 x3 i) := by
  rw [val_main_v23_apply, val_main_v22_apply, score_at, shift_at, Ideal.hostUnary_exp_def, Ideal.subf_def]

/-- The divisor at the pair (i, k): zero plus the sum of row i's weights. -/
theorem rowSum_at (x0 : Vec Ideal S8192x512 .f32) (x1 : Vec Ideal S512x256 .f32) (x2 : Vec Ideal S512x1 .f32)
    (x3 : Vec Ideal S8192x8192 .i32) (i k : Fin 8192) :
    val_main_v26 (F := Ideal) x0 x1 x2 x3 (ix2 i k)
      = 0 + ∑ k' : Fin 8192, Ideal.exp (scores (featOf x0) (weightOf x1) (att1Of x2) (att2Of x2) (maskOf x3) i k' - rowShift x0 x1 x2 x3 i) := by
  have e : idx_main_v25 (idx_main_v26 (ix2 i k)) = ix1 i :=
    funext fun a => Fin.ext (by match a with | ⟨0, _⟩ => rfl)
  rw [val_main_v26_apply, val_main_v25_apply, e, val_main_v24_apply, val_main_cst_4_apply, Ideal.ofBits_def,
    Ideal.ofBits_zero_f32]
  refine congrArg (0 + ·) (Finset.sum_congr rfl fun k' _ => ?_)
  have e' : idx_main_v24 (ix1 i) k' = ix2 i k' :=
    funext fun a => Fin.ext (by match a with | ⟨0, _⟩ => rfl | ⟨1, _⟩ => rfl)
  rw [e', weight_at]

/-- The reference's result is the layer in normalize-then-sum form, every row shifted by its maximum. -/
theorem result_eq (x0 : Vec Ideal S8192x512 .f32) (x1 : Vec Ideal S512x256 .f32) (x2 : Vec Ideal S512x1 .f32)
    (x3 : Vec Ideal S8192x8192 .i32) :
    val_main_v29 (F := Ideal) x0 x1 x2 x3
      = fun idx => normalizedLayer (featOf x0) (weightOf x1) (att1Of x2) (att2Of x2) (maskOf x3)
          (rowShift x0 x1 x2 x3) (idx 0) (idx 1) := by
  funext idx
  obtain ⟨p, q, rfl⟩ : ∃ (p : Fin 8192) (q : Fin 256), idx = ix2 p q := ⟨idx 0, idx 1, eq_ix2 idx⟩
  rw [val_main_v29_apply, val_main_call2_v0_apply, val_main_call2_cst_apply, Ideal.ofBits_def, Ideal.ofBits_zero_f32,
    Ideal.maximumf_def, val_main_v28_apply]
  show _ = normalizedLayer (featOf x0) (weightOf x1) (att1Of x2) (att2Of x2) (maskOf x3) (rowShift x0 x1 x2 x3) p q
  unfold normalizedLayer normalizedOut
  refine congrArg (max · 0) (Finset.sum_congr rfl fun k _ => ?_)
  have el : lidx_main_v28 (ix2 p q) k = ix2 p k :=
    funext fun a => Fin.ext (by match a with | ⟨0, _⟩ => rfl | ⟨1, _⟩ => rfl)
  have er : ridx_main_v28 (ix2 p q) k = ix2 k q :=
    funext fun a => Fin.ext (by match a with | ⟨0, _⟩ => rfl | ⟨1, _⟩ => rfl)
  rw [el, er, val_main_v27_apply, weight_at, rowSum_at, proj_at, Ideal.hostDivf_def]

end Cert.ReferenceIdeal.RefValue

end
-- ==== Proof.Finite.lean ====
/-
  From the certificate's precondition to "every float input entry is a real".

  The precondition says that, for each of the three float arrays, every entry x satisfies |x| < +∞, the three statements
  joined by "and". Over the extended reals |x| = max x (−x): it is +∞ exactly when x is +∞ or −∞. So |x| < +∞ leaves
  only the real values.
-/
import proofs.«179567_j26920855011723_2_alg».proof.Defs
import proofs.«179567_j26920855011723_2_alg».proof.Proof.Gen.Pre_finite_inputs
import Idealize.ShloMosaic.Lib.ReduceAll
import Idealize.ShloMosaic.Lib.IdealHost

noncomputable section

namespace Cert.Proof.Finite

open Idealize.ShloMosaic Idealize.SL.Sem

/-- The shape of a scalar has exactly one index. -/
instance : Subsingleton (⟨0, ![]⟩ : Shape).Idx := ⟨fun a b => funext fun d => d.elim0⟩

/-- An extended real whose absolute value is below +∞ is a real. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- If "every entry has absolute value below +∞" holds of an array, each of its entries is a real. -/
theorem entry_real {S : Shape} {axes : List (Fin S.rank)} (x : FVec Ideal S .f32)
    (hb : (⟨0, ![]⟩ : Shape).BroadcastsInDim S ![]) (hr : S.ReducesTo axes ⟨0, ![]⟩)
    (hu : 0 < (⟨0, ![]⟩ : Shape).numel)
    (e : Host.reduce IntOp.andi
          (cmpf .olt (Host.absf x) (broadcastInDim S ![] hb (constant (F := Ideal) ⟨0, ![]⟩ .f32 0x7F800000#32)))
          (constantI ⟨0, ![]⟩ 1 1#1) hr hu ValueIdx.ix0 = 1#1) (j : S.Idx) : ∃ r : ℝ, x j = (r : EReal) := by
  have hj := Host.reduce_andi_all _ _ hr hu ValueIdx.ix0 e j
  have hj' : Ideal.cmp .olt (max (x j) (-(x j)))
      (broadcastInDim S ![] hb (constant (F := Ideal) ⟨0, ![]⟩ .f32 0x7F800000#32) j) = 1#1 := hj
  have hinf : Ideal.ofBits .f32 0x7F800000#32 = (⊤ : EReal) := by simp [Ideal.ofBits, Ideal.ieee]
  have htop : broadcastInDim S ![] hb (constant (F := Ideal) ⟨0, ![]⟩ .f32 0x7F800000#32) j = (⊤ : EReal) :=
    (ValueIdx.broadcastInDim_scalar_apply hb _ j).trans hinf
  rw [htop] at hj'
  exact real_of_abs_lt_top (x j) hj'

variable [hPre_finite_inputs : Cert.Pre_finite_inputs.Facts]

/-- Under the precondition every entry of the three float input arrays is a real, on every device. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ j, ∃ r : ℝ, m ((c.tc : Thread Cert.KernelIdeal.nD Cert.KernelIdeal.τ).loc Cert.KernelIdeal.main_arg0) j = (r : EReal))
    ∧ (∀ j, ∃ r : ℝ, m ((c.tc : Thread Cert.KernelIdeal.nD Cert.KernelIdeal.τ).loc Cert.KernelIdeal.main_arg1) j = (r : EReal))
    ∧ (∀ j, ∃ r : ℝ, m ((c.tc : Thread Cert.KernelIdeal.nD Cert.KernelIdeal.τ).loc Cert.KernelIdeal.main_arg2) j = (r : EReal)) := by
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  exact ⟨entry_real _ _ _ _ h0', entry_real _ _ _ _ h1, entry_real _ _ _ _ h2⟩

end Cert.Proof.Finite

end
-- ==== Proof.lean ====
/-
  A dense graph-attention layer computed two ways, equal over the extended reals when every float input is finite.

  Inputs: features X (8192 × 512), a projection W (512 × 256), two attention vectors a₁, a₂ (the halves of a 512 × 1
  parameter) and an integer adjacency matrix. With H = X·W and the masked leaky scores
  E i j = [adj i j > 0] · leaky (⟨H i, a₁⟩ + ⟨H j, a₂⟩), the layer is out i f = max (∑ⱼ softmax (E i ·) j · H j f) 0.

  The kernel program computes H and the two attention terms in a first kernel; on the host a bound
  b i = max (⟨H i, a₁⟩ + maxⱼ ⟨H j, a₂⟩) 0 of every score of row i; and in a second kernel, over an 8 × 8 grid of
  1024 × 1024 tiles, the weights exp (E i j − b i), their row sums and their products with H accumulated over the eight
  column tiles of a row tile, the quotient taken once at the last column tile and clipped below at zero. The reference
  subtracts the row maximum, normalizes every weight by its row sum, multiplies by H and clips.

  Over the reals a softmax does not depend on the constant subtracted in the exponent: exp (e − c) = exp e · exp (−c),
  and the positive factor exp (−c) cancels between numerator and denominator; a sum over 8192 columns is the sum of its
  eight tile sums. Finiteness of the inputs is what makes every intermediate a real number, so that these laws of the
  real field apply: on the extended reals they fail at the infinities. Hence the precondition is used.

  The frames (each program runs to the end without a fault and leaves its argument arrays as launched) come from
  following the contents of the buffers through the program: host operations, the first kernel's region (each grid
  point stores three blocks computed from the blocks it loaded), host operations, the attention kernel's region (whose
  two accumulators are reset at the first column tile of a row tile, carried between the grid points of the row tile,
  and read at the last). The same run, read at the result array, gives the kernel's value.
-/
import proofs.«179567_j26920855011723_2_alg».proof.Defs
import proofs.«179567_j26920855011723_2_alg».proof.Proof.Gen.Kernel
import proofs.«179567_j26920855011723_2_alg».proof.Proof.Gen.KernelIdeal
import proofs.«179567_j26920855011723_2_alg».proof.Proof.Gen.ReferenceIdeal
import proofs.«179567_j26920855011723_2_alg».proof.Proof.Gen.ReferenceIdeal.Run
import proofs.«179567_j26920855011723_2_alg».proof.Proof.Gen.ReferenceIdeal.Read
import proofs.«179567_j26920855011723_2_alg».proof.Proof.Gen.Pre_finite_inputs
import proofs.«179567_j26920855011723_2_alg».proof.Proof.KB.Run
import proofs.«179567_j26920855011723_2_alg».proof.Proof.KI.KernelValue
import proofs.«179567_j26920855011723_2_alg».proof.Proof.RefValue
import proofs.«179567_j26920855011723_2_alg».proof.Proof.Finite
import proofs.«179567_j26920855011723_2_alg».proof.Proof.SpecLaw
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs to the end and leaves its arguments as launched. -/
theorem frame_kernel : Cert.frame_Kernel := fun m ρ _ => Cert.Kernel.Hand.frame (F := Bits) m ρ

/-- So does its reading over the extended reals. -/
theorem frame_kernelIdeal : Cert.frame_KernelIdeal := fun m ρ _ => Cert.KernelIdeal.Hand.frame (F := Ideal) m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: the idealized kernel is the kernel's own text read over the extended reals. -/
theorem preserves : Cert.preserves_Kernel_KernelIdeal := trivial

/-- Both programs, from memories agreeing on the arguments, end with the same result array: the kernel's is the layer
    in divide-once form, the reference's the layer in normalize-then-sum form, and with real inputs the two forms agree. -/
theorem algebraic : Cert.algebraic_KernelIdeal_ReferenceIdeal := by
  intro m ρ m' ρ' hpre hagree
  refine ⟨fun c => (fun idx : Cert.KernelIdeal.S8192x256.Idx =>
      Cert.GatSpec.tiledLayer (Cert.KernelIdeal.Hand.inX m c) (Cert.KernelIdeal.Hand.inW m c) (Cert.KernelIdeal.Hand.inA1 m c)
        (Cert.KernelIdeal.Hand.inA2 m c) (Cert.KernelIdeal.Hand.inOn m c) (Cert.KernelIdeal.Hand.mxOf m ρ c) (idx 0) (idx 1)), ?_, ?_⟩
  · refine (θ_run Cert.KernelIdeal.defs _ _).mono (fun r h c => ⟨?_, ?_, ?_, ?_, ?_⟩) (Cert.KernelIdeal.Hand.run_all (F := Ideal) m ρ)
    · exact (h c _ (Cert.KernelIdeal.Hand.mem_ucH Cert.KernelIdeal.main_v11 (by decide))).trans (Cert.KernelIdeal.Hand.result_value m ρ c)
    · exact (h c _ (Cert.KernelIdeal.Hand.mem_ucH Cert.KernelIdeal.main_arg0 (by decide))).trans (Cert.KernelIdeal.Hand.E4_main_arg0 m ρ c)
    · exact (h c _ (Cert.KernelIdeal.Hand.mem_ucH Cert.KernelIdeal.main_arg1 (by decide))).trans (Cert.KernelIdeal.Hand.E4_main_arg1 m ρ c)
    · exact (h c _ (Cert.KernelIdeal.Hand.mem_ucH Cert.KernelIdeal.main_arg2 (by decide))).trans (Cert.KernelIdeal.Hand.E4_main_arg2 m ρ c)
    · exact (h c _ (Cert.KernelIdeal.Hand.mem_ucH Cert.KernelIdeal.main_arg3 (by decide))).trans (Cert.KernelIdeal.Hand.E4_main_arg3 m ρ c)
  · refine (θ_run Cert.ReferenceIdeal.defs _ _).mono (fun r h c => ⟨(h c).1.trans ?_, (h c).2⟩)
      (Cert.ReferenceIdeal.Value.run (F := Ideal) m' ρ')
    obtain ⟨r0, r1, r2⟩ := Cert.Proof.Finite.real_of_pre m hpre c
    have hX : ∀ i k, ∃ r : ℝ, Cert.KernelIdeal.Hand.inX m c i k = (r : EReal) := fun i k => r0 _
    have hW : ∀ k f, ∃ r : ℝ, Cert.KernelIdeal.Hand.inW m c k f = (r : EReal) := fun k f => r1 _
    have h₁ : ∀ f, ∃ r : ℝ, Cert.KernelIdeal.Hand.inA1 m c f = (r : EReal) := fun f => r2 _
    have h₂ : ∀ f, ∃ r : ℝ, Cert.KernelIdeal.Hand.inA2 m c f = (r : EReal) := fun f => r2 _
    refine ((Cert.ReferenceIdeal.Read.val_main_v29_eq m' c).trans (Cert.ReferenceIdeal.RefValue.result_eq _ _ _ _)).trans ?_
    rw [(hagree c).1, (hagree c).2.1, (hagree c).2.2.1, (hagree c).2.2.2]
    funext idx
    exact (Cert.GatSpec.tiledLayer_eq_normalizedLayer _ _ _ _ _ _ _ hX hW h₁ h₂
      (Cert.KernelIdeal.Hand.mx_ne_top m ρ c r0 r1 r2)
      (Cert.ReferenceIdeal.RefValue.rowShift_real _ _ _ _ (Cert.GatSpec.scores_real _ _ _ _ _ hX hW h₁ h₂))
      (idx 0) (idx 1)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
